-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S26x1000 : Shape := ⟨2, ![26, 1000]⟩
abbrev S_ : Shape := ⟨0, ![]⟩

class Facts : Prop where
  bcast_S_S26x1000 : S_.BroadcastsInDim S26x1000 (![] : Fin 0 → Fin S26x1000.rank)
  reducesTo_S26x1000_S_d0_1 : S26x1000.ReducesTo [0, 1] S_
  h_S_ : 0 < S_.numel
  bcast_S_S16384x26 : S_.BroadcastsInDim S16384x26 (![] : Fin 0 → Fin S16384x26.rank)
  reducesTo_S16384x26_S_d0_1 : S16384x26.ReducesTo [0, 1] S_

variable [Facts]

def fn {F : FTy → Type} [FloatOps F] (main_arg0 : IVec S16384x26 32) (main_arg1 : FVec F S26x1000 .f32) (main_arg2 : FVec F S26x1000 .f32) : IVec S_ 1 :=
  let main_v0 : FVec F S26x1000 .f32 := Host.absf main_arg1
  let main_cst : FVec F S_ .f32 := constant S_ .f32 0x7F800000#32
  let main_v1 : FVec F S26x1000 .f32 := broadcastInDim S26x1000 ![] bcast_S_S26x1000 main_cst
  let main_v2 : IVec S26x1000 1 := cmpf .olt main_v0 main_v1
  let main_c : IVec S_ 1 := constantI S_ 1 1#1
  let main_v3 : IVec S_ 1 := (fun x v => Host.reduce IntOp.andi x v reducesTo_S26x1000_S_d0_1 h_S_) main_v2 main_c
  let main_v4 : FVec F S26x1000 .f32 := Host.absf main_arg2
  let main_cst_0 : FVec F S_ .f32 := constant S_ .f32 0x7F800000#32
  let main_v5 : FVec F S26x1000 .f32 := broadcastInDim S26x1000 ![] bcast_S_S26x1000 main_cst_0
  let main_v6 : IVec S26x1000 1 := cmpf .olt main_v4 main_v5
  let main_c_1 : IVec S_ 1 := constantI S_ 1 1#1
  let main_v7 : IVec S_ 1 := (fun x v => Host.reduce IntOp.andi x v reducesTo_S26x1000_S_d0_1 h_S_) main_v6 main_c_1
  let main_v8 : IVec S_ 1 := andi main_v3 main_v7
  let main_c_2 : IVec S_ 32 := constantI S_ 32 0#32
  let main_v9 : IVec S16384x26 32 := broadcastInDim S16384x26 ![] bcast_S_S16384x26 main_c_2
  let main_v10 : IVec S16384x26 1 := cmpi .sge main_arg0 main_v9
  let main_c_3 : IVec S_ 32 := constantI S_ 32 999#32
  let main_v11 : IVec S16384x26 32 := broadcastInDim S16384x26 ![] bcast_S_S16384x26 main_c_3
  let main_v12 : IVec S16384x26 1 := cmpi .sle main_arg0 main_v11
  let main_v13 : IVec S16384x26 1 := andi main_v10 main_v12
  let main_c_4 : IVec S_ 1 := constantI S_ 1 1#1
  let main_v14 : IVec S_ 1 := (fun x v => Host.reduce IntOp.andi x v reducesTo_S16384x26_S_d0_1 h_S_) main_v13 main_c_4
  let main_v15 : IVec S_ 1 := andi main_v8 main_v14
  main_v15
-- ==== Kernel.lean ====
abbrev S16384x26 : Shape := ⟨2, ![16384, 26]⟩
abbrev S26x1000 : Shape := ⟨2, ![26, 1000]⟩
abbrev S128x26 : Shape := ⟨2, ![128, 26]⟩
abbrev S_ : Shape := ⟨0, ![]⟩
abbrev S16 : Shape := ⟨1, ![16]⟩
abbrev S1x16 : Shape := ⟨2, ![1, 16]⟩

abbrev nBuf : Table → Nat
  | .hbm => 5
  | .local .scVector .vmem => 5
  | _ => 0

abbrev bufTy : (tb : Table) → Fin (nBuf tb) → BufTy
  | .hbm, ⟨0, _⟩ => ⟨S16384x26, .i32⟩
  | .hbm, ⟨1, _⟩ => ⟨S26x1000, .f32⟩
  | .hbm, ⟨2, _⟩ => ⟨S26x1000, .f32⟩
  | .hbm, ⟨3, _⟩ => ⟨S16384x26, .f32⟩
  | .hbm, ⟨4, _⟩ => ⟨S16384x26, .f32⟩
  | .local .scVector .vmem, ⟨0, _⟩ => ⟨S128x26, .i32⟩
  | .local .scVector .vmem, ⟨1, _⟩ => ⟨S26x1000, .f32⟩
  | .local .scVector .vmem, ⟨2, _⟩ => ⟨S26x1000, .f32⟩
  | .local .scVector .vmem, ⟨3, _⟩ => ⟨S128x26, .f32⟩
  | .local .scVector .vmem, ⟨4, _⟩ => ⟨S128x26, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 3, rfl⟩
abbrev main_v0_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v6 : BitVec 32 := Scalar.addi c0_i32_0 c4_i32
  let c1_i32 : BitVec 32 := 1#32
  ⟨c0_i32_0, v6, c1_i32⟩
def k0_off1 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_0 : BitVec 32 := 0#32
  let c1_i32 : BitVec 32 := 1#32
  let arg12 : BitVec 32 := Scf.iv c0_i32_0 c1_i32 k0_t1
  let c128_i32 : BitVec 32 := 128#32
  let v7 : BitVec 32 := Scalar.muli arg12 c128_i32
  let v8 : BitVec 32 := Scalar.addi v2 v7
  let c0_i32_7_r2 : BitVec 32 := 0#32
  ![v8.toNat, 0]
@[reducible] def k0_t2_loop : Scf.Loop 32 :=
  let c0_i32_3 : BitVec 32 := 0#32
  let c128_i32_4 : BitVec 32 := 128#32
  let v9 : BitVec 32 := Scalar.addi c0_i32_3 c128_i32_4
  let c1_i32_5 : BitVec 32 := 1#32
  ⟨c0_i32_3, v9, c1_i32_5⟩
def k0_off2 (k0_t2 : Fin k0_t2_loop.trips) : Fin 2 → Nat :=
  let c0_i32_3 : BitVec 32 := 0#32
  let c1_i32_5 : BitVec 32 := 1#32
  let arg13 : BitVec 32 := Scf.iv c0_i32_3 c1_i32_5 k0_t2
  let v10 : Index := Scalar.indexCast arg13
  let c0 : Index := 0#32
  ![v10.toNat, 0]
def k0_off3 (k0_t2 : Fin k0_t2_loop.trips) : Fin 2 → Nat :=
  let c0_i32_3 : BitVec 32 := 0#32
  let c1_i32_5 : BitVec 32 := 1#32
  let arg13 : BitVec 32 := Scf.iv c0_i32_3 c1_i32_5 k0_t2
  let v12 : Index := Scalar.indexCast arg13
  let c10 : Index := 10#32
  ![v12.toNat, 10]
def k0_off4 (k0_t2 : Fin k0_t2_loop.trips) : Fin 2 → Nat :=
  let c0_i32_3 : BitVec 32 := 0#32
  let c1_i32_5 : BitVec 32 := 1#32
  let arg13 : BitVec 32 := Scf.iv c0_i32_3 c1_i32_5 k0_t2
  let v15 : Index := Scalar.indexCast arg13
  let c0_7 : Index := 0#32
  ![v15.toNat, 0]
def k0_off5 (k0_t2 : Fin k0_t2_loop.trips) : Fin 2 → Nat :=
  let c0_i32_3 : BitVec 32 := 0#32
  let c1_i32_5 : BitVec 32 := 1#32
  let arg13 : BitVec 32 := Scf.iv c0_i32_3 c1_i32_5 k0_t2
  let v18 : Index := Scalar.indexCast arg13
  let c10_8 : Index := 10#32
  ![v18.toNat, 10]

def k0_chk1 (v3 : IVec S16 32) (v11 : IVec S16 32) : Prop :=
  (∀ a x, ((![v3, v11] : Fin 2 → IVec S16 32) a x).toNat < S26x1000.size a) ∧
  (∀ a x, ((![v3, v11] : Fin 2 → IVec S16 32) a x).toNat < S26x1000.size a)
instance k0_chk1.dec : ∀ (v3 : IVec S16 32) (v11 : IVec S16 32), Decidable (k0_chk1 v3 v11) := fun v3 v11 => decidable_of_iff' _ (Iff.of_eq (k0_chk1.eq_1 v3 v11))
theorem k0_idx1_inb : ∀ (v3 : IVec S16 32) (v11 : IVec S16 32) (k0_hw1 : k0_chk1 v3 v11), ∀ a x, ((![v3, v11] : Fin 2 → IVec S16 32) a x).toNat < S26x1000.size a := fun v3 v11 k0_hw1 => k0_hw1.1
theorem k0_idx3_inb : ∀ (v3 : IVec S16 32) (v11 : IVec S16 32) (k0_hw1 : k0_chk1 v3 v11), ∀ a x, ((![v3, v11] : Fin 2 → IVec S16 32) a x).toNat < S26x1000.size a := fun v3 v11 k0_hw1 => k0_hw1.2
def k0_off6 (k0_t2 : Fin k0_t2_loop.trips) : Fin 2 → Nat :=
  let c0_i32_3 : BitVec 32 := 0#32
  let c1_i32_5 : BitVec 32 := 1#32
  let arg13 : BitVec 32 := Scf.iv c0_i32_3 c1_i32_5 k0_t2
  let v21 : Index := Scalar.indexCast arg13
  let c0_9 : Index := 0#32
  ![v21.toNat, 0]

def k0_chk2 (v5 : IVec S16 32) (v13 : IVec S16 32) : Prop :=
  (∀ a x, ((![v5, v13] : Fin 2 → IVec S16 32) a x).toNat < S26x1000.size a) ∧
  (∀ a x, ((![v5, v13] : Fin 2 → IVec S16 32) a x).toNat < S26x1000.size a)
instance k0_chk2.dec : ∀ (v5 : IVec S16 32) (v13 : IVec S16 32), Decidable (k0_chk2 v5 v13) := fun v5 v13 => decidable_of_iff' _ (Iff.of_eq (k0_chk2.eq_1 v5 v13))
theorem k0_idx2_inb : ∀ (v5 : IVec S16 32) (v13 : IVec S16 32) (k0_hw2 : k0_chk2 v5 v13), ∀ a x, ((![v5, v13] : Fin 2 → IVec S16 32) a x).toNat < S26x1000.size a := fun v5 v13 k0_hw2 => k0_hw2.1
theorem k0_idx4_inb : ∀ (v5 : IVec S16 32) (v13 : IVec S16 32) (k0_hw2 : k0_chk2 v5 v13), ∀ a x, ((![v5, v13] : Fin 2 → IVec S16 32) a x).toNat < S26x1000.size a := fun v5 v13 k0_hw2 => k0_hw2.2
def k0_off7 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_0 : BitVec 32 := 0#32
  let c1_i32 : BitVec 32 := 1#32
  let arg12 : BitVec 32 := Scf.iv c0_i32_0 c1_i32 k0_t1
  let c128_i32 : BitVec 32 := 128#32
  let v7 : BitVec 32 := Scalar.muli arg12 c128_i32
  let v8 : BitVec 32 := Scalar.addi v2 v7
  let c0_i32_7_r3 : BitVec 32 := 0#32
  ![v8.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S16_d0_w32_scVector : S16.Iotas .scVector 32 [0]
  h_S1x16 : 0 < S1x16.numel
  shapeCasts_S1x16_S16 : S1x16.ShapeCasts S16
  h_S26x1000 : 0 < S26x1000.numel
  shapeCasts_S16_S1x16 : S16.ShapeCasts S1x16
  hcc0_scoped0 : 0 + S_.numel ≤ 5
  hcc0_scoped1 : 1 + S_.numel ≤ 5
  hcc0_scoped2 : 2 + S_.numel ≤ 5
  hcc0_scoped3 : 3 + S_.numel ≤ 5
  hcc0_scoped4 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S128x26.size a ≤ S16384x26.size a
  k0_t2_ok : k0_t2_loop.OK
  k0_off2_inb : ∀ k0_t2 : Fin k0_t2_loop.trips, ∀ a, (k0_off2 k0_t2) a + S1x16.size a ≤ S128x26.size a
  k0_off3_inb : ∀ k0_t2 : Fin k0_t2_loop.trips, ∀ a, (k0_off3 k0_t2) a + S1x16.size a ≤ S128x26.size a
  k0_off4_inb : ∀ k0_t2 : Fin k0_t2_loop.trips, ∀ a, (k0_off4 k0_t2) a + S1x16.size a ≤ S128x26.size a
  k0_off5_inb : ∀ k0_t2 : Fin k0_t2_loop.trips, ∀ a, (k0_off5 k0_t2) a + S1x16.size a ≤ S128x26.size a
  k0_off6_inb : ∀ k0_t2 : Fin k0_t2_loop.trips, ∀ a, (k0_off6 k0_t2) a + S1x16.size a ≤ S128x26.size a
  k0_off7_inb : ∀ (i : grid0.Coords) (k0_t1 : Fin k0_t1_loop.trips), ∀ a, (k0_off7 i k0_t1) a + S128x26.size a ≤ S16384x26.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4

class Facts : Prop extends Facts₀ where

variable [Facts]
-- ==== ReferenceIdeal.lean ====
abbrev S16384x26 : Shape := ⟨2, ![16384, 26]⟩
abbrev S26x1000 : Shape := ⟨2, ![26, 1000]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩

abbrev nBuf : Space → Nat
  | .hbm => 43
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S26x1000, .f32⟩
  | .hbm, ⟨2, _⟩ => ⟨S26x1000, .f32⟩
  | .hbm, ⟨3, _⟩ => ⟨S26, .i32⟩
  | .hbm, ⟨4, _⟩ => ⟨S1x26, .i32⟩
  | .hbm, ⟨5, _⟩ => ⟨S_, .i32⟩
  | .hbm, ⟨6, _⟩ => ⟨S1x26, .i32⟩
  | .hbm, ⟨7, _⟩ => ⟨S1x26, .i1⟩
  | .hbm, ⟨8, _⟩ => ⟨S_, .i32⟩
  | .hbm, ⟨9, _⟩ => ⟨S1x26, .i32⟩
  | .hbm, ⟨10, _⟩ => ⟨S1x26, .i32⟩
  | .hbm, ⟨11, _⟩ => ⟨S1x26, .i32⟩
  | .hbm, ⟨12, _⟩ => ⟨S_, .i32⟩
  | .hbm, ⟨13, _⟩ => ⟨S16384x26, .i32⟩
  | .hbm, ⟨14, _⟩ => ⟨S16384x26, .i1⟩
  | .hbm, ⟨15, _⟩ => ⟨S_, .i32⟩
  | .hbm, ⟨16, _⟩ => ⟨S16384x26, .i32⟩
  | .hbm, ⟨17, _⟩ => ⟨S16384x26, .i32⟩
  | .hbm, ⟨18, _⟩ => ⟨S16384x26, .i32⟩
  | .hbm, ⟨19, _⟩ => ⟨S16384x26, .i32⟩
  | .hbm, ⟨20, _⟩ => ⟨S16384x26x1, .i32⟩
  | .hbm, ⟨21, _⟩ => ⟨S16384x26x1, .i32⟩
  | .hbm, ⟨22, _⟩ => ⟨S16384x26x2, .i32⟩
  | .hbm, ⟨23, _⟩ => ⟨S16384x26, .f32⟩
  | .hbm, ⟨24, _⟩ => ⟨S_, .i32⟩
  | .hbm, ⟨25, _⟩ => ⟨S1x26, .i32⟩
  | .hbm, ⟨26, _⟩ => ⟨S1x26, .i1⟩
  | .hbm, ⟨27, _⟩ => ⟨S_, .i32⟩
  | .hbm, ⟨28, _⟩ => ⟨S1x26, .i32⟩
  | .hbm, ⟨29, _⟩ => ⟨S1x26, .i32⟩
  | .hbm, ⟨30, _⟩ => ⟨S1x26, .i32⟩
  | .hbm, ⟨31, _⟩ => ⟨S_, .i32⟩
  | .hbm, ⟨32, _⟩ => ⟨S16384x26, .i32⟩
  | .hbm, ⟨33, _⟩ => ⟨S16384x26, .i1⟩
  | .hbm, ⟨34, _⟩ => ⟨S_, .i32⟩
  | .hbm, ⟨35, _⟩ => ⟨S16384x26, .i32⟩
  | .hbm, ⟨36, _⟩ => ⟨S16384x26, .i32⟩
  | .hbm, ⟨37, _⟩ => ⟨S16384x26, .i32⟩
  | .hbm, ⟨38, _⟩ => ⟨S16384x26, .i32⟩
  | .hbm, ⟨39, _⟩ => ⟨S16384x26x1, .i32⟩
  | .hbm, ⟨40, _⟩ => ⟨S16384x26x1, .i32⟩
  | .hbm, ⟨41, _⟩ => ⟨S16384x26x2, .i32⟩
  | .hbm, ⟨42, _⟩ => ⟨S16384x26, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  gather_S26x1000_S16384x26x2_S16384x26_n_01_n_n_01_2_11_wf : GatherDims.WF S26x1000 S16384x26x2 S16384x26 [] [0, 1] [] [0, 1] [] 2 ![1, 1]

variable [Facts₀]

def gather_S26x1000_S16384x26x2_S16384x26_n_01_n_n_01_2_11 : GatherDims S26x1000 S16384x26x2 S16384x26 where
  offsetDims := []
  collapsedSliceDims := [0, 1]
  operandBatchingDims := []
  startIndicesBatchingDims := []
  startIndexMap := [0, 1]
  indexVectorDim := 2
  sliceSizes := ![1, 1]
  wf := gather_S26x1000_S16384x26x2_S16384x26_n_01_n_n_01_2_11_wf

class Facts : Prop extends Facts₀ where

variable [Facts]
-- ==== Proof.PreLabels.lean ====
/-
  The precondition read back at the labels.

  The precondition is the conjunction of three tests, each a reduction by `and` over a whole array down to a single
  bit: the first table's absolute values are below infinity, the second table's are, and every label l satisfies
  0 ≤ l and l ≤ 999, both compared signed. When the conjunction is 1 its third conjunct is 1, so the reduction by
  `and` over the 16384 × 26 array of bits (0 ≤ l) ∧ (l ≤ 999) is 1, and so each of those bits is 1. A 32-bit word
  whose signed reading lies in [0, 999] has its top bit clear, so its unsigned reading is the same number: every label,
  read unsigned, is below 1000. The two float conjuncts are not needed and are dropped.
-/
import proofs.«200214_g45973329936461_cont_8to1_c_83_7_alg».proof.Proof.Gen.Pre_input_domain
import Idealize.ShloMosaic.Lib.ReduceAll
import Idealize.ShloMosaic.Lib.ValueIdx

noncomputable section

namespace Cert.PreLabels

open Idealize.ShloMosaic Idealize.ShloMosaic.ValueIdx
open Cert.Pre_input_domain Cert.Pre_input_domain.Gen

/-- The rank-0 shape has one index. -/
instance : Subsingleton S_.Idx := ⟨fun a b => funext fun d => d.elim0⟩

/-- A 32-bit word with 0 ≤ w ≤ 999 signed is below 1000 unsigned. -/
theorem toNat_lt_of_signed (w : BitVec 32) (h0 : IntOp.cmpi .sge w 0#32 = 1#1) (h9 : IntOp.cmpi .sle w 999#32 = 1#1) :
    w.toNat < 1000 := by
  rw [IntOp.cmpi_sge] at h0
  rw [IntOp.cmpi_sle] at h9
  have e := BitVec.toInt_eq_toNat_cond w
  have hlt := w.isLt
  have z : (0#32 : BitVec 32).toInt = 0 := by decide
  have n : (999#32 : BitVec 32).toInt = 999 := by decide
  rw [z] at h0
  rw [n] at h9
  omega

/-- Under the precondition every label is a word below 1000. -/
theorem labels_lt {F : FTy → Type} [FloatOps F] (a0 : IVec S16384x26 32) (a1 a2 : FVec F S26x1000 .f32)
    (h : Cert.Pre_input_domain.fn (F := F) a0 a1 a2 = fun _ => 1#1) : ∀ j, (a0 j).toNat < 1000 := by
  intro j
  have e := congrFun h ix0
  dsimp only [Cert.Pre_input_domain.fn] at e
  -- the outer conjunction: keep its last conjunct, the reduction over the labels
  have e14 := (IntOp.andi_eq_one.1 e).2
  -- every bit of the reduced array is 1; read the one at j
  have ej := Host.reduce_andi_all _ _ _ _ _ e14 j
  obtain ⟨h0, h9⟩ := IntOp.andi_eq_one.1 ej
  exact toNat_lt_of_signed (a0 j) h0 h9

end Cert.PreLabels

end
-- ==== Proof.Spec.lean ====
/-
  The function both programs compute, stated once over literal shapes.

  For a batch of 16384 rows of 26 labels and a table of 26 rows by 1000 columns, entry (b, d) of the result is the
  table's row d read at the column that label (b, d) names: out[b, d] = table[d, label[b, d]]. The label is read as
  an unsigned word and reduced modulo 1000 so that the function is total; on labels below 1000 (all that the
  precondition admits) the reduction changes nothing.
-/
import Idealize.ShloMosaic.Lib.ValueIdx

noncomputable section

namespace Cert.Spec

open Idealize.ShloMosaic Idealize.ShloMosaic.ValueIdx

/-- The batch of labels and the results: 16384 rows of 26 entries. -/
abbrev SB : Shape := ⟨2, ![16384, 26]⟩
/-- A table: 26 rows of 1000 columns. -/
abbrev ST : Shape := ⟨2, ![26, 1000]⟩

/-- The column of the table a label word names. -/
def col (w : BitVec 32) : Fin 1000 := ⟨w.toNat % 1000, Nat.mod_lt _ (by decide)⟩

theorem col_val_of_lt {w : BitVec 32} (h : w.toNat < 1000) : (col w).val = w.toNat := Nat.mod_eq_of_lt h

/-- Entry (b, d) of the result: row d of the table at the column label (b, d) names. -/
def lookup {α : Type} (lab : SB.Idx → BitVec 32) (tab : ST.Idx → α) : SB.Idx → α :=
  fun j => tab (ix2 (j 1) (col (lab j)))

theorem lookup_apply {α : Type} (lab : SB.Idx → BitVec 32) (tab : ST.Idx → α) (b : Fin 16384) (d : Fin 26) :
    lookup lab tab (ix2 b d) = tab (ix2 d (col (lab (ix2 b d)))) := rfl

end Cert.Spec

end
-- ==== Proof.RefLookup.lean ====
/-
  The reference program's two results are the specification's table lookup.

  Each result is a gather from a table of 26 rows by 1000 columns at an array of start indices of shape
  [16384, 26, 2]. Component 0 of the start index at (b, d) is the row number d: an iota over the 26 rows, passed
  through "if negative add 26", which changes nothing because a word below 2^31 is not negative. Component 1 is the
  label at (b, d) passed through "if negative add 1000", which changes nothing either once the label is below 1000.
  The gather reads the table at the start index, each component read as a signed integer and clamped into the
  table's range (rows into [0, 25], columns into [0, 999]); for a row number below 26 and a label below 1000 the
  clamp is the identity, so entry (b, d) of the result is the table at (d, label (b, d)), which is the
  specification's lookup.
-/
import proofs.«200214_g45973329936461_cont_8to1_c_83_7_alg».proof.Proof.Gen.ReferenceIdeal.Read
import proofs.«200214_g45973329936461_cont_8to1_c_83_7_alg».proof.Proof.Spec
import Idealize.ShloMosaic.Lib.ValueIdx
import Idealize.ShloMosaic.Lib.Pipeline.Value

noncomputable section

namespace Cert.RefLookup

open Cert.ReferenceIdeal Cert.ReferenceIdeal.Gen Idealize.ShloMosaic Idealize.ShloMosaic.ValueIdx

variable {F : FTy → Type} [FloatOps F]

/-! ## Words: a word below 2^31 read as a signed integer -/

/-- A word below 2^31 is its own value as a signed integer. -/
theorem toInt_of_lt (w : BitVec 32) (h : w.toNat < 2 ^ 31) : w.toInt = (w.toNat : Int) := by
  rw [BitVec.toInt_eq_toNat_cond, if_pos (by omega)]

/-- Read signed and then as a natural number, a word below 2^31 is its value. -/
theorem toInt_toNat_of_lt (w : BitVec 32) (h : w.toNat < 2 ^ 31) : w.toInt.toNat = w.toNat := by
  rw [toInt_of_lt w h]; omega

/-- A word below 2^31 is not negative: the signed comparison "less than zero" answers the bit 0. -/
theorem slt_zero_of_lt (w : BitVec 32) (h : w.toNat < 2 ^ 31) : IntOp.cmpi .slt w 0#32 = 0#1 := by
  have hs : w.slt 0#32 = false := by
    rw [BitVec.slt_eq_decide]
    refine decide_eq_false ?_
    rw [toInt_of_lt w h, BitVec.toInt_zero]
    omega
  show BitVec.ofBool (w.slt 0#32) = 0#1
  rw [hs]; rfl

/-- The word of a natural number below 2^31 has that value. -/
theorem toNat_ofNat_of_lt (n : Nat) (h : n < 2 ^ 31) : (BitVec.ofNat 32 n).toNat = n := by
  rw [BitVec.toNat_ofNat]; omega

/-! ## The two components of the start index, before they are joined -/

/-- The row numbers after "if negative add 26": the iota itself. -/
theorem rows_apply (i : S1x26.Idx) : Read.val_main_v6 (F := F) i = BitVec.ofNat 32 (i 1).val := by
  have h26 : (i 1).val < 26 := (i 1).isLt
  rw [Read.val_main_v6_apply, Read.val_main_v3_apply, Read.val_main_v2_apply, Read.val_main_c_apply,
    Read.val_main_v1_apply, Read.val_main_v0_apply]
  show Scalar.select (IntOp.cmpi .slt (BitVec.ofNat 32 (i 1).val) 0#32) _ (BitVec.ofNat 32 (i 1).val) = _
  rw [slt_zero_of_lt _ (by rw [toNat_ofNat_of_lt _ (by omega)]; omega), select_zero]

/-- Component 0 of the start index at (b, d): the word of the row number d. -/
theorem rows_at (b : Fin 16384) (d : Fin 26) :
    Read.val_main_v13 (F := F) (ix3 b d (0 : Fin 1)) = BitVec.ofNat 32 d.val := by
  rw [Read.val_main_v13_apply, Read.val_main_v12_apply, rows_apply]

/-- The labels after "if negative add 1000": a label below 2^31 is kept. -/
theorem labels_apply (x0 : (⟨S16384x26, .i32⟩ : BufTy).Contents (Elt F)) (i : S16384x26.Idx)
    (h : (x0 i).toNat < 2 ^ 31) : Read.val_main_v11 (F := F) x0 i = x0 i := by
  rw [Read.val_main_v11_apply, Read.val_main_v8_apply, Read.val_main_v7_apply, Read.val_main_c_1_apply,
    slt_zero_of_lt _ h, select_zero]

/-- Component 1 of the start index at (b, d): the label at (b, d). -/
theorem labels_at (x0 : (⟨S16384x26, .i32⟩ : BufTy).Contents (Elt F)) (b : Fin 16384) (d : Fin 26)
    (h : (x0 (ix2 b d)).toNat < 2 ^ 31) :
    Read.val_main_v14 (F := F) x0 (ix3 b d (0 : Fin 1)) = x0 (ix2 b d) := by
  have e : Read.idx_main_v14 (ix3 b d (0 : Fin 1)) = ix2 b d := by
    funext a
    match a with
    | ⟨0, _⟩ => rfl
    | ⟨1, _⟩ => rfl
  rw [Read.val_main_v14_apply, e, labels_apply x0 _ h]

/-! ## The start indices: the two components joined along the last axis -/

/-- At position 0 of the last axis the joined array is the first piece. -/
theorem start_at0 (x0 : (⟨S16384x26, .i32⟩ : BufTy).Contents (Elt F)) (b : Fin 16384) (d : Fin 26) :
    Read.val_main_v15 (F := F) x0 (ix3 b d (0 : Fin 2)) = Read.val_main_v13 (F := F) (ix3 b d (0 : Fin 1)) := by
  unfold Read.val_main_v15
  exact concatenate_pair_apply_left (t := S16384x26x2) (s₁ := S16384x26x1) (s₂ := S16384x26x1) (2 : Fin 3)
    (Read.val_main_v13 (F := F)) (Read.val_main_v14 (F := F) x0) concatenates_S16384x26x1_S16384x26x1_S16384x26x2_d2
    (ix3 b d (0 : Fin 2)) rfl (ix3 b d (0 : Fin 1)) (fun a => match a with
    | ⟨0, _⟩ => rfl
    | ⟨1, _⟩ => rfl
    | ⟨2, _⟩ => rfl)

/-- At position 1 of the last axis the joined array is the second piece, at position 0. -/
theorem start_at1 (x0 : (⟨S16384x26, .i32⟩ : BufTy).Contents (Elt F)) (b : Fin 16384) (d : Fin 26) :
    Read.val_main_v15 (F := F) x0 (ix3 b d (1 : Fin 2)) = Read.val_main_v14 (F := F) x0 (ix3 b d (0 : Fin 1)) := by
  unfold Read.val_main_v15
  exact concatenate_pair_apply_right (t := S16384x26x2) (s₁ := S16384x26x1) (s₂ := S16384x26x1) (2 : Fin 3)
    (Read.val_main_v13 (F := F)) (Read.val_main_v14 (F := F) x0) concatenates_S16384x26x1_S16384x26x1_S16384x26x2_d2
    (ix3 b d (1 : Fin 2)) rfl rfl (ix3 b d (0 : Fin 1)) (fun a => match a with
    | ⟨0, _⟩ => fun _ => rfl
    | ⟨1, _⟩ => fun _ => rfl
    | ⟨2, _⟩ => fun hne => absurd rfl hne) rfl

/-! ## The gather read at an index -/

/-- The gather's dimension numbers: both operand axes collapsed, both named by the start index map, the index
    vector on the start indices' last axis, slices of one element. -/
abbrev gd : GatherDims S26x1000 S16384x26x2 S16384x26 := gather_S26x1000_S16384x26x2_S16384x26_n_01_n_n_01_2_11

/-- The start-indices index at which result index y reads component 0 of its start index: (y 0, y 1, 0). -/
theorem siIdx_zero (y : S16384x26.Idx) :
    gd.siIdx y ⟨List.idxOf (0 : Fin 2) gd.startIndexMap, List.idxOf_lt_length_iff.2 (by decide)⟩
      = ix3 (y 0) (y 1) (0 : Fin 2) := by
  funext b; refine Fin.ext ?_
  match b with
  | ⟨0, _⟩ => rfl
  | ⟨1, _⟩ => rfl
  | ⟨2, _⟩ => rfl

/-- The start-indices index at which result index y reads component 1 of its start index: (y 0, y 1, 1). -/
theorem siIdx_one (y : S16384x26.Idx) :
    gd.siIdx y ⟨List.idxOf (1 : Fin 2) gd.startIndexMap, List.idxOf_lt_length_iff.2 (by decide)⟩
      = ix3 (y 0) (y 1) (1 : Fin 2) := by
  funext b; refine Fin.ext ?_
  match b with
  | ⟨0, _⟩ => rfl
  | ⟨1, _⟩ => rfl
  | ⟨2, _⟩ => rfl

/-- THE GATHER READ AT y: the table at (r, c), where r is component 0 of the start index at y read signed and
    clamped into [0, 25] and c is component 1 read signed and clamped into [0, 999]. Neither axis has a batching
    or an offset coordinate (both are collapsed), so the operand index is the clamped start index alone. -/
theorem gather_apply {α : Type} {w : Nat} (x : S26x1000.Idx → α) (idx : IVec S16384x26x2 w) (y : S16384x26.Idx)
    (r : Fin 26) (c : Fin 1000)
    (hr : min (idx (ix3 (y 0) (y 1) (0 : Fin 2))).toInt.toNat 25 = r.val)
    (hc : min (idx (ix3 (y 0) (y 1) (1 : Fin 2))).toInt.toNat 999 = c.val) :
    Host.gather gd x idx y = x (ix2 r c) := by
  unfold Host.gather
  congr 1
  funext a
  refine Fin.ext ?_
  match a with
  | ⟨0, _⟩ =>
    show gd.start y idx (0 : Fin 2) + gd.batchCoord y (0 : Fin 2) + gd.offCoord y (0 : Fin 2) = r.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gd.startIndexMap by decide), siIdx_zero]
    exact hr
  | ⟨1, _⟩ =>
    show gd.start y idx (1 : Fin 2) + gd.batchCoord y (1 : Fin 2) + gd.offCoord y (1 : Fin 2) = c.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gd.startIndexMap by decide), siIdx_one]
    exact hc

/-! ## The results are the specification -/

/-- Component 0 of the start index at (b, d), read signed and clamped into [0, 25], is d. -/
theorem row_clamp (d : Fin 26) : min (BitVec.ofNat 32 d.val).toInt.toNat 25 = d.val := by
  have hd : d.val < 26 := d.isLt
  rw [toInt_toNat_of_lt _ (by rw [toNat_ofNat_of_lt _ (by omega)]; omega), toNat_ofNat_of_lt _ (by omega)]
  omega

/-- A label below 1000, read signed and clamped into [0, 999], is the column the specification reads. -/
theorem col_clamp (w : BitVec 32) (h : w.toNat < 1000) : min w.toInt.toNat 999 = (Cert.Spec.col w).val := by
  rw [toInt_toNat_of_lt _ (by omega), Cert.Spec.col_val_of_lt h]
  omega

/-- The first result: the first table looked up at the labels. -/
theorem ref_v16 (x0 : (⟨S16384x26, .i32⟩ : BufTy).Contents (Elt F)) (x1 : (⟨S26x1000, .f32⟩ : BufTy).Contents (Elt F))
    (hlab : ∀ j, (x0 j).toNat < 1000) :
    Read.val_main_v16 (F := F) x0 x1 = Cert.Spec.lookup x0 x1 := by
  funext j
  obtain ⟨b, d, rfl⟩ : ∃ b d, j = ix2 b d := ⟨j 0, j 1, eq_ix2 j⟩
  have hl := hlab (ix2 b d)
  rw [Cert.Spec.lookup_apply]
  unfold Read.val_main_v16
  refine gather_apply x1 _ (ix2 b d) d (Cert.Spec.col (x0 (ix2 b d))) ?_ ?_
  · show min (Read.val_main_v15 (F := F) x0 (ix3 b d (0 : Fin 2))).toInt.toNat 25 = d.val
    rw [start_at0, rows_at]
    exact row_clamp d
  · show min (Read.val_main_v15 (F := F) x0 (ix3 b d (1 : Fin 2))).toInt.toNat 999 = _
    rw [start_at1, labels_at x0 b d (by omega)]
    exact col_clamp _ hl

/-! ## The second result: the same program text over the second table -/

/-- The row numbers after "if negative add 26", second copy: the iota itself. -/
theorem rows2_apply (i : S1x26.Idx) : Read.val_main_v21 (F := F) i = BitVec.ofNat 32 (i 1).val := by
  have h26 : (i 1).val < 26 := (i 1).isLt
  rw [Read.val_main_v21_apply, Read.val_main_v18_apply, Read.val_main_v17_apply, Read.val_main_c_3_apply,
    Read.val_main_v1_apply, Read.val_main_v0_apply]
  show Scalar.select (IntOp.cmpi .slt (BitVec.ofNat 32 (i 1).val) 0#32) _ (BitVec.ofNat 32 (i 1).val) = _
  rw [slt_zero_of_lt _ (by rw [toNat_ofNat_of_lt _ (by omega)]; omega), select_zero]

/-- Component 0 of the second start index at (b, d): the word of the row number d. -/
theorem rows2_at (b : Fin 16384) (d : Fin 26) :
    Read.val_main_v28 (F := F) (ix3 b d (0 : Fin 1)) = BitVec.ofNat 32 d.val := by
  rw [Read.val_main_v28_apply, Read.val_main_v27_apply, rows2_apply]

/-- The labels after "if negative add 1000", second copy: a label below 2^31 is kept. -/
theorem labels2_apply (x0 : (⟨S16384x26, .i32⟩ : BufTy).Contents (Elt F)) (i : S16384x26.Idx)
    (h : (x0 i).toNat < 2 ^ 31) : Read.val_main_v26 (F := F) x0 i = x0 i := by
  rw [Read.val_main_v26_apply, Read.val_main_v23_apply, Read.val_main_v22_apply, Read.val_main_c_5_apply,
    slt_zero_of_lt _ h, select_zero]

/-- Component 1 of the second start index at (b, d): the label at (b, d). -/
theorem labels2_at (x0 : (⟨S16384x26, .i32⟩ : BufTy).Contents (Elt F)) (b : Fin 16384) (d : Fin 26)
    (h : (x0 (ix2 b d)).toNat < 2 ^ 31) :
    Read.val_main_v29 (F := F) x0 (ix3 b d (0 : Fin 1)) = x0 (ix2 b d) := by
  have e : Read.idx_main_v29 (ix3 b d (0 : Fin 1)) = ix2 b d := by
    funext a
    match a with
    | ⟨0, _⟩ => rfl
    | ⟨1, _⟩ => rfl
  rw [Read.val_main_v29_apply, e, labels2_apply x0 _ h]

/-- At position 0 of the last axis the second joined array is its first piece. -/
theorem start2_at0 (x0 : (⟨S16384x26, .i32⟩ : BufTy).Contents (Elt F)) (b : Fin 16384) (d : Fin 26) :
    Read.val_main_v30 (F := F) x0 (ix3 b d (0 : Fin 2)) = Read.val_main_v28 (F := F) (ix3 b d (0 : Fin 1)) := by
  unfold Read.val_main_v30
  exact concatenate_pair_apply_left (t := S16384x26x2) (s₁ := S16384x26x1) (s₂ := S16384x26x1) (2 : Fin 3)
    (Read.val_main_v28 (F := F)) (Read.val_main_v29 (F := F) x0) concatenates_S16384x26x1_S16384x26x1_S16384x26x2_d2
    (ix3 b d (0 : Fin 2)) rfl (ix3 b d (0 : Fin 1)) (fun a => match a with
    | ⟨0, _⟩ => rfl
    | ⟨1, _⟩ => rfl
    | ⟨2, _⟩ => rfl)

/-- At position 1 of the last axis the second joined array is its second piece, at position 0. -/
theorem start2_at1 (x0 : (⟨S16384x26, .i32⟩ : BufTy).Contents (Elt F)) (b : Fin 16384) (d : Fin 26) :
    Read.val_main_v30 (F := F) x0 (ix3 b d (1 : Fin 2)) = Read.val_main_v29 (F := F) x0 (ix3 b d (0 : Fin 1)) := by
  unfold Read.val_main_v30
  exact concatenate_pair_apply_right (t := S16384x26x2) (s₁ := S16384x26x1) (s₂ := S16384x26x1) (2 : Fin 3)
    (Read.val_main_v28 (F := F)) (Read.val_main_v29 (F := F) x0) concatenates_S16384x26x1_S16384x26x1_S16384x26x2_d2
    (ix3 b d (1 : Fin 2)) rfl rfl (ix3 b d (0 : Fin 1)) (fun a => match a with
    | ⟨0, _⟩ => fun _ => rfl
    | ⟨1, _⟩ => fun _ => rfl
    | ⟨2, _⟩ => fun hne => absurd rfl hne) rfl

/-- The second result: the second table looked up at the labels. -/
theorem ref_v31 (x0 : (⟨S16384x26, .i32⟩ : BufTy).Contents (Elt F)) (x2 : (⟨S26x1000, .f32⟩ : BufTy).Contents (Elt F))
    (hlab : ∀ j, (x0 j).toNat < 1000) :
    Read.val_main_v31 (F := F) x0 x2 = Cert.Spec.lookup x0 x2 := by
  funext j
  obtain ⟨b, d, rfl⟩ : ∃ b d, j = ix2 b d := ⟨j 0, j 1, eq_ix2 j⟩
  have hl := hlab (ix2 b d)
  rw [Cert.Spec.lookup_apply]
  unfold Read.val_main_v31
  refine gather_apply x2 _ (ix2 b d) d (Cert.Spec.col (x0 (ix2 b d))) ?_ ?_
  · show min (Read.val_main_v30 (F := F) x0 (ix3 b d (0 : Fin 2))).toInt.toNat 25 = d.val
    rw [start2_at0, rows2_at]
    exact row_clamp d
  · show min (Read.val_main_v30 (F := F) x0 (ix3 b d (1 : Fin 2))).toInt.toNat 999 = _
    rw [start2_at1, labels2_at x0 b d (by omega)]
    exact col_clamp _ hl

end Cert.RefLookup

end
-- ==== Proof.KernelRows.lean ====
/-
  One row of a chunk, as pure facts about arrays.

  A chunk scratch has 128 rows of 26 columns. Row r is filled by two stores of sixteen entries each: columns 0..15 and
  columns 10..25. Entry q of a store is the table read at (c0 + q, label (r, c0 + q)), c0 the store's first column, so
  both stores write, at column d, the table's row d at the column label (r, d) names; the overlap 10..15 is written twice
  with the same value. After row r every row up to r holds that function of its labels.
-/
import proofs.«200214_g45973329936461_cont_8to1_c_83_7_alg».proof.Proof.Spec
import proofs.«200214_g45973329936461_cont_8to1_c_83_7_alg».proof.Proof.Gen.Kernel
import proofs.«200214_g45973329936461_cont_8to1_c_83_7_alg».proof.Proof.Gen.Kernel.Skeleton
import Idealize.ShloMosaic.Lib.Writes
import Idealize.ShloMosaic.Lib.Pipeline.Value
import Idealize.ShloMosaic.Lib.ValueIdx

noncomputable section

namespace Cert.KernelRows

open Cert.Kernel Cert.Kernel.Gen
open Idealize.ShloMosaic Idealize.ShloMosaic.ValueIdx

variable {F : FTy → Type}

/-- Entry (p, d) of a finished chunk: the table's row d at the column label (p, d) names. -/
def rowFn (lab : S128x26.Idx → BitVec 32) (tab : S26x1000.Idx → F .f32) : S128x26.Idx → F .f32 :=
  fun j => tab (ix2 (j 1) (Cert.Spec.col (lab j)))

/-- The sixteen entries one indexed load returns, laid out as a 1 x 16 block, are the finished chunk's entries at the
    block's place: row r, columns c0 .. c0 + 15. The lane index vector holds c0 + lane, the label vector the labels of
    row r at those columns. -/
theorem piece_eq (lab : S128x26.Idx → BitVec 32) (tab : S26x1000.Idx → F .f32) (hlab : ∀ j, (lab j).toNat < 1000)
    (r : ℕ) (hr : r < 128) (c0 : ℕ) (hc0 : c0 + 16 ≤ 26)
    (off : Fin 2 → ℕ) (inb : ∀ a, off a + S1x16.size a ≤ S128x26.size a) (h0 : off 0 = r) (h1 : off 1 = c0)
    (vi vl : IVec S16 32) (hvi : ∀ y : S16.Idx, (vi y).toNat = c0 + (y 0).val)
    (hvl : ∀ y : S16.Idx, vl y = lab (ix2 ⟨r, hr⟩ ⟨c0 + (y 0).val, by have := (y 0).isLt; simp at this; omega⟩))
    (h : ∀ a x, ((![vi, vl] : Fin 2 → IVec S16 32) a x).toNat < S26x1000.size a) (hc : S16.ShapeCasts S1x16) (x : S1x16.Idx) :
    shapeCast S1x16 (loadIdx (F := F) (e := .f32) tab ![vi, vl] h) hc x
      = rowFn lab tab ((Rect.unit (s := S128x26) off S1x16.size inb).emb x) := by
  have hx0 : (x 0).val = 0 := by have := (x 0).isLt; simp at this; omega
  have hx1 : (x 1).val < 16 := by have := (x 1).isLt; simpa using this
  rw [shapeCast_addUnit_apply (n := 1) (d := ![16])]
  unfold loadIdx rowFn
  congr 1
  have hE : (Rect.unit (s := S128x26) off S1x16.size inb).emb x = ix2 ⟨r, hr⟩ ⟨c0 + (x 1).val, by omega⟩ := by
    funext a; apply Fin.ext
    match a with
    | ⟨0, _⟩ => show off 0 + 1 * (x 0).val = r; rw [h0, hx0]; omega
    | ⟨1, _⟩ => show off 1 + 1 * (x 1).val = c0 + (x 1).val; rw [h1]; omega
  let y : S16.Idx := fun b => x b.succ
  funext a; apply Fin.ext
  match a with
  | ⟨0, _⟩ =>
    show (vi y).toNat = ((Rect.unit (s := S128x26) off S1x16.size inb).emb x 1).val
    refine (hvi y).trans ?_
    rw [hE]; rfl
  | ⟨1, _⟩ =>
    show (vl y).toNat = (Cert.Spec.col (lab ((Rect.unit (s := S128x26) off S1x16.size inb).emb x))).val
    rw [hE, Cert.Spec.col_val_of_lt (hlab _)]
    exact congrArg BitVec.toNat (hvl y)

/-! ## The lanes of the index vectors -/

/-- Lane y of the lane counter is y. -/
theorem iota_lane (h : S16.Iotas .scVector 32 [0]) (y : S16.Idx) : (iota .scVector S16 32 [0] h y).toNat = 0 + (y 0).val := by
  have hy : (y 0).val < 16 := by have := (y 0).isLt; simpa using this
  show (BitVec.ofNat 32 (0 * 16 + (y 0).val)).toNat = 0 + (y 0).val
  rw [BitVec.toNat_ofNat]; omega

/-- Lane y of the lane counter shifted by ten is 10 + y. -/
theorem pay1_lane (y : S16.Idx) : ((k0_pay1 : IVec S16 32) y).toNat = 10 + (y 0).val := by
  have hy : (y 0).val < 16 := by have := (y 0).isLt; simpa using this
  show (BitVec.ofNat 32 (0 * 16 + (y 0).val) + 10#32).toNat = 10 + (y 0).val
  rw [BitVec.toNat_add, BitVec.toNat_ofNat]
  show ((0 * 16 + (y 0).val) % 2 ^ 32 + 10) % 2 ^ 32 = 10 + (y 0).val
  omega

/-- Sixteen labels loaded from row r at columns c0 .. c0 + 15 and flattened: lane y is label (r, c0 + y). -/
theorem label_lane (lab : S128x26.Idx → BitVec 32) (r : ℕ) (hr : r < 128) (c0 : ℕ) (hc0 : c0 + 16 ≤ 26)
    (off : Fin 2 → ℕ) (inb : ∀ a, off a + S1x16.size a ≤ S128x26.size a) (h0 : off 0 = r) (h1 : off 1 = c0)
    (hc : S1x16.ShapeCasts S16) (y : S16.Idx) :
    shapeCast S16 (fun x : S1x16.Idx => lab ((Rect.unit (s := S128x26) off S1x16.size inb).toLoadRect.idx x)) hc y
      = lab (ix2 ⟨r, hr⟩ ⟨c0 + (y 0).val, by have := (y 0).isLt; simp at this; omega⟩) := by
  rw [shapeCast_dropUnit_apply (n := 1) (d := ![16])]
  congr 1
  funext a; apply Fin.ext
  match a with
  | ⟨0, _⟩ => show off 0 + 1 * 0 = r; rw [h0]; omega
  | ⟨1, _⟩ => show off 1 + 1 * (y 0).val = c0 + (y 0).val; rw [h1]; omega

/-- The side condition of an indexed load: rows below 26, columns below 1000. -/
theorem idx_inb (vi vl : IVec S16 32) (c0 : ℕ) (hc0 : c0 + 16 ≤ 26) (hvi : ∀ y : S16.Idx, (vi y).toNat = c0 + (y 0).val)
    (hvl : ∀ y : S16.Idx, (vl y).toNat < 1000) : ∀ a x, ((![vi, vl] : Fin 2 → IVec S16 32) a x).toNat < S26x1000.size a := by
  intro a x
  have hx : (x 0).val < 16 := by have := (x 0).isLt; simpa using this
  match a with
  | ⟨0, _⟩ => show (vi x).toNat < 26; rw [hvi]; omega
  | ⟨1, _⟩ => exact hvl x

/-! ## A row's two stores -/

/-- The elements of a 1 x 16 block placed at (r, c0). -/
theorem mem_rowRect (off : Fin 2 → ℕ) (inb : ∀ a, off a + S1x16.size a ≤ S128x26.size a) (r c0 : ℕ) (h0 : off 0 = r) (h1 : off 1 = c0)
    (j : S128x26.Idx) : j ∈ (Rect.unit (s := S128x26) off S1x16.size inb).set ↔ (j 0).val = r ∧ c0 ≤ (j 1).val ∧ (j 1).val < c0 + 16 := by
  rw [Rect.mem_set_unit, Fin.forall_fin_two]
  show (off 0 ≤ (j 0).val ∧ (j 0).val < off 0 + 1) ∧ (off 1 ≤ (j 1).val ∧ (j 1).val < off 1 + 16) ↔ _
  rw [h0, h1]; omega

/-- Rows below r of the chunk scratch hold the finished chunk's entries. -/
def RowsDone {sg : RefSig} {κ : Kind} {sp : Space} (v : View sg κ sp S128x26 .f32) (lab : S128x26.Idx → BitVec 32)
    (tab : S26x1000.Idx → F .f32) (r : ℕ) (f : v.ty.Contents (Elt F)) : Prop :=
  ∀ j : S128x26.Idx, (j 0).val < r → v.read (Elt F) f j = rowFn lab tab j

/-- Row r's two stores — columns 0..15, then columns 10..25, each the finished chunk's entries at its place — leave
    rows up to r finished: an entry of row r lies under one of the two blocks, an entry of an earlier row under neither. -/
theorem rowsDone_step {sg : RefSig} {κ : Kind} {sp : Space} (v : View sg κ sp S128x26 .f32) (lab : S128x26.Idx → BitVec 32)
    (tab : S26x1000.Idx → F .f32) (r : ℕ) (f : v.ty.Contents (Elt F)) (hf : RowsDone v lab tab r f)
    (pLo pHi : View.Piece (Elt F) S128x26 .f32)
    (hLo : ∀ x, pLo.2 x = rowFn lab tab (pLo.1.emb x)) (hHi : ∀ x, pHi.2 x = rowFn lab tab (pHi.1.emb x))
    (sLo : ∀ j, j ∈ pLo.1.set ↔ (j 0).val = r ∧ 0 ≤ (j 1).val ∧ (j 1).val < 0 + 16)
    (sHi : ∀ j, j ∈ pHi.1.set ↔ (j 0).val = r ∧ 10 ≤ (j 1).val ∧ (j 1).val < 10 + 16) :
    RowsDone v lab tab (r + 1) (v.writes (Elt F) f [pHi, pLo]) := by
  intro j hj
  have hj1 : (j 1).val < 26 := by have := (j 1).isLt; simpa using this
  by_cases hjr : (j 0).val = r
  · refine View.read_writes_apply_of_pieces v f (rowFn lab tab) [pHi, pLo] ?_ j ?_
    · intro p hp x
      simp only [List.mem_cons, List.not_mem_nil, or_false] at hp
      rcases hp with rfl | rfl
      · exact hHi x
      · exact hLo x
    · by_cases h16 : (j 1).val < 16
      · exact ⟨pLo, by simp, (sLo j).2 ⟨hjr, by omega, by omega⟩⟩
      · exact ⟨pHi, by simp, (sHi j).2 ⟨hjr, by omega, by omega⟩⟩
  · rw [View.read_writes_apply_of_forall_not_mem v f j [pHi, pLo] ?_]
    · exact hf j (by omega)
    · intro p hp
      simp only [List.mem_cons, List.not_mem_nil, or_false] at hp
      rcases hp with rfl | rfl
      · exact fun h => hjr ((sHi j).1 h).1
      · exact fun h => hjr ((sLo j).1 h).1

end Cert.KernelRows

end
-- ==== Proof.KernelRun.lean ====
/-
  The word-level kernel's run, for every float instance.

  Thirty-two vector subcores (two cores of sixteen) each take 512 consecutive rows of the batch. A subcore first copies
  both tables whole into its own memory; then, for each of its four chunks of 128 rows, it copies the chunk's labels in,
  and row by row reads sixteen table entries at once for columns 0..15 and again for columns 10..25 (the two windows
  overlap on columns 10..15 and agree there), storing them into a chunk-sized scratch that is finally copied out to the
  chunk's rows of the result. Entry (b, d) of each result is therefore the table's row d at column label (b, d).
-/
import proofs.«200214_g45973329936461_cont_8to1_c_83_7_alg».proof.Defs
import proofs.«200214_g45973329936461_cont_8to1_c_83_7_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«200214_g45973329936461_cont_8to1_c_83_7_alg».proof.Proof.Gen.Kernel
import proofs.«200214_g45973329936461_cont_8to1_c_83_7_alg».proof.Proof.Gen.Kernel.Skeleton
import proofs.«200214_g45973329936461_cont_8to1_c_83_7_alg».proof.Proof.KernelRows

noncomputable section

namespace Cert.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

local notation "labW" => (Memref.whole Cert.Kernel.main_arg0_scv : Memref Cert.Kernel.sig Kind.scVector Space.hbm Cert.Kernel.S16384x26 EltTy.i32)
local notation "meanW" => (Memref.whole Cert.Kernel.main_arg1_scv : Memref Cert.Kernel.sig Kind.scVector Space.hbm Cert.Kernel.S26x1000 EltTy.f32)
local notation "lvW" => (Memref.whole Cert.Kernel.main_arg2_scv : Memref Cert.Kernel.sig Kind.scVector Space.hbm Cert.Kernel.S26x1000 EltTy.f32)
local notation "omW" => (Memref.whole Cert.Kernel.main_v0_0_scv : Memref Cert.Kernel.sig Kind.scVector Space.hbm Cert.Kernel.S16384x26 EltTy.f32)
local notation "olW" => (Memref.whole Cert.Kernel.main_v0_1_scv : Memref Cert.Kernel.sig Kind.scVector Space.hbm Cert.Kernel.S16384x26 EltTy.f32)
local notation "labS" => (Memref.whole Cert.Kernel.cc0_scratch0 : Memref Cert.Kernel.sig Kind.scVector Space.vmem Cert.Kernel.S128x26 EltTy.i32)
local notation "meanS" => (Memref.whole Cert.Kernel.cc0_scratch1 : Memref Cert.Kernel.sig Kind.scVector Space.vmem Cert.Kernel.S26x1000 EltTy.f32)
local notation "lvS" => (Memref.whole Cert.Kernel.cc0_scratch2 : Memref Cert.Kernel.sig Kind.scVector Space.vmem Cert.Kernel.S26x1000 EltTy.f32)
local notation "omS" => (Memref.whole Cert.Kernel.cc0_scratch3 : Memref Cert.Kernel.sig Kind.scVector Space.vmem Cert.Kernel.S128x26 EltTy.f32)
local notation "olS" => (Memref.whole Cert.Kernel.cc0_scratch4 : Memref Cert.Kernel.sig Kind.scVector Space.vmem Cert.Kernel.S128x26 EltTy.f32)

abbrev labLoc (d : Dev nD) : Loc nD τ sig := (SparseCore.T d).loc main_arg0
abbrev meanLoc (d : Dev nD) : Loc nD τ sig := (SparseCore.T d).loc main_arg1
abbrev lvLoc (d : Dev nD) : Loc nD τ sig := (SparseCore.T d).loc main_arg2
abbrev omLoc (d : Dev nD) : Loc nD τ sig := (SparseCore.T d).loc main_v0_0
abbrev olLoc (d : Dev nD) : Loc nD τ sig := (SparseCore.T d).loc main_v0_1

variable [FloatOps F]

/-! ## A subcore's task -/

/-- What the proof asks of the launch memory: every label is a word below 1000. -/
def PreOK : Prop := ∀ (d : Dev nD) (j : S16384x26.Idx), (m (labLoc d) j).toNat < 1000

omit [FloatOps F] in
theorem pts_eq {ℓ : Loc nD τ sig} {I : Finset (Idx ℓ)} {q : PosShare TreeShare} {f g : Buf (Elt F) ℓ} (h : f = g) :
    (ℓ ↦[I]{q} f : sProp 𝕄) ⊢ ℓ ↦[I]{q} g := by subst h; exact .rfl

/-- The rows lo ≤ b < hi of a batch-shaped array. -/
def rowsIn (lo hi : ℕ) : Finset S16384x26.Idx := Finset.univ.filter fun j => lo ≤ (j 0).val ∧ (j 0).val < hi

theorem mem_rowsIn {lo hi : ℕ} {j : S16384x26.Idx} : j ∈ rowsIn lo hi ↔ lo ≤ (j 0).val ∧ (j 0).val < hi := by
  unfold rowsIn; rw [Finset.mem_filter]; exact ⟨fun h => h.2, fun h => ⟨Finset.mem_univ _, h⟩⟩

theorem rowsIn_union {a b c : ℕ} (hab : a ≤ b) (hbc : b ≤ c) : rowsIn a c = rowsIn a b ∪ rowsIn b c := by
  ext j; rw [Finset.mem_union, mem_rowsIn, mem_rowsIn, mem_rowsIn]; omega

theorem rowsIn_disjoint (a b c : ℕ) : Disjoint (rowsIn a b) (rowsIn b c) :=
  Finset.disjoint_left.mpr fun j h1 h2 => by rw [mem_rowsIn] at h1 h2; omega

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The first row of the 512 rows subcore (L 0, L 1) works on. -/
def base (L : grid0.Coords) : ℕ := 8192 * (L 0).val + 512 * (L 1).val

abbrev labChunk (L : grid0.Coords) (k : Fin k0_t1_loop.trips) : Memref sig .scVector .hbm S128x26 .i32 :=
  (labW).slice (Rect.unit (s := S16384x26) (k0_off1 L k) S128x26.size (k0_off1_inb L k)) (fun _ => rfl)
abbrev omChunk (L : grid0.Coords) (k : Fin k0_t1_loop.trips) : Memref sig .scVector .hbm S128x26 .f32 :=
  (omW).slice (Rect.unit (s := S16384x26) (k0_off7 L k) S128x26.size (k0_off7_inb L k)) (fun _ => rfl)
abbrev olChunk (L : grid0.Coords) (k : Fin k0_t1_loop.trips) : Memref sig .scVector .hbm S128x26 .f32 :=
  (olW).slice (Rect.unit (s := S16384x26) (k0_off7 L k) S128x26.size (k0_off7_inb L k)) (fun _ => rfl)

/-- What the subcore's copies of the tables hold: the tables. -/
def meanT : Buf (Elt F) ((thr d L).loc cc0_scratch1) := m (meanLoc d)
def lvT : Buf (Elt F) ((thr d L).loc cc0_scratch2) := m (lvLoc d)
/-- What the label scratch holds during chunk k: that chunk's rows of the labels. -/
def labT (k : Fin k0_t1_loop.trips) : Buf (Elt F) ((thr d L).loc cc0_scratch0) := (labChunk L k).view.read (Elt F) (m (labLoc d))
/-- The two results. -/
def Gm (d : Dev nD) : Buf (Elt F) (omLoc d) := Cert.Spec.lookup (m (labLoc d)) (m (meanLoc d))
def Gl (d : Dev nD) : Buf (Elt F) (olLoc d) := Cert.Spec.lookup (m (labLoc d)) (m (lvLoc d))

omit [FloatOps F] in
theorem trips1 : k0_t1_loop.trips = 4 := by decide
omit [FloatOps F] in
theorem trips2 : k0_t2_loop.trips = 128 := by decide

omit [FloatOps F] in
/-- Chunk k of the subcore's rows, as the elements the chunk's slice of a result names. -/
theorem set_omChunk (k : Fin k0_t1_loop.trips) : (omChunk L k).view.set = rowsIn (base L + 128 * k.val) (base L + 128 * k.val + 128) := by
  show ((View.whole main_v0_0_scv).slice (Rect.unit (s := S16384x26) (k0_off7 L k) S128x26.size (k0_off7_inb L k))).set = _
  rw [View.set_slice_whole]
  ext j
  rw [Rect.mem_set_unit, mem_rowsIn]
  have hj1 : (j 1).val < 26 := (j 1).isLt
  have e0 : k0_off7 L k 0 = base L + 128 * k.val := by rw [k0_off7_eq]; rfl
  have e1 : k0_off7 L k 1 = 0 := by rw [k0_off7_eq]; rfl
  constructor
  · intro h
    have h0 : k0_off7 L k 0 ≤ (j 0).val ∧ (j 0).val < k0_off7 L k 0 + 128 := h (0 : Fin 2)
    rwa [e0] at h0
  · intro h a
    match a with
    | ⟨0, _⟩ => show k0_off7 L k 0 ≤ (j 0).val ∧ (j 0).val < k0_off7 L k 0 + 128; rw [e0]; exact h
    | ⟨1, _⟩ => show k0_off7 L k 1 ≤ (j 1).val ∧ (j 1).val < k0_off7 L k 1 + 26; rw [e1]; exact ⟨Nat.zero_le _, by omega⟩
omit [FloatOps F] in
theorem set_olChunk (k : Fin k0_t1_loop.trips) : (olChunk L k).view.set = rowsIn (base L + 128 * k.val) (base L + 128 * k.val + 128) := by
  show ((View.whole main_v0_1_scv).slice (Rect.unit (s := S16384x26) (k0_off7 L k) S128x26.size (k0_off7_inb L k))).set = _
  rw [View.set_slice_whole]
  ext j
  rw [Rect.mem_set_unit, mem_rowsIn]
  have hj1 : (j 1).val < 26 := (j 1).isLt
  have e0 : k0_off7 L k 0 = base L + 128 * k.val := by rw [k0_off7_eq]; rfl
  have e1 : k0_off7 L k 1 = 0 := by rw [k0_off7_eq]; rfl
  constructor
  · intro h
    have h0 : k0_off7 L k 0 ≤ (j 0).val ∧ (j 0).val < k0_off7 L k 0 + 128 := h (0 : Fin 2)
    rwa [e0] at h0
  · intro h a
    match a with
    | ⟨0, _⟩ => show k0_off7 L k 0 ≤ (j 0).val ∧ (j 0).val < k0_off7 L k 0 + 128; rw [e0]; exact h
    | ⟨1, _⟩ => show k0_off7 L k 1 ≤ (j 1).val ∧ (j 1).val < k0_off7 L k 1 + 26; rw [e1]; exact ⟨Nat.zero_le _, by omega⟩

omit [FloatOps F] in
/-- The rows not yet written: chunk k, as its slice names it, and the rows after it. -/
theorem carve_om (k : Fin k0_t1_loop.trips) (f : Buf (Elt F) (omLoc d)) :
    (omLoc d ↦[rowsIn (base L + 128 * k.val) (base L + 512)]{fullShare} f : sProp 𝕄)
      ⊢ iprop(((omChunk L k).view.loc (thr d L) ↦[(omChunk L k).view.set]{fullShare} f) ∗ omLoc d ↦[rowsIn (base L + 128 * (k.val + 1)) (base L + 512)]{fullShare} f) := by
  have hk : k.val < 4 := trips1 ▸ k.isLt
  rw [set_omChunk, rowsIn_union (b := base L + 128 * k.val + 128) (by omega) (by omega), show base L + 128 * (k.val + 1) = base L + 128 * k.val + 128 by omega]
  exact (pointsTo_union (rowsIn_disjoint _ _ _)).1
omit [FloatOps F] in
theorem carve_ol (k : Fin k0_t1_loop.trips) (f : Buf (Elt F) (olLoc d)) :
    (olLoc d ↦[rowsIn (base L + 128 * k.val) (base L + 512)]{fullShare} f : sProp 𝕄)
      ⊢ iprop(((olChunk L k).view.loc (thr d L) ↦[(olChunk L k).view.set]{fullShare} f) ∗ olLoc d ↦[rowsIn (base L + 128 * (k.val + 1)) (base L + 512)]{fullShare} f) := by
  have hk : k.val < 4 := trips1 ▸ k.isLt
  rw [set_olChunk, rowsIn_union (b := base L + 128 * k.val + 128) (by omega) (by omega), show base L + 128 * (k.val + 1) = base L + 128 * k.val + 128 by omega]
  exact (pointsTo_union (rowsIn_disjoint _ _ _)).1
omit [FloatOps F] in
/-- The rows already written, and chunk k written: the rows written after chunk k. -/
theorem uncarve_om (k : Fin k0_t1_loop.trips) (f : Buf (Elt F) (omLoc d)) :
    iprop((omLoc d ↦[rowsIn (base L) (base L + 128 * k.val)]{fullShare} f) ∗ ((omChunk L k).view.loc (thr d L) ↦[(omChunk L k).view.set]{fullShare} f))
      ⊢ (omLoc d ↦[rowsIn (base L) (base L + 128 * (k.val + 1))]{fullShare} f : sProp 𝕄) := by
  rw [set_omChunk, rowsIn_union (a := base L) (b := base L + 128 * k.val) (c := base L + 128 * (k.val + 1)) (by omega) (by omega),
    show base L + 128 * (k.val + 1) = base L + 128 * k.val + 128 by omega]
  exact (pointsTo_union (rowsIn_disjoint _ _ _)).2
omit [FloatOps F] in
theorem uncarve_ol (k : Fin k0_t1_loop.trips) (f : Buf (Elt F) (olLoc d)) :
    iprop((olLoc d ↦[rowsIn (base L) (base L + 128 * k.val)]{fullShare} f) ∗ ((olChunk L k).view.loc (thr d L) ↦[(olChunk L k).view.set]{fullShare} f))
      ⊢ (olLoc d ↦[rowsIn (base L) (base L + 128 * (k.val + 1))]{fullShare} f : sProp 𝕄) := by
  rw [set_olChunk, rowsIn_union (a := base L) (b := base L + 128 * k.val) (c := base L + 128 * (k.val + 1)) (by omega) (by omega),
    show base L + 128 * (k.val + 1) = base L + 128 * k.val + 128 by omega]
  exact (pointsTo_union (rowsIn_disjoint _ _ _)).2

/-- The loop over chunks: tables copied, the label and result scratches at any contents, the three semaphores at zero,
    the subcore's rows of each result written up to chunk k and untouched from chunk k on. -/
def inv (q : PosShare TreeShare) (O : CellTallies nD τ sig (HIx 1)) (W : Waits sig (HIx 1)) (k : Nat) (_ : PUnit) : sProp 𝕄 :=
  iprop(Transfers.MayWaits (thr d L) (none : HIx 1) O
    ∗ ((labW).view.loc (thr d L) ↦{q} m (labLoc d))
    ∗ (∃ fl, (labS).view.loc (thr d L) ↦{fullShare} fl)
    ∗ ((meanS).view.loc (thr d L) ↦{fullShare} meanT m d L) ∗ ((lvS).view.loc (thr d L) ↦{fullShare} lvT m d L)
    ∗ (∃ f3, (omS).view.loc (thr d L) ↦{fullShare} f3) ∗ (∃ f4, (olS).view.loc (thr d L) ↦{fullShare} f4)
    ∗ semVal (thr d L, SemLoc.dma cc0_scoped2.sem) 0 ∗ semVal (thr d L, SemLoc.dma cc0_scoped3.sem) 0 ∗ semVal (thr d L, SemLoc.dma cc0_scoped4.sem) 0
    ∗ (omLoc d ↦[rowsIn (base L) (base L + 128 * k)]{fullShare} Gm m d) ∗ (omLoc d ↦[rowsIn (base L + 128 * k) (base L + 512)]{fullShare} m (omLoc d))
    ∗ (olLoc d ↦[rowsIn (base L) (base L + 128 * k)]{fullShare} Gl m d) ∗ (olLoc d ↦[rowsIn (base L + 128 * k) (base L + 512)]{fullShare} m (olLoc d))
    ∗ ∃ W', ⌜∀ p ∈ W', p ∈ W ∨ p.2 = none⌝ ∗ owes (thr d L) O W')

omit [FloatOps F] in
/-- The five scratch buffers are among the subcore's own: they are them, each at some contents, and the rest. -/
theorem ownBufs_V :
    (ownBufs (thr d L) : sProp 𝕄)
      = iprop(((∃ f, (thr d L).loc cc0_scratch0 ↦{fullShare} f) ∗ (∃ f, (thr d L).loc cc0_scratch1 ↦{fullShare} f) ∗ (∃ f, (thr d L).loc cc0_scratch2 ↦{fullShare} f)
          ∗ (∃ f, (thr d L).loc cc0_scratch3 ↦{fullShare} f) ∗ (∃ f, (thr d L).loc cc0_scratch4 ↦{fullShare} f))
          ∗ bigSep (ownRefs (τ := τ) (.scVector (cV L) (jV L)) \ {((Proc.scVector (cV L) (jV L)).devRef cc0_scratch0), ((Proc.scVector (cV L) (jV L)).devRef cc0_scratch1), ((Proc.scVector (cV L) (jV L)).devRef cc0_scratch2), ((Proc.scVector (cV L) (jV L)).devRef cc0_scratch3), ((Proc.scVector (cV L) (jV L)).devRef cc0_scratch4)})
              fun b => iprop(∃ f, ((d, b) : Loc nD τ sig) ↦{fullShare} f)) := by
  unfold SparseCore.Cfg.ownBufs
  rw [SparseCore.bigSep_sdiff_split' (t := {((Proc.scVector (cV L) (jV L)).devRef cc0_scratch0), ((Proc.scVector (cV L) (jV L)).devRef cc0_scratch1), ((Proc.scVector (cV L) (jV L)).devRef cc0_scratch2), ((Proc.scVector (cV L) (jV L)).devRef cc0_scratch3), ((Proc.scVector (cV L) (jV L)).devRef cc0_scratch4)}) (s := ownRefs (τ := τ) (.scVector (cV L) (jV L))) ?hsub,
    SparseCore.bigSep_insert' (by simp only [Finset.mem_insert, Finset.mem_singleton, not_or]; exact ⟨(fun e => absurd (Proc.devRef_injective _ e) (show (cc0_scratch0 : Ref sig .scVector) ≠ cc0_scratch1 by decide)), (fun e => absurd (Proc.devRef_injective _ e) (show (cc0_scratch0 : Ref sig .scVector) ≠ cc0_scratch2 by decide)), (fun e => absurd (Proc.devRef_injective _ e) (show (cc0_scratch0 : Ref sig .scVector) ≠ cc0_scratch3 by decide)), (fun e => absurd (Proc.devRef_injective _ e) (show (cc0_scratch0 : Ref sig .scVector) ≠ cc0_scratch4 by decide))⟩), SparseCore.bigSep_insert' (by simp only [Finset.mem_insert, Finset.mem_singleton, not_or]; exact ⟨(fun e => absurd (Proc.devRef_injective _ e) (show (cc0_scratch1 : Ref sig .scVector) ≠ cc0_scratch2 by decide)), (fun e => absurd (Proc.devRef_injective _ e) (show (cc0_scratch1 : Ref sig .scVector) ≠ cc0_scratch3 by decide)), (fun e => absurd (Proc.devRef_injective _ e) (show (cc0_scratch1 : Ref sig .scVector) ≠ cc0_scratch4 by decide))⟩), SparseCore.bigSep_insert' (by simp only [Finset.mem_insert, Finset.mem_singleton, not_or]; exact ⟨(fun e => absurd (Proc.devRef_injective _ e) (show (cc0_scratch2 : Ref sig .scVector) ≠ cc0_scratch3 by decide)), (fun e => absurd (Proc.devRef_injective _ e) (show (cc0_scratch2 : Ref sig .scVector) ≠ cc0_scratch4 by decide))⟩),
    SparseCore.bigSep_insert' (by rw [Finset.mem_singleton]; exact (fun e => absurd (Proc.devRef_injective _ e) (show (cc0_scratch3 : Ref sig .scVector) ≠ cc0_scratch4 by decide))), bigSep_singleton]
  case hsub =>
    intro b hb
    simp only [Finset.mem_insert, Finset.mem_singleton] at hb
    rcases hb with rfl | rfl | rfl | rfl | rfl <;> exact SparseCore.Cfg.mem_ownRefs_of_owner (p := Proc.scVector (cV L) (jV L)) rfl

omit [FloatOps F] in
/-- The five transfer semaphores are among the subcore's own: they are them, at zero, and the rest. -/
theorem ownSems0_V :
    (ownSems0 (thr d L) : sProp 𝕄)
      = iprop((semVal ((thr d L, SemLoc.dma cc0_scoped0.sem) : GSem nD τ sig) 0 ∗ semVal ((thr d L, SemLoc.dma cc0_scoped1.sem) : GSem nD τ sig) 0 ∗ semVal ((thr d L, SemLoc.dma cc0_scoped2.sem) : GSem nD τ sig) 0 ∗ semVal ((thr d L, SemLoc.dma cc0_scoped3.sem) : GSem nD τ sig) 0 ∗ semVal ((thr d L, SemLoc.dma cc0_scoped4.sem) : GSem nD τ sig) 0)
          ∗ bigSep (ownCells (thr d L) \ {((thr d L, SemLoc.dma cc0_scoped0.sem) : GSem nD τ sig), ((thr d L, SemLoc.dma cc0_scoped1.sem) : GSem nD τ sig), ((thr d L, SemLoc.dma cc0_scoped2.sem) : GSem nD τ sig), ((thr d L, SemLoc.dma cc0_scoped3.sem) : GSem nD τ sig), ((thr d L, SemLoc.dma cc0_scoped4.sem) : GSem nD τ sig)}) fun g => semVal g 0) := by
  unfold SparseCore.Cfg.ownSems0
  rw [SparseCore.bigSep_sdiff_split' (t := {((thr d L, SemLoc.dma cc0_scoped0.sem) : GSem nD τ sig), ((thr d L, SemLoc.dma cc0_scoped1.sem) : GSem nD τ sig), ((thr d L, SemLoc.dma cc0_scoped2.sem) : GSem nD τ sig), ((thr d L, SemLoc.dma cc0_scoped3.sem) : GSem nD τ sig), ((thr d L, SemLoc.dma cc0_scoped4.sem) : GSem nD τ sig)}) (s := ownCells (thr d L)) ?hsub,
    SparseCore.bigSep_insert' (by simp only [Finset.mem_insert, Finset.mem_singleton, not_or]; exact ⟨(fun e => absurd (congrArg Prod.snd e) (show (SemLoc.dma cc0_scoped0.sem : SemLoc sig) ≠ SemLoc.dma cc0_scoped1.sem by decide)), (fun e => absurd (congrArg Prod.snd e) (show (SemLoc.dma cc0_scoped0.sem : SemLoc sig) ≠ SemLoc.dma cc0_scoped2.sem by decide)), (fun e => absurd (congrArg Prod.snd e) (show (SemLoc.dma cc0_scoped0.sem : SemLoc sig) ≠ SemLoc.dma cc0_scoped3.sem by decide)), (fun e => absurd (congrArg Prod.snd e) (show (SemLoc.dma cc0_scoped0.sem : SemLoc sig) ≠ SemLoc.dma cc0_scoped4.sem by decide))⟩), SparseCore.bigSep_insert' (by simp only [Finset.mem_insert, Finset.mem_singleton, not_or]; exact ⟨(fun e => absurd (congrArg Prod.snd e) (show (SemLoc.dma cc0_scoped1.sem : SemLoc sig) ≠ SemLoc.dma cc0_scoped2.sem by decide)), (fun e => absurd (congrArg Prod.snd e) (show (SemLoc.dma cc0_scoped1.sem : SemLoc sig) ≠ SemLoc.dma cc0_scoped3.sem by decide)), (fun e => absurd (congrArg Prod.snd e) (show (SemLoc.dma cc0_scoped1.sem : SemLoc sig) ≠ SemLoc.dma cc0_scoped4.sem by decide))⟩), SparseCore.bigSep_insert' (by simp only [Finset.mem_insert, Finset.mem_singleton, not_or]; exact ⟨(fun e => absurd (congrArg Prod.snd e) (show (SemLoc.dma cc0_scoped2.sem : SemLoc sig) ≠ SemLoc.dma cc0_scoped3.sem by decide)), (fun e => absurd (congrArg Prod.snd e) (show (SemLoc.dma cc0_scoped2.sem : SemLoc sig) ≠ SemLoc.dma cc0_scoped4.sem by decide))⟩),
    SparseCore.bigSep_insert' (by rw [Finset.mem_singleton]; exact (fun e => absurd (congrArg Prod.snd e) (show (SemLoc.dma cc0_scoped3.sem : SemLoc sig) ≠ SemLoc.dma cc0_scoped4.sem by decide))), bigSep_singleton]
  case hsub =>
    intro g hg
    simp only [Finset.mem_insert, Finset.mem_singleton] at hg
    rcases hg with rfl | rfl | rfl | rfl | rfl
    · exact (mem_ownCells).mpr ⟨rfl, by show (SemLoc.dma cc0_scoped0.sem : SemLoc sig).isScoped .scVector = true; decide⟩
    · exact (mem_ownCells).mpr ⟨rfl, by show (SemLoc.dma cc0_scoped1.sem : SemLoc sig).isScoped .scVector = true; decide⟩
    · exact (mem_ownCells).mpr ⟨rfl, by show (SemLoc.dma cc0_scoped2.sem : SemLoc sig).isScoped .scVector = true; decide⟩
    · exact (mem_ownCells).mpr ⟨rfl, by show (SemLoc.dma cc0_scoped3.sem : SemLoc sig).isScoped .scVector = true; decide⟩
    · exact (mem_ownCells).mpr ⟨rfl, by show (SemLoc.dma cc0_scoped4.sem : SemLoc sig).isScoped .scVector = true; decide⟩

omit [FloatOps F] in
theorem pts_meanS_access (f : Buf (Elt F) ((thr d L).loc cc0_scratch1)) :
    ((((meanS).access (.whole S26x1000)).loc (thr d L) ↦{fullShare} f : sProp 𝕄)) = ((meanS).view.loc (thr d L) ↦{fullShare} f) := rfl
omit [FloatOps F] in
theorem pts_lvS_access (f : Buf (Elt F) ((thr d L).loc cc0_scratch2)) :
    ((((lvS).access (.whole S26x1000)).loc (thr d L) ↦{fullShare} f : sProp 𝕄)) = ((lvS).view.loc (thr d L) ↦{fullShare} f) := rfl

omit [FloatOps F] in
/-- Read through its whole rectangle, a table scratch is its contents. -/
theorem read_access_mean (f : Buf (Elt F) ((thr d L).loc cc0_scratch1)) :
    View.read (Elt F) ((meanS).access (Rect.whole cc0_scratch1.ty.shape)) f = f := by
  funext x
  refine ((View.read_apply _ _).trans (cast_eq _ _)).trans (congrArg f ?_)
  funext a; apply Fin.ext; show 0 + 1 * (x a).val = (x a).val; omega
omit [FloatOps F] in
theorem read_access_lv (f : Buf (Elt F) ((thr d L).loc cc0_scratch2)) :
    View.read (Elt F) ((lvS).access (Rect.whole cc0_scratch2.ty.shape)) f = f := by
  funext x
  refine ((View.read_apply _ _).trans (cast_eq _ _)).trans (congrArg f ?_)
  funext a; apply Fin.ext; show 0 + 1 * (x a).val = (x a).val; omega

omit [FloatOps F] in
/-- The label scratch during chunk k, at an index: the label of the chunk's row. -/
theorem labT_apply (k : Fin k0_t1_loop.trips) (y : S128x26.Idx) : labT m d L k y = m (labLoc d) ((labChunk L k).view.emb y) :=
  (View.read_apply _ _).trans (cast_eq _ _)
omit [FloatOps F] in
theorem labT_lt (hpre : PreOK m) (k : Fin k0_t1_loop.trips) (y : S128x26.Idx) : (labT m d L k y).toNat < 1000 := by
  rw [labT_apply]; exact hpre d _

open Cert.KernelRows in
/-- The side conditions the body assumes of a row's labels hold: lanes name rows of the table, labels its columns. -/
theorem chk1_ok (lab : Buf (Elt F) ((thr d L).loc cc0_scratch0)) (hlab : ∀ y : S128x26.Idx, (lab y).toNat < 1000) (v3 : IVec S16 32)
    (hv3 : ∀ y : S16.Idx, (v3 y).toNat = 0 + (y 0).val) (r : Fin k0_t2_loop.trips) :
    k0_chk1 v3 (shapeCast S16 ((labS).view.readAt (Elt F) (Rect.unit (s := S128x26) (k0_off2 r) S1x16.size (k0_off2_inb r)).toLoadRect lab) shapeCasts_S1x16_S16) := by
  have hr : r.val < 128 := trips2 ▸ r.isLt
  have hl : ∀ y : S16.Idx, (shapeCast S16 ((labS).view.readAt (Elt F) (Rect.unit (s := S128x26) (k0_off2 r) S1x16.size (k0_off2_inb r)).toLoadRect lab) shapeCasts_S1x16_S16 y).toNat < 1000 := by
    intro y
    rw [show shapeCast S16 ((labS).view.readAt (Elt F) (Rect.unit (s := S128x26) (k0_off2 r) S1x16.size (k0_off2_inb r)).toLoadRect lab) shapeCasts_S1x16_S16 y = _ from
      label_lane lab r.val hr 0 (by omega) (k0_off2 r) (k0_off2_inb r) (by rw [k0_off2_eq]; rfl) (by rw [k0_off2_eq]; rfl) shapeCasts_S1x16_S16 y]
    exact hlab _
  exact ⟨idx_inb v3 _ 0 (by omega) hv3 hl, idx_inb v3 _ 0 (by omega) hv3 hl⟩
open Cert.KernelRows in
theorem chk2_ok (lab : Buf (Elt F) ((thr d L).loc cc0_scratch0)) (hlab : ∀ y : S128x26.Idx, (lab y).toNat < 1000) (v5 : IVec S16 32)
    (hv5 : ∀ y : S16.Idx, (v5 y).toNat = 10 + (y 0).val) (r : Fin k0_t2_loop.trips) :
    k0_chk2 v5 (shapeCast S16 ((labS).view.readAt (Elt F) (Rect.unit (s := S128x26) (k0_off3 r) S1x16.size (k0_off3_inb r)).toLoadRect lab) shapeCasts_S1x16_S16) := by
  have hr : r.val < 128 := trips2 ▸ r.isLt
  have hl : ∀ y : S16.Idx, (shapeCast S16 ((labS).view.readAt (Elt F) (Rect.unit (s := S128x26) (k0_off3 r) S1x16.size (k0_off3_inb r)).toLoadRect lab) shapeCasts_S1x16_S16 y).toNat < 1000 := by
    intro y
    rw [show shapeCast S16 ((labS).view.readAt (Elt F) (Rect.unit (s := S128x26) (k0_off3 r) S1x16.size (k0_off3_inb r)).toLoadRect lab) shapeCasts_S1x16_S16 y = _ from
      label_lane lab r.val hr 10 (by omega) (k0_off3 r) (k0_off3_inb r) (by rw [k0_off3_eq]; rfl) (by rw [k0_off3_eq]; rfl) shapeCasts_S1x16_S16 y]
    exact hlab _
  exact ⟨idx_inb v5 _ 10 (by omega) hv5 hl, idx_inb v5 _ 10 (by omega) hv5 hl⟩

open Cert.KernelRows in
/-- The loop over a chunk's rows: labels and tables fixed, the two result scratches finished up to row r. -/
def innerInv (k : Fin k0_t1_loop.trips) (r : Nat) (_ : PUnit) : sProp 𝕄 :=
  iprop(((labS).view.loc (thr d L) ↦{fullShare} labT m d L k) ∗ ((meanS).view.loc (thr d L) ↦{fullShare} meanT m d L) ∗ ((lvS).view.loc (thr d L) ↦{fullShare} lvT m d L)
    ∗ (∃ f3, ⌜RowsDone (F := F) (omS).view (labT m d L k) (meanT m d L) r f3⌝ ∗ (omS).view.loc (thr d L) ↦{fullShare} f3)
    ∗ (∃ f4, ⌜RowsDone (F := F) (olS).view (labT m d L k) (lvT m d L) r f4⌝ ∗ (olS).view.loc (thr d L) ↦{fullShare} f4))

open Cert.KernelRows in
/-- One row: the two label loads, their checks, four indexed loads and four stores. -/
theorem row_trip (hpre : PreOK m) (k : Fin k0_t1_loop.trips) (v3 v5 : IVec S16 32)
    (hv3 : ∀ y : S16.Idx, (v3 y).toNat = 0 + (y 0).val) (hv5 : ∀ y : S16.Idx, (v5 y).toNat = 10 + (y 0).val) (r : Fin k0_t2_loop.trips) :
    innerInv m d L k r.val ⟨⟩
      ⊢ wp frame (wpE (defs₀ (F := F)) 𝒱₀ (thr d L) none) Set.univ
          (k0_t2_body L labW (Memref.isWhole_whole _) meanW (Memref.isWhole_whole _) lvW (Memref.isWhole_whole _) omW (Memref.isWhole_whole _) olW (Memref.isWhole_whole _)
            labS (Memref.isWhole_whole _) meanS (Memref.isWhole_whole _) lvS (Memref.isWhole_whole _) omS (Memref.isWhole_whole _) olS (Memref.isWhole_whole _)
            cc0_scoped0 cc0_scoped1 cc0_scoped2 cc0_scoped3 cc0_scoped4 v3 v5 r ()) (fun _ => innerInv m d L k (r.val + 1) ⟨⟩) := by
  have hr : r.val < 128 := trips2 ▸ r.isLt
  have hlabT := labT_lt m d L hpre k
  unfold k0_t2_body innerInv
  iintro ⟨Hl, Hm, Hv, ⟨%f3, %hf3, H3⟩, ⟨%f4, %hf4, H4⟩⟩
  sl_exec (disch := first | exact chk1_ok d L _ hlabT _ hv3 _ | exact chk2_ok d L _ hlabT _ hv5 _)
  ihave Hm' := (Entails.of_eq (pts_meanS_access (F := F) d L _).symm) $$ Hm
  iapply (SparseCore.wp_vectorLoadIdx 𝒱₀ (thr d L) none Set.univ (base := meanS) (S := Finset.univ) (q := fullShare) (Finset.subset_univ _)) $$ Hm'; iintro Hm'
  ihave Hm := (Entails.of_eq (pts_meanS_access (F := F) d L _)) $$ Hm'
  sl_exec
  ihave Hm' := (Entails.of_eq (pts_meanS_access (F := F) d L _).symm) $$ Hm
  iapply (SparseCore.wp_vectorLoadIdx 𝒱₀ (thr d L) none Set.univ (base := meanS) (S := Finset.univ) (q := fullShare) (Finset.subset_univ _)) $$ Hm'; iintro Hm'
  ihave Hm := (Entails.of_eq (pts_meanS_access (F := F) d L _)) $$ Hm'
  sl_exec
  ihave Hv' := (Entails.of_eq (pts_lvS_access (F := F) d L _).symm) $$ Hv
  iapply (SparseCore.wp_vectorLoadIdx 𝒱₀ (thr d L) none Set.univ (base := lvS) (S := Finset.univ) (q := fullShare) (Finset.subset_univ _)) $$ Hv'; iintro Hv'
  ihave Hv := (Entails.of_eq (pts_lvS_access (F := F) d L _)) $$ Hv'
  sl_exec
  ihave Hv' := (Entails.of_eq (pts_lvS_access (F := F) d L _).symm) $$ Hv
  iapply (SparseCore.wp_vectorLoadIdx 𝒱₀ (thr d L) none Set.univ (base := lvS) (S := Finset.univ) (q := fullShare) (Finset.subset_univ _)) $$ Hv'; iintro Hv'
  ihave Hv := (Entails.of_eq (pts_lvS_access (F := F) d L _)) $$ Hv'
  sl_exec
  sl_step
  isplitl [Hl]; · iexact Hl
  isplitl [Hm]; · iexact Hm
  isplitl [Hv]; · iexact Hv
  isplitl [H3]
  · iexists _; isplitr
    rotate_left
    · iexact H3
    · ipureintro
      rw [read_access_mean]
      refine rowsDone_step (F := F) (omS).view (labT m d L k) (meanT m d L) r.val f3 hf3 ⟨_, _⟩ ⟨_, _⟩ ?_ ?_ ?_ ?_
      · intro x
        exact piece_eq (labT m d L k) (meanT m d L) hlabT r.val hr 0 (by omega) (k0_off4 r) (k0_off4_inb r) (by rw [k0_off4_eq]; rfl) (by rw [k0_off4_eq]; rfl) v3 _ hv3
          (fun y => label_lane (labT m d L k) r.val hr 0 (by omega) (k0_off2 r) (k0_off2_inb r) (by rw [k0_off2_eq]; rfl) (by rw [k0_off2_eq]; rfl) shapeCasts_S1x16_S16 y) _ _ x
      · intro x
        exact piece_eq (labT m d L k) (meanT m d L) hlabT r.val hr 10 (by omega) (k0_off5 r) (k0_off5_inb r) (by rw [k0_off5_eq]; rfl) (by rw [k0_off5_eq]; rfl) v5 _ hv5
          (fun y => label_lane (labT m d L k) r.val hr 10 (by omega) (k0_off3 r) (k0_off3_inb r) (by rw [k0_off3_eq]; rfl) (by rw [k0_off3_eq]; rfl) shapeCasts_S1x16_S16 y) _ _ x
      · exact fun j => mem_rowRect (k0_off4 r) (k0_off4_inb r) r.val 0 (by rw [k0_off4_eq]; rfl) (by rw [k0_off4_eq]; rfl) j
      · exact fun j => mem_rowRect (k0_off5 r) (k0_off5_inb r) r.val 10 (by rw [k0_off5_eq]; rfl) (by rw [k0_off5_eq]; rfl) j
  · iexists _; isplitr
    rotate_left
    · iexact H4
    · ipureintro
      rw [read_access_lv]
      refine rowsDone_step (F := F) (olS).view (labT m d L k) (lvT m d L) r.val f4 hf4 ⟨_, _⟩ ⟨_, _⟩ ?_ ?_ ?_ ?_
      · intro x
        exact piece_eq (labT m d L k) (lvT m d L) hlabT r.val hr 0 (by omega) (k0_off6 r) (k0_off6_inb r) (by rw [k0_off6_eq]; rfl) (by rw [k0_off6_eq]; rfl) v3 _ hv3
          (fun y => label_lane (labT m d L k) r.val hr 0 (by omega) (k0_off2 r) (k0_off2_inb r) (by rw [k0_off2_eq]; rfl) (by rw [k0_off2_eq]; rfl) shapeCasts_S1x16_S16 y) _ _ x
      · intro x
        exact piece_eq (labT m d L k) (lvT m d L) hlabT r.val hr 10 (by omega) (k0_off5 r) (k0_off5_inb r) (by rw [k0_off5_eq]; rfl) (by rw [k0_off5_eq]; rfl) v5 _ hv5
          (fun y => label_lane (labT m d L k) r.val hr 10 (by omega) (k0_off3 r) (k0_off3_inb r) (by rw [k0_off3_eq]; rfl) (by rw [k0_off3_eq]; rfl) shapeCasts_S1x16_S16 y) _ _ x
      · exact fun j => mem_rowRect (k0_off6 r) (k0_off6_inb r) r.val 0 (by rw [k0_off6_eq]; rfl) (by rw [k0_off6_eq]; rfl) j
      · exact fun j => mem_rowRect (k0_off5 r) (k0_off5_inb r) r.val 10 (by rw [k0_off5_eq]; rfl) (by rw [k0_off5_eq]; rfl) j

open Cert.KernelRows in
omit [FloatOps F] in
/-- A finished chunk scratch copied out to chunk k's rows of a result: those rows hold the result. -/
theorem om_chunk_done (k : Fin k0_t1_loop.trips) (g : Buf (Elt F) (omLoc d)) (w : S128x26.Idx → F .f32)
    (hw : ∀ y : S128x26.Idx, w y = rowFn (labT m d L k) (meanT m d L) y) :
    ∀ i ∈ (omChunk L k).view.set, (omChunk L k).view.writes (Elt F) g [⟨Rect.whole S128x26, w⟩] i = Gm m d i := by
  intro i hi
  obtain ⟨y, -, rfl⟩ := Finset.mem_map.mp hi
  have hrd := View.read_writes_cons_emb (omChunk L k).view g (Rect.whole S128x26) w [] y
  rw [Rect.emb_whole_apply, View.read_apply] at hrd
  refine ((cast_eq _ _).symm.trans hrd).trans ?_
  rw [hw y]
  have e1 : ((omChunk L k).view.emb y) 1 = y 1 := by
    apply Fin.ext; show k0_off7 L k 1 + 1 * (y 1).val = (y 1).val; rw [k0_off7_eq]; show 0 + 1 * (y 1).val = (y 1).val; omega
  have e2 : labT m d L k y = m (labLoc d) ((omChunk L k).view.emb y) := by
    refine (labT_apply m d L k y).trans (congrArg (m (labLoc d)) ?_)
    funext a; apply Fin.ext
    show k0_off1 L k a + 1 * (y a).val = k0_off7 L k a + 1 * (y a).val
    rw [k0_off1_eq, k0_off7_eq]
  show m (meanLoc d) (ix2 (y 1) (Cert.Spec.col (labT m d L k y)))
    = m (meanLoc d) (ix2 (((omChunk L k).view.emb y) 1) (Cert.Spec.col (m (labLoc d) ((omChunk L k).view.emb y))))
  rw [e1, e2]

open Cert.KernelRows in
omit [FloatOps F] in
/-- A finished chunk scratch copied out to chunk k's rows of a result: those rows hold the result. -/
theorem ol_chunk_done (k : Fin k0_t1_loop.trips) (g : Buf (Elt F) (olLoc d)) (w : S128x26.Idx → F .f32)
    (hw : ∀ y : S128x26.Idx, w y = rowFn (labT m d L k) (lvT m d L) y) :
    ∀ i ∈ (olChunk L k).view.set, (olChunk L k).view.writes (Elt F) g [⟨Rect.whole S128x26, w⟩] i = Gl m d i := by
  intro i hi
  obtain ⟨y, -, rfl⟩ := Finset.mem_map.mp hi
  have hrd := View.read_writes_cons_emb (olChunk L k).view g (Rect.whole S128x26) w [] y
  rw [Rect.emb_whole_apply, View.read_apply] at hrd
  refine ((cast_eq _ _).symm.trans hrd).trans ?_
  rw [hw y]
  have e1 : ((olChunk L k).view.emb y) 1 = y 1 := by
    apply Fin.ext; show k0_off7 L k 1 + 1 * (y 1).val = (y 1).val; rw [k0_off7_eq]; show 0 + 1 * (y 1).val = (y 1).val; omega
  have e2 : labT m d L k y = m (labLoc d) ((olChunk L k).view.emb y) := by
    refine (labT_apply m d L k y).trans (congrArg (m (labLoc d)) ?_)
    funext a; apply Fin.ext
    show k0_off1 L k a + 1 * (y a).val = k0_off7 L k a + 1 * (y a).val
    rw [k0_off1_eq, k0_off7_eq]
  show m (lvLoc d) (ix2 (y 1) (Cert.Spec.col (labT m d L k y)))
    = m (lvLoc d) (ix2 (((olChunk L k).view.emb y) 1) (Cert.Spec.col (m (labLoc d) ((olChunk L k).view.emb y))))
  rw [e1, e2]

open Cert.KernelRows in
/-- One chunk: its labels copied in, its rows filled, the two result scratches copied out to the chunk's rows. -/
theorem chunk_trip (hpre : PreOK m) (q : PosShare TreeShare) (O : CellTallies nD τ sig (HIx 1)) (W : Waits sig (HIx 1)) (v3 v5 : IVec S16 32)
    (hv3 : ∀ y : S16.Idx, (v3 y).toNat = 0 + (y 0).val) (hv5 : ∀ y : S16.Idx, (v5 y).toNat = 10 + (y 0).val) (k : Fin k0_t1_loop.trips) :
    inv m d L q O W k.val ⟨⟩
      ⊢ wp frame (wpE (defs₀ (F := F)) 𝒱₀ (thr d L) none) Set.univ
          (k0_t1_body L labW (Memref.isWhole_whole _) meanW (Memref.isWhole_whole _) lvW (Memref.isWhole_whole _) omW (Memref.isWhole_whole _) olW (Memref.isWhole_whole _)
            labS (Memref.isWhole_whole _) meanS (Memref.isWhole_whole _) lvS (Memref.isWhole_whole _) omS (Memref.isWhole_whole _) olS (Memref.isWhole_whole _)
            cc0_scoped0 cc0_scoped1 cc0_scoped2 cc0_scoped3 cc0_scoped4 v3 v5 k ()) (fun _ => inv m d L q O W (k.val + 1) ⟨⟩) := by
  have hk : k.val < 4 := trips1 ▸ k.isLt
  unfold k0_t1_body inv
  iintro ⟨Hmw, Hlab, ⟨%fl, Hl⟩, Hm, Hv, ⟨%f3, H3⟩, ⟨%f4, H4⟩, Hs2, Hs3, Hs4, Hdm, Hrm, Hdl, Hrl, %W', %hW', HO⟩
  ihave Hc := (carve_om (F := F) d L k _) $$ Hrm
  icases Hc with ⟨Hg3, Hrm⟩
  ihave Hc := (carve_ol (F := F) d L k _) $$ Hrl
  icases Hc with ⟨Hg4, Hrl⟩
  sl_exec
  ihave Hl := (pts_eq (F := F) (g := labT m d L k) (View.write_whole_univ _ _ _)) $$ Hl
  sl_for (innerInv m d L k) $$ [Hl Hm Hv H3 H4]
  case region =>
    intro r _
    exact row_trip m d L hpre k v3 v5 hv3 hv5 r
  · unfold innerInv
    isplitl [Hl]; · iexact Hl
    isplitl [Hm]; · iexact Hm
    isplitl [Hv]; · iexact Hv
    isplitl [H3]
    · iexists f3; isplitr
      · ipureintro; intro j hj; exact absurd hj (Nat.not_lt_zero _)
      · iexact H3
    · iexists f4; isplitr
      · ipureintro; intro j hj; exact absurd hj (Nat.not_lt_zero _)
      · iexact H4
  iintro %_ HI
  unfold innerInv
  icases HI with ⟨Hl, Hm, Hv, ⟨%f3', %hf3, H3⟩, ⟨%f4', %hf4, H4⟩⟩
  sl_exec
  sl_step
  have h128 : ∀ y : S128x26.Idx, (y 0).val < Scf.trips k0_t2_loop.lb k0_t2_loop.ub k0_t2_loop.st := fun y => by
    show (y 0).val < k0_t2_loop.trips; rw [trips2]; exact (y 0).isLt
  ihave Hg3 := (Entails.of_eq (pointsTo_congr (om_chunk_done m d L k _ _ (fun y => hf3 y (h128 y))))) $$ Hg3
  ihave Hg4 := (Entails.of_eq (pointsTo_congr (ol_chunk_done m d L k _ _ (fun y => hf4 y (h128 y))))) $$ Hg4
  ihave Hdm := (uncarve_om (F := F) d L k _) $$ [Hdm Hg3]
  · isplitl [Hdm] <;> iassumption
  ihave Hdl := (uncarve_ol (F := F) d L k _) $$ [Hdl Hg4]
  · isplitl [Hdl] <;> iassumption
  isplitl [Hmw]; · iexact Hmw
  isplitl [Hlab]; · iexact Hlab
  isplitl [Hl]; · iexists _; iexact Hl
  isplitl [Hm]; · iexact Hm
  isplitl [Hv]; · iexact Hv
  isplitl [H3]; · iexists _; iexact H3
  isplitl [H4]; · iexists _; iexact H4
  isplitl [Hs2]; · iexact Hs2
  isplitl [Hs3]; · iexact Hs3
  isplitl [Hs4]; · iexact Hs4
  isplitl [Hdm]; · iexact Hdm
  isplitl [Hrm]; · iexact Hrm
  isplitl [Hdl]; · iexact Hdl
  isplitl [Hrl]; · iexact Hrl
  iexists _; isplitr
  rotate_left
  · iexact HO
  · ipureintro; intro p hp
    simp only [Finset.mem_insert] at hp
    rcases hp with rfl | rfl | rfl | hp
    · exact .inr rfl
    · exact .inr rfl
    · exact .inr rfl
    · exact hW' p hp

omit [FloatOps F] in
theorem pts_labW (q : PosShare TreeShare) (f : Buf (Elt F) (labLoc d)) : (((labW).view.loc (thr d L) ↦{q} f : sProp 𝕄)) = (labLoc d ↦{q} f) := rfl
omit [FloatOps F] in
theorem pts_meanW (q : PosShare TreeShare) (f : Buf (Elt F) (meanLoc d)) : (((meanW).view.loc (thr d L) ↦{q} f : sProp 𝕄)) = (meanLoc d ↦{q} f) := rfl
omit [FloatOps F] in
theorem pts_lvW (q : PosShare TreeShare) (f : Buf (Elt F) (lvLoc d)) : (((lvW).view.loc (thr d L) ↦{q} f : sProp 𝕄)) = (lvLoc d ↦{q} f) := rfl

omit [FloatOps F] in
theorem pts_labS (f : Buf (Elt F) ((thr d L).loc cc0_scratch0)) : ((((labS).view.loc (thr d L) ↦{fullShare} f : sProp 𝕄))) = ((thr d L).loc cc0_scratch0 ↦{fullShare} f) := rfl
omit [FloatOps F] in
theorem pts_meanS (f : Buf (Elt F) ((thr d L).loc cc0_scratch1)) : ((((meanS).view.loc (thr d L) ↦{fullShare} f : sProp 𝕄))) = ((thr d L).loc cc0_scratch1 ↦{fullShare} f) := rfl
omit [FloatOps F] in
theorem pts_lvS (f : Buf (Elt F) ((thr d L).loc cc0_scratch2)) : ((((lvS).view.loc (thr d L) ↦{fullShare} f : sProp 𝕄))) = ((thr d L).loc cc0_scratch2 ↦{fullShare} f) := rfl
omit [FloatOps F] in
theorem pts_omS (f : Buf (Elt F) ((thr d L).loc cc0_scratch3)) : ((((omS).view.loc (thr d L) ↦{fullShare} f : sProp 𝕄))) = ((thr d L).loc cc0_scratch3 ↦{fullShare} f) := rfl
omit [FloatOps F] in
theorem pts_olS (f : Buf (Elt F) ((thr d L).loc cc0_scratch4)) : ((((olS).view.loc (thr d L) ↦{fullShare} f : sProp 𝕄))) = ((thr d L).loc cc0_scratch4 ↦{fullShare} f) := rfl
omit [FloatOps F] in
theorem rowsIn_self (a : ℕ) : rowsIn a a = ∅ := by
  ext j; rw [mem_rowsIn]; simp only [Finset.notMem_empty, iff_false]; omega
omit [FloatOps F] in
/-- Before the first chunk no row is written. -/
theorem none_done {ℓ : Loc nD τ sig} (I : Finset (Idx ℓ)) (hI : I = ∅) (f : Buf (Elt F) ℓ) :
    (iprop(emp) : sProp 𝕄) ⊢ ℓ ↦[I]{fullShare} f := by
  subst hI; rw [pointsTo_empty]
omit [FloatOps F] in
theorem all_done_om (f : Buf (Elt F) (omLoc d)) :
    (omLoc d ↦[rowsIn (base L) (base L + 128 * Scf.trips k0_t1_loop.lb k0_t1_loop.ub k0_t1_loop.st)]{fullShare} f : sProp 𝕄)
      = (omLoc d ↦[rowsIn (base L) (base L + 512)]{fullShare} f) := by
  rw [show Scf.trips k0_t1_loop.lb k0_t1_loop.ub k0_t1_loop.st = 4 from trips1]
omit [FloatOps F] in
theorem all_done_ol (f : Buf (Elt F) (olLoc d)) :
    (olLoc d ↦[rowsIn (base L) (base L + 128 * Scf.trips k0_t1_loop.lb k0_t1_loop.ub k0_t1_loop.st)]{fullShare} f : sProp 𝕄)
      = (olLoc d ↦[rowsIn (base L) (base L + 512)]{fullShare} f) := by
  rw [show Scf.trips k0_t1_loop.lb k0_t1_loop.ub k0_t1_loop.st = 4 from trips1]

open Cert.KernelRows in
/-- A subcore's whole task: both tables copied in, then the four chunks. -/
theorem tile_body (hF : (K (F := F)).Facts) (hpre : PreOK m) (q : PosShare TreeShare) (O : CellTallies nD τ sig (HIx 1)) (W : Waits sig (HIx 1)) (hO : ∀ g, O g none = 0) :
    (iprop(levAts (K (F := F)).L (K (F := F)).lev ∗ emp
        ∗ (((labLoc d ↦{q} m (labLoc d)) ∗ (meanLoc d ↦{q} m (meanLoc d)) ∗ (lvLoc d ↦{q} m (lvLoc d))
          ∗ (omLoc d ↦[rowsIn (base L) (base L + 512)]{fullShare} m (omLoc d)) ∗ (olLoc d ↦[rowsIn (base L) (base L + 512)]{fullShare} m (olLoc d))))
        ∗ scopedBufs (thr d L) ∗ scopedSems0 (thr d L) ∗ owes (thr d L) O W) : sProp 𝕄)
      ⊢ wp frame (wpE (defs₀ (F := F)) 𝒱₀ (thr d L) none) Set.univ
          (cc0_gather_kernel L labW (Memref.isWhole_whole _) meanW (Memref.isWhole_whole _) lvW (Memref.isWhole_whole _) omW (Memref.isWhole_whole _) olW (Memref.isWhole_whole _)
            labS (Memref.isWhole_whole _) meanS (Memref.isWhole_whole _) lvS (Memref.isWhole_whole _) omS (Memref.isWhole_whole _) olS (Memref.isWhole_whole _)
            cc0_scoped0 cc0_scoped1 cc0_scoped2 cc0_scoped3 cc0_scoped4)
          fun _ => iprop((((labLoc d ↦{q} m (labLoc d)) ∗ (meanLoc d ↦{q} m (meanLoc d)) ∗ (lvLoc d ↦{q} m (lvLoc d))
              ∗ (omLoc d ↦[rowsIn (base L) (base L + 512)]{fullShare} Gm m d) ∗ (olLoc d ↦[rowsIn (base L) (base L + 512)]{fullShare} Gl m d)))
            ∗ scopedBufs (thr d L) ∗ scopedSems0 (thr d L) ∗ ∃ W', ⌜∀ p ∈ W', p ∈ W ∨ p.2 = none⌝ ∗ owes (thr d L) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hlab, Hmean, Hlv', Hom, Hol⟩, ⟨⟨⟨%f0, Hl⟩, ⟨%f1, Hm⟩, ⟨%f2, Hv⟩, ⟨%f3, H3⟩, ⟨%f4, H4⟩⟩, Hbufs⟩, ⟨⟨Hs0, Hs1, Hs2, Hs3, Hs4⟩, Hsems⟩, HO⟩
  ihave Hmw := ((K (F := F)).mayWaits_none (thr := thr d L) hO) $$ Hlv
  ihave Hlab := (Entails.of_eq (pts_labW (F := F) d L q _).symm) $$ Hlab
  ihave Hmean := (Entails.of_eq (pts_meanW (F := F) d L q _).symm) $$ Hmean
  ihave Hlv' := (Entails.of_eq (pts_lvW (F := F) d L q _).symm) $$ Hlv'
  ihave Hl := (Entails.of_eq (pts_labS (F := F) d L _).symm) $$ Hl
  ihave Hm := (Entails.of_eq (pts_meanS (F := F) d L _).symm) $$ Hm
  ihave Hv := (Entails.of_eq (pts_lvS (F := F) d L _).symm) $$ Hv
  ihave H3 := (Entails.of_eq (pts_omS (F := F) d L _).symm) $$ H3
  ihave H4 := (Entails.of_eq (pts_olS (F := F) d L _).symm) $$ H4
  sl_exec
  ihave Hm := (pts_eq (F := F) (g := meanT m d L) (View.write_whole_univ _ _ _)) $$ Hm
  ihave Hv := (pts_eq (F := F) (g := lvT m d L) (View.write_whole_univ _ _ _)) $$ Hv
  sl_for (inv m d L q O W) $$ [Hmw Hlab Hl Hm Hv H3 H4 Hs2 Hs3 Hs4 Hom Hol HO]
  case region =>
    intro k _
    exact chunk_trip m d L hpre q O W _ _ (iota_lane _) pay1_lane k
  · unfold inv
    isplitl [Hmw]; · iexact Hmw
    isplitl [Hlab]; · iexact Hlab
    isplitl [Hl]; · iexists _; iexact Hl
    isplitl [Hm]; · iexact Hm
    isplitl [Hv]; · iexact Hv
    isplitl [H3]; · iexists _; iexact H3
    isplitl [H4]; · iexists _; iexact H4
    isplitl [Hs2]; · iexact Hs2
    isplitl [Hs3]; · iexact Hs3
    isplitl [Hs4]; · iexact Hs4
    isplitr; · iapply (none_done (F := F) _ (rowsIn_self _) _); iempintro
    isplitl [Hom]; · iexact Hom
    isplitr; · iapply (none_done (F := F) _ (rowsIn_self _) _); iempintro
    isplitl [Hol]; · iexact Hol
    iexists _; isplitr
    rotate_left
    · iexact HO
    · ipureintro; intro p hp
      simp only [Finset.mem_insert] at hp
      rcases hp with rfl | rfl | hp
      · exact .inr rfl
      · exact .inr rfl
      · exact .inl hp
  iintro %_ HI
  unfold inv
  icases HI with ⟨-, Hlab, ⟨%fl', Hl⟩, Hm, Hv, ⟨%f3', H3⟩, ⟨%f4', H4⟩, Hs2, Hs3, Hs4, Hdm, -, Hdl, -, %W', %hW', HO⟩
  sl_step
  isplitl [Hlab Hmean Hlv' Hdm Hdl]
  · isplitl [Hlab]; · iapply (Entails.of_eq (pts_labW (F := F) d L q _)); iexact Hlab
    isplitl [Hmean]; · iapply (Entails.of_eq (pts_meanW (F := F) d L q _)); iexact Hmean
    isplitl [Hlv']; · iapply (Entails.of_eq (pts_lvW (F := F) d L q _)); iexact Hlv'
    isplitl [Hdm]; · iapply (Entails.of_eq (all_done_om (F := F) d L _)); iexact Hdm
    iapply (Entails.of_eq (all_done_ol (F := F) d L _)); iexact Hdl
  isplitl [Hl Hm Hv H3 H4 Hbufs]
  · isplitl [Hl Hm Hv H3 H4]
    · isplitl [Hl]; · iexists _; iapply (Entails.of_eq (pts_labS (F := F) d L _)); iexact Hl
      isplitl [Hm]; · iexists _; iapply (Entails.of_eq (pts_meanS (F := F) d L _)); iexact Hm
      isplitl [Hv]; · iexists _; iapply (Entails.of_eq (pts_lvS (F := F) d L _)); iexact Hv
      isplitl [H3]; · iexists _; iapply (Entails.of_eq (pts_omS (F := F) d L _)); iexact H3
      iexists _; iapply (Entails.of_eq (pts_olS (F := F) d L _)); iexact H4
    · iexact Hbufs
  isplitl [Hs0 Hs1 Hs2 Hs3 Hs4 Hsems]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    · iexact Hsems
  iexists W'; isplitr
  · ipureintro; exact hW'
  · iexact HO

end Tile

/-! ## What the handshakes carry -/

/-- The read share of subcore i of core c: the i-th token of the c-th token of the whole. -/
abbrev tileShare (c i : ℕ) : PosShare TreeShare := Transfers.shareTokN (Transfers.shareTokN fullShare c) i

/-- The 512 rows of subcore i of core c. -/
abbrev tileRows (c i : ℕ) : Finset S16384x26.Idx := rowsIn (8192 * c + 512 * i) (8192 * c + 512 * i + 512)

/-- What subcore i of core c holds: a read share of the labels and of both tables, and its rows of the two results at
    contents gm, gl. -/
def tileGen (d : Dev nD) (gm : Buf (Elt F) (omLoc d)) (gl : Buf (Elt F) (olLoc d)) (c i : ℕ) : sProp 𝕄 :=
  iprop((labLoc d ↦{tileShare c i} m (labLoc d)) ∗ (meanLoc d ↦{tileShare c i} m (meanLoc d)) ∗ (lvLoc d ↦{tileShare c i} m (lvLoc d))
    ∗ (omLoc d ↦[tileRows c i]{fullShare} gm) ∗ (olLoc d ↦[tileRows c i]{fullShare} gl))

instance tileGen_storable (d : Dev nD) (gm : Buf (Elt F) (omLoc d)) (gl : Buf (Elt F) (olLoc d)) (c i : ℕ) :
    BI.Storable (upEmb : UEmb _ 𝕄) (tileGen m d gm gl c i) := by unfold tileGen; infer_instance

/-- The one call hands each core its sixteen subcores' holdings, each subcore its own, and takes them back with the
    results' rows written. -/
def P : (K (F := F)).Pay (nD := nD) (Val := Elt F) (Name := ℕ) (U := UU) where
  st := fun _ d c => bigSep (Finset.univ : Finset (Fin 16)) fun i => tileGen m d (m (omLoc d)) (m (olLoc d)) c.val i.val
  dn := fun _ d c => bigSep (Finset.univ : Finset (Fin 16)) fun i => tileGen m d (Gm m d) (Gl m d) c.val i.val
  go := fun _ d c i => tileGen m d (m (omLoc d)) (m (olLoc d)) c.val i.val
  td := fun _ d c i => tileGen m d (Gm m d) (Gl m d) c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          labW (Memref.isWhole_whole _) meanW (Memref.isWhole_whole _) lvW (Memref.isWhole_whole _) omW (Memref.isWhole_whole _) olW (Memref.isWhole_whole _)
          labS (Memref.isWhole_whole _) meanS (Memref.isWhole_whole _) lvS (Memref.isWhole_whole _) omS (Memref.isWhole_whole _) olS (Memref.isWhole_whole _)
          cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre (tileShare c.val i.val) O W hO).trans (wp_mono frame _ _ fun _ => obl_post)

theorem vecSplit : (K (F := F)).VecSplit' (P m) 0 := by
  intro d c
  show (bigSep (Finset.univ : Finset (Fin 16)) fun i => tileGen m d (m (omLoc d)) (m (olLoc d)) c.val i.val)
    ⊢ |={Set.univ}=> iprop((bigSep (Finset.univ : Finset (Fin 16)) fun i => tileGen m d (m (omLoc d)) (m (olLoc d)) c.val i.val)
      ∗ ((bigSep (Finset.univ : Finset (Fin 16)) fun i => tileGen m d (Gm m d) (Gl m d) c.val i.val)
          -∗ bigSep (Finset.univ : Finset (Fin 16)) fun i => tileGen m d (Gm m d) (Gl m d) c.val i.val))
  iintro H; imodintro
  isplitl [H]; · iexact H
  iintro H; iexact H

/-! ## The launch element: the handshakes' rounds; the transfers' counters are dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Dealing the arrays to the thirty-two subcores and gathering them back -/

/-- What is kept of a read array while the subcores hold their shares. -/
def readRem (ℓ : Loc nD τ sig) (f : Buf (Elt F) ℓ) : sProp 𝕄 :=
  iprop((ℓ ↦{Transfers.shareDrop fullShare 2} f) ∗ bigSep Finset.univ fun c : Fin 2 => ℓ ↦{Transfers.shareDrop (Transfers.shareTok fullShare 2 c) 16} f)

omit [FloatOps F] in
theorem read_split (ℓ : Loc nD τ sig) (f : Buf (Elt F) ℓ) :
    (ℓ ↦{fullShare} f : sProp 𝕄) ⊢ iprop(readRem ℓ f ∗ bigSep Finset.univ fun c : Fin 2 => bigSep Finset.univ fun i : Fin 16 => ℓ ↦{tileShare c.val i.val} f) := by
  unfold readRem
  iintro H
  ihave H := (Transfers.pointsTo_toks_split fullShare 2) $$ H
  icases H with ⟨Hr, Ht⟩
  have hmono : (bigSep Finset.univ fun c : Fin 2 => (ℓ ↦{Transfers.shareTok fullShare 2 c} f : sProp 𝕄))
      ⊢ bigSep Finset.univ fun c : Fin 2 => iprop((ℓ ↦{Transfers.shareDrop (Transfers.shareTok fullShare 2 c) 16} f)
          ∗ bigSep Finset.univ fun i : Fin 16 => (ℓ ↦{tileShare c.val i.val} f : sProp 𝕄)) :=
    bigSep_mono fun c _ => Transfers.pointsTo_toks_split (Transfers.shareTok fullShare 2 c) 16
  ihave Ht := hmono $$ Ht
  ihave Ht := (Entails.of_eq (bigSep_sep' _ _ _)) $$ Ht
  icases Ht with ⟨Hr2, Ht⟩
  isplitl [Hr Hr2]
  · isplitl [Hr]; · iexact Hr
    iexact Hr2
  iexact Ht
omit [FloatOps F] in
theorem read_join (ℓ : Loc nD τ sig) (f : Buf (Elt F) ℓ) :
    iprop(readRem ℓ f ∗ bigSep Finset.univ fun c : Fin 2 => bigSep Finset.univ fun i : Fin 16 => ℓ ↦{tileShare c.val i.val} f) ⊢ (ℓ ↦{fullShare} f : sProp 𝕄) := by
  unfold readRem
  iintro ⟨⟨Hr, Hr2⟩, Ht⟩
  ihave Ht := (Entails.of_eq (bigSep_sep' _ _ _).symm) $$ [Hr2 Ht]
  · isplitl [Hr2] <;> iassumption
  have hmono : (bigSep Finset.univ fun c : Fin 2 => iprop((ℓ ↦{Transfers.shareDrop (Transfers.shareTok fullShare 2 c) 16} f)
          ∗ bigSep Finset.univ fun i : Fin 16 => (ℓ ↦{tileShare c.val i.val} f : sProp 𝕄)))
      ⊢ bigSep Finset.univ fun c : Fin 2 => (ℓ ↦{Transfers.shareTok fullShare 2 c} f : sProp 𝕄) :=
    bigSep_mono fun c _ => Transfers.pointsTo_toks_join (Transfers.shareTok fullShare 2 c) 16
  ihave Ht := hmono $$ Ht
  iapply (Transfers.pointsTo_toks_join fullShare 2)
  isplitl [Hr]; · iexact Hr
  iexact Ht

omit [FloatOps F] in
theorem tileRows_disjoint : ∀ t ∈ (Finset.univ : Finset (Fin 2 × Fin 16)), ∀ t' ∈ (Finset.univ : Finset (Fin 2 × Fin 16)), t ≠ t' →
    Disjoint (tileRows t.1.val t.2.val) (tileRows t'.1.val t'.2.val) := by
  intro t _ t' _ hne
  refine Finset.disjoint_left.mpr fun j h1 h2 => hne ?_
  rw [mem_rowsIn] at h1 h2
  have a1 := t.1.isLt; have a2 := t.2.isLt; have b1 := t'.1.isLt; have b2 := t'.2.isLt
  exact Prod.ext (Fin.ext (by omega)) (Fin.ext (by omega))
omit [FloatOps F] in
theorem tileRows_cover : (Finset.univ : Finset (Fin 2 × Fin 16)).biUnion (fun t => tileRows t.1.val t.2.val) = Finset.univ := by
  ext j
  have hj : (j 0).val < 16384 := (j 0).isLt
  simp only [Finset.mem_biUnion, Finset.mem_univ, true_and, iff_true]
  exact ⟨(⟨(j 0).val / 8192, by omega⟩, ⟨(j 0).val % 8192 / 512, by omega⟩), mem_rowsIn.mpr (by show 8192 * ((j 0).val / 8192) + 512 * ((j 0).val % 8192 / 512) ≤ _ ∧ _ < 8192 * ((j 0).val / 8192) + 512 * ((j 0).val % 8192 / 512) + 512; omega)⟩
omit [FloatOps F] in
/-- A result held whole is its thirty-two blocks of rows. -/
theorem om_rows (d : Dev nD) (f : Buf (Elt F) (omLoc d)) :
    (omLoc d ↦{fullShare} f : sProp 𝕄) = bigSep Finset.univ fun c : Fin 2 => bigSep Finset.univ fun i : Fin 16 => omLoc d ↦[tileRows c.val i.val]{fullShare} f := by
  rw [← bigSep_univ_prod (fun t : Fin 2 × Fin 16 => (omLoc d ↦[tileRows t.1.val t.2.val]{fullShare} f : sProp 𝕄)),
    ← pointsTo_biUnion Finset.univ (ℓ := omLoc d) (fun t : Fin 2 × Fin 16 => tileRows t.1.val t.2.val) tileRows_disjoint, tileRows_cover]
omit [FloatOps F] in
theorem ol_rows (d : Dev nD) (f : Buf (Elt F) (olLoc d)) :
    (olLoc d ↦{fullShare} f : sProp 𝕄) = bigSep Finset.univ fun c : Fin 2 => bigSep Finset.univ fun i : Fin 16 => olLoc d ↦[tileRows c.val i.val]{fullShare} f := by
  rw [← bigSep_univ_prod (fun t : Fin 2 × Fin 16 => (olLoc d ↦[tileRows t.1.val t.2.val]{fullShare} f : sProp 𝕄)),
    ← pointsTo_biUnion Finset.univ (ℓ := olLoc d) (fun t : Fin 2 × Fin 16 => tileRows t.1.val t.2.val) tileRows_disjoint, tileRows_cover]

omit [FloatOps F] in
/-- All subcores' holdings, array by array. -/
theorem deal_eq (d : Dev nD) (gm : Buf (Elt F) (omLoc d)) (gl : Buf (Elt F) (olLoc d)) :
    (bigSep Finset.univ fun c : Fin 2 => bigSep Finset.univ fun i : Fin 16 => tileGen m d gm gl c.val i.val)
      = iprop((bigSep Finset.univ fun c : Fin 2 => bigSep Finset.univ fun i : Fin 16 => labLoc d ↦{tileShare c.val i.val} m (labLoc d))
        ∗ (bigSep Finset.univ fun c : Fin 2 => bigSep Finset.univ fun i : Fin 16 => meanLoc d ↦{tileShare c.val i.val} m (meanLoc d))
        ∗ (bigSep Finset.univ fun c : Fin 2 => bigSep Finset.univ fun i : Fin 16 => lvLoc d ↦{tileShare c.val i.val} m (lvLoc d))
        ∗ (bigSep Finset.univ fun c : Fin 2 => bigSep Finset.univ fun i : Fin 16 => omLoc d ↦[tileRows c.val i.val]{fullShare} gm)
        ∗ (bigSep Finset.univ fun c : Fin 2 => bigSep Finset.univ fun i : Fin 16 => olLoc d ↦[tileRows c.val i.val]{fullShare} gl)) := by
  unfold tileGen
  simp only [bigSep_sep']

/-! ## @main on the TensorCore -/

omit [FloatOps F] in
theorem unscopedBufs_eq (d : Dev nD) (Wb : (b : Ref sig .tc) → Buf (Elt F) ((d.tc : Thread nD τ).loc b)) :
    (unscopedBufs d Wb : sProp 𝕄) = iprop((labLoc d ↦{fullShare} Wb main_arg0) ∗ (meanLoc d ↦{fullShare} Wb main_arg1) ∗ (lvLoc d ↦{fullShare} Wb main_arg2)
      ∗ (omLoc d ↦{fullShare} Wb main_v0_0) ∗ (olLoc d ↦{fullShare} Wb main_v0_1)) := by
  unfold unscopedBufs
  rw [show (Finset.univ.filter fun b : Ref sig .tc => ¬ b.isScoped) = {main_arg0, main_arg1, main_arg2, main_v0_0, main_v0_1} by decide,
    SparseCore.bigSep_insert' (by decide), SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c)
    = bigSep Finset.univ fun c : Fin 2 => bigSep Finset.univ fun i : Fin 16 => tileGen m d (m (omLoc d)) (m (olLoc d)) c.val i.val := rfl
theorem dn0_eq (d : Dev nD) : (bigSep Finset.univ fun c : Fin ((K (F := F)).nCore 0) => (P m).dn 0 d c)
    = bigSep Finset.univ fun c : Fin 2 => bigSep Finset.univ fun i : Fin 16 => tileGen m d (Gm m d) (Gl m d) c.val i.val := rfl

/-- What @main leaves the claim: the arguments at their launch contents, the results at the lookups. -/
abbrev FIN (d : Dev nD) : sProp 𝕄 :=
  iprop((labLoc d ↦{fullShare} m (labLoc d)) ∗ (meanLoc d ↦{fullShare} m (meanLoc d)) ∗ (lvLoc d ↦{fullShare} m (lvLoc d))
    ∗ (omLoc d ↦{fullShare} Gm m d) ∗ (olLoc d ↦{fullShare} Gl m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hlab, Hmean, Hlv, Hom, Hol⟩, -, -⟩, -⟩
  ihave Hlab := (read_split (F := F) (labLoc d) _) $$ Hlab
  icases Hlab with ⟨Rlab, Tlab⟩
  ihave Hmean := (read_split (F := F) (meanLoc d) _) $$ Hmean
  icases Hmean with ⟨Rmean, Tmean⟩
  ihave Hlv := (read_split (F := F) (lvLoc d) _) $$ Hlv
  icases Hlv with ⟨Rlv, Tlv⟩
  ihave Hom := (Entails.of_eq (om_rows (F := F) d _)) $$ Hom
  ihave Hol := (Entails.of_eq (ol_rows (F := F) d _)) $$ Hol
  iapply ((K (F := F)).wp_run (D (F := F)) 𝒱 (EH := EH) (P := P m) κ d 0) $$ [Hst Tlab Tmean Tlv Hom Hol Rlab Rmean Rlv]
  isplitr; · iexact Hctx
  isplitl [Hst]; · iexact Hst
  isplitl [Tlab Tmean Tlv Hom Hol]
  · rw [st0_eq, deal_eq]
    isplitl [Tlab]; · iexact Tlab
    isplitl [Tmean]; · iexact Tmean
    isplitl [Tlv]; · iexact Tlv
    isplitl [Hom]; · iexact Hom
    iexact Hol
  iintro ⟨Hst, Hdn⟩
  ihave Hdn' := (Entails.of_eq ((dn0_eq m d).trans (deal_eq m d _ _))) $$ Hdn
  icases Hdn' with ⟨Tlab, Tmean, Tlv, Hom, Hol⟩
  ihave Hlab := (read_join (F := F) (labLoc d) _) $$ [Rlab Tlab]
  · isplitl [Rlab] <;> iassumption
  ihave Hmean := (read_join (F := F) (meanLoc d) _) $$ [Rmean Tmean]
  · isplitl [Rmean] <;> iassumption
  ihave Hlv := (read_join (F := F) (lvLoc d) _) $$ [Rlv Tlv]
  · isplitl [Rlv] <;> iassumption
  ihave Hom := (Entails.of_eq (om_rows (F := F) d _).symm) $$ Hom
  ihave Hol := (Entails.of_eq (ol_rows (F := F) d _).symm) $$ Hol
  imodintro
  isplitl [Hst]; · iexact Hst
  isplitl [Hlab]; · iexact Hlab
  isplitl [Hmean]; · iexact Hmean
  isplitl [Hlv]; · iexact Hlv
  isplitl [Hom]; · iexact Hom
  iexact Hol

def fq (d : Dev nD) (s' : Phys nD τ sig (Elt F)) : Prop :=
  s'.mem.mem (omLoc d) = Gm m d ∧ s'.mem.mem (olLoc d) = Gl m d
    ∧ s'.mem.mem (labLoc d) = m (labLoc d) ∧ s'.mem.mem (meanLoc d) = m (meanLoc d) ∧ s'.mem.mem (lvLoc d) = m (lvLoc d)

theorem hfin (d : Dev nD) (s' : Phys nD τ sig (Elt F)) : iprop(FIN m d ∗ SI s') ⊢ (⌜fq m d s'⌝ : sProp 𝕄) := by
  iintro ⟨⟨Hlab, Hmean, Hlv, Hom, Hol⟩, HSI⟩
  ihave H := (persistent_entails_right (SI_pointsTo_agree (st := s') (ℓ := labLoc d) (I := Finset.univ) (q := fullShare) (f := m (labLoc d)))) $$ [HSI Hlab]
  · isplitl [HSI] <;> iassumption
  icases H with ⟨%h1, HSI, -⟩
  ihave H := (persistent_entails_right (SI_pointsTo_agree (st := s') (ℓ := meanLoc d) (I := Finset.univ) (q := fullShare) (f := m (meanLoc d)))) $$ [HSI Hmean]
  · isplitl [HSI] <;> iassumption
  icases H with ⟨%h2, HSI, -⟩
  ihave H := (persistent_entails_right (SI_pointsTo_agree (st := s') (ℓ := lvLoc d) (I := Finset.univ) (q := fullShare) (f := m (lvLoc d)))) $$ [HSI Hlv]
  · isplitl [HSI] <;> iassumption
  icases H with ⟨%h3, HSI, -⟩
  ihave H := (persistent_entails_right (SI_pointsTo_agree (st := s') (ℓ := omLoc d) (I := Finset.univ) (q := fullShare) (f := Gm m d))) $$ [HSI Hom]
  · isplitl [HSI] <;> iassumption
  icases H with ⟨%h4, HSI, -⟩
  ihave H := (SI_pointsTo_agree (st := s') (ℓ := olLoc d) (I := Finset.univ) (q := fullShare) (f := Gl m d)) $$ [HSI Hol]
  · isplitl [HSI] <;> iassumption
  icases H with %h5
  ipureintro
  exact ⟨funext fun i => h4 i (Finset.mem_univ i), funext fun i => h5 i (Finset.mem_univ i), funext fun i => h1 i (Finset.mem_univ i),
    funext fun i => h2 i (Finset.mem_univ i), funext fun i => h3 i (Finset.mem_univ i)⟩

/-! ## The program's run -/

/-- Every device ends with the two results at the lookups and the three arguments unchanged. -/
def QC : PUnit × MemSt nD τ sig (Elt F) → Prop := fun r => ∀ c : Dev nD,
  r.2.mem (omLoc c) = Gm m c ∧ r.2.mem (olLoc c) = Gl m c
    ∧ r.2.mem (labLoc c) = m (labLoc c) ∧ r.2.mem (meanLoc c) = m (meanLoc c) ∧ r.2.mem (lvLoc c) = m (lvLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KernelRun

end
-- ==== Proof.KernelIdealRows.lean ====
/-
  One row of a chunk, as pure facts about arrays.

  A chunk scratch has 128 rows of 26 columns. Row r is filled by two stores of sixteen entries each: columns 0..15 and
  columns 10..25. Entry q of a store is the table read at (c0 + q, label (r, c0 + q)), c0 the store's first column, so
  both stores write, at column d, the table's row d at the column label (r, d) names; the overlap 10..15 is written twice
  with the same value. After row r every row up to r holds that function of its labels.
-/
import proofs.«200214_g45973329936461_cont_8to1_c_83_7_alg».proof.Proof.Spec
import proofs.«200214_g45973329936461_cont_8to1_c_83_7_alg».proof.Proof.Gen.KernelIdeal
import proofs.«200214_g45973329936461_cont_8to1_c_83_7_alg».proof.Proof.Gen.KernelIdeal.Skeleton
import Idealize.ShloMosaic.Lib.Writes
import Idealize.ShloMosaic.Lib.Pipeline.Value
import Idealize.ShloMosaic.Lib.ValueIdx

noncomputable section

namespace Cert.KernelIdealRows

open Cert.KernelIdeal Cert.KernelIdeal.Gen
open Idealize.ShloMosaic Idealize.ShloMosaic.ValueIdx

variable {F : FTy → Type}

/-- Entry (p, d) of a finished chunk: the table's row d at the column label (p, d) names. -/
def rowFn (lab : S128x26.Idx → BitVec 32) (tab : S26x1000.Idx → F .f32) : S128x26.Idx → F .f32 :=
  fun j => tab (ix2 (j 1) (Cert.Spec.col (lab j)))

/-- The sixteen entries one indexed load returns, laid out as a 1 x 16 block, are the finished chunk's entries at the
    block's place: row r, columns c0 .. c0 + 15. The lane index vector holds c0 + lane, the label vector the labels of
    row r at those columns. -/
theorem piece_eq (lab : S128x26.Idx → BitVec 32) (tab : S26x1000.Idx → F .f32) (hlab : ∀ j, (lab j).toNat < 1000)
    (r : ℕ) (hr : r < 128) (c0 : ℕ) (hc0 : c0 + 16 ≤ 26)
    (off : Fin 2 → ℕ) (inb : ∀ a, off a + S1x16.size a ≤ S128x26.size a) (h0 : off 0 = r) (h1 : off 1 = c0)
    (vi vl : IVec S16 32) (hvi : ∀ y : S16.Idx, (vi y).toNat = c0 + (y 0).val)
    (hvl : ∀ y : S16.Idx, vl y = lab (ix2 ⟨r, hr⟩ ⟨c0 + (y 0).val, by have := (y 0).isLt; simp at this; omega⟩))
    (h : ∀ a x, ((![vi, vl] : Fin 2 → IVec S16 32) a x).toNat < S26x1000.size a) (hc : S16.ShapeCasts S1x16) (x : S1x16.Idx) :
    shapeCast S1x16 (loadIdx (F := F) (e := .f32) tab ![vi, vl] h) hc x
      = rowFn lab tab ((Rect.unit (s := S128x26) off S1x16.size inb).emb x) := by
  have hx0 : (x 0).val = 0 := by have := (x 0).isLt; simp at this; omega
  have hx1 : (x 1).val < 16 := by have := (x 1).isLt; simpa using this
  rw [shapeCast_addUnit_apply (n := 1) (d := ![16])]
  unfold loadIdx rowFn
  congr 1
  have hE : (Rect.unit (s := S128x26) off S1x16.size inb).emb x = ix2 ⟨r, hr⟩ ⟨c0 + (x 1).val, by omega⟩ := by
    funext a; apply Fin.ext
    match a with
    | ⟨0, _⟩ => show off 0 + 1 * (x 0).val = r; rw [h0, hx0]; omega
    | ⟨1, _⟩ => show off 1 + 1 * (x 1).val = c0 + (x 1).val; rw [h1]; omega
  let y : S16.Idx := fun b => x b.succ
  funext a; apply Fin.ext
  match a with
  | ⟨0, _⟩ =>
    show (vi y).toNat = ((Rect.unit (s := S128x26) off S1x16.size inb).emb x 1).val
    refine (hvi y).trans ?_
    rw [hE]; rfl
  | ⟨1, _⟩ =>
    show (vl y).toNat = (Cert.Spec.col (lab ((Rect.unit (s := S128x26) off S1x16.size inb).emb x))).val
    rw [hE, Cert.Spec.col_val_of_lt (hlab _)]
    exact congrArg BitVec.toNat (hvl y)

/-! ## The lanes of the index vectors -/

/-- Lane y of the lane counter is y. -/
theorem iota_lane (h : S16.Iotas .scVector 32 [0]) (y : S16.Idx) : (iota .scVector S16 32 [0] h y).toNat = 0 + (y 0).val := by
  have hy : (y 0).val < 16 := by have := (y 0).isLt; simpa using this
  show (BitVec.ofNat 32 (0 * 16 + (y 0).val)).toNat = 0 + (y 0).val
  rw [BitVec.toNat_ofNat]; omega

/-- Lane y of the lane counter shifted by ten is 10 + y. -/
theorem pay1_lane (y : S16.Idx) : ((k0_pay1 : IVec S16 32) y).toNat = 10 + (y 0).val := by
  have hy : (y 0).val < 16 := by have := (y 0).isLt; simpa using this
  show (BitVec.ofNat 32 (0 * 16 + (y 0).val) + 10#32).toNat = 10 + (y 0).val
  rw [BitVec.toNat_add, BitVec.toNat_ofNat]
  show ((0 * 16 + (y 0).val) % 2 ^ 32 + 10) % 2 ^ 32 = 10 + (y 0).val
  omega

/-- Sixteen labels loaded from row r at columns c0 .. c0 + 15 and flattened: lane y is label (r, c0 + y). -/
theorem label_lane (lab : S128x26.Idx → BitVec 32) (r : ℕ) (hr : r < 128) (c0 : ℕ) (hc0 : c0 + 16 ≤ 26)
    (off : Fin 2 → ℕ) (inb : ∀ a, off a + S1x16.size a ≤ S128x26.size a) (h0 : off 0 = r) (h1 : off 1 = c0)
    (hc : S1x16.ShapeCasts S16) (y : S16.Idx) :
    shapeCast S16 (fun x : S1x16.Idx => lab ((Rect.unit (s := S128x26) off S1x16.size inb).toLoadRect.idx x)) hc y
      = lab (ix2 ⟨r, hr⟩ ⟨c0 + (y 0).val, by have := (y 0).isLt; simp at this; omega⟩) := by
  rw [shapeCast_dropUnit_apply (n := 1) (d := ![16])]
  congr 1
  funext a; apply Fin.ext
  match a with
  | ⟨0, _⟩ => show off 0 + 1 * 0 = r; rw [h0]; omega
  | ⟨1, _⟩ => show off 1 + 1 * (y 0).val = c0 + (y 0).val; rw [h1]; omega

/-- The side condition of an indexed load: rows below 26, columns below 1000. -/
theorem idx_inb (vi vl : IVec S16 32) (c0 : ℕ) (hc0 : c0 + 16 ≤ 26) (hvi : ∀ y : S16.Idx, (vi y).toNat = c0 + (y 0).val)
    (hvl : ∀ y : S16.Idx, (vl y).toNat < 1000) : ∀ a x, ((![vi, vl] : Fin 2 → IVec S16 32) a x).toNat < S26x1000.size a := by
  intro a x
  have hx : (x 0).val < 16 := by have := (x 0).isLt; simpa using this
  match a with
  | ⟨0, _⟩ => show (vi x).toNat < 26; rw [hvi]; omega
  | ⟨1, _⟩ => exact hvl x

/-! ## A row's two stores -/

/-- The elements of a 1 x 16 block placed at (r, c0). -/
theorem mem_rowRect (off : Fin 2 → ℕ) (inb : ∀ a, off a + S1x16.size a ≤ S128x26.size a) (r c0 : ℕ) (h0 : off 0 = r) (h1 : off 1 = c0)
    (j : S128x26.Idx) : j ∈ (Rect.unit (s := S128x26) off S1x16.size inb).set ↔ (j 0).val = r ∧ c0 ≤ (j 1).val ∧ (j 1).val < c0 + 16 := by
  rw [Rect.mem_set_unit, Fin.forall_fin_two]
  show (off 0 ≤ (j 0).val ∧ (j 0).val < off 0 + 1) ∧ (off 1 ≤ (j 1).val ∧ (j 1).val < off 1 + 16) ↔ _
  rw [h0, h1]; omega

/-- Rows below r of the chunk scratch hold the finished chunk's entries. -/
def RowsDone {sg : RefSig} {κ : Kind} {sp : Space} (v : View sg κ sp S128x26 .f32) (lab : S128x26.Idx → BitVec 32)
    (tab : S26x1000.Idx → F .f32) (r : ℕ) (f : v.ty.Contents (Elt F)) : Prop :=
  ∀ j : S128x26.Idx, (j 0).val < r → v.read (Elt F) f j = rowFn lab tab j

/-- Row r's two stores — columns 0..15, then columns 10..25, each the finished chunk's entries at its place — leave
    rows up to r finished: an entry of row r lies under one of the two blocks, an entry of an earlier row under neither. -/
theorem rowsDone_step {sg : RefSig} {κ : Kind} {sp : Space} (v : View sg κ sp S128x26 .f32) (lab : S128x26.Idx → BitVec 32)
    (tab : S26x1000.Idx → F .f32) (r : ℕ) (f : v.ty.Contents (Elt F)) (hf : RowsDone v lab tab r f)
    (pLo pHi : View.Piece (Elt F) S128x26 .f32)
    (hLo : ∀ x, pLo.2 x = rowFn lab tab (pLo.1.emb x)) (hHi : ∀ x, pHi.2 x = rowFn lab tab (pHi.1.emb x))
    (sLo : ∀ j, j ∈ pLo.1.set ↔ (j 0).val = r ∧ 0 ≤ (j 1).val ∧ (j 1).val < 0 + 16)
    (sHi : ∀ j, j ∈ pHi.1.set ↔ (j 0).val = r ∧ 10 ≤ (j 1).val ∧ (j 1).val < 10 + 16) :
    RowsDone v lab tab (r + 1) (v.writes (Elt F) f [pHi, pLo]) := by
  intro j hj
  have hj1 : (j 1).val < 26 := by have := (j 1).isLt; simpa using this
  by_cases hjr : (j 0).val = r
  · refine View.read_writes_apply_of_pieces v f (rowFn lab tab) [pHi, pLo] ?_ j ?_
    · intro p hp x
      simp only [List.mem_cons, List.not_mem_nil, or_false] at hp
      rcases hp with rfl | rfl
      · exact hHi x
      · exact hLo x
    · by_cases h16 : (j 1).val < 16
      · exact ⟨pLo, by simp, (sLo j).2 ⟨hjr, by omega, by omega⟩⟩
      · exact ⟨pHi, by simp, (sHi j).2 ⟨hjr, by omega, by omega⟩⟩
  · rw [View.read_writes_apply_of_forall_not_mem v f j [pHi, pLo] ?_]
    · exact hf j (by omega)
    · intro p hp
      simp only [List.mem_cons, List.not_mem_nil, or_false] at hp
      rcases hp with rfl | rfl
      · exact fun h => hjr ((sHi j).1 h).1
      · exact fun h => hjr ((sLo j).1 h).1

end Cert.KernelIdealRows

end
-- ==== Proof.KernelIdealRun.lean ====
/-
  The idealized kernel's run, for every float instance.

  Thirty-two vector subcores (two cores of sixteen) each take 512 consecutive rows of the batch. A subcore first copies
  both tables whole into its own memory; then, for each of its four chunks of 128 rows, it copies the chunk's labels in,
  and row by row reads sixteen table entries at once for columns 0..15 and again for columns 10..25 (the two windows
  overlap on columns 10..15 and agree there), storing them into a chunk-sized scratch that is finally copied out to the
  chunk's rows of the result. Entry (b, d) of each result is therefore the table's row d at column label (b, d).
-/
import proofs.«200214_g45973329936461_cont_8to1_c_83_7_alg».proof.Defs
import proofs.«200214_g45973329936461_cont_8to1_c_83_7_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«200214_g45973329936461_cont_8to1_c_83_7_alg».proof.Proof.Gen.KernelIdeal
import proofs.«200214_g45973329936461_cont_8to1_c_83_7_alg».proof.Proof.Gen.KernelIdeal.Skeleton
import proofs.«200214_g45973329936461_cont_8to1_c_83_7_alg».proof.Proof.KernelIdealRows

noncomputable section

namespace Cert.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

local notation "labW" => (Memref.whole Cert.KernelIdeal.main_arg0_scv : Memref Cert.KernelIdeal.sig Kind.scVector Space.hbm Cert.KernelIdeal.S16384x26 EltTy.i32)
local notation "meanW" => (Memref.whole Cert.KernelIdeal.main_arg1_scv : Memref Cert.KernelIdeal.sig Kind.scVector Space.hbm Cert.KernelIdeal.S26x1000 EltTy.f32)
local notation "lvW" => (Memref.whole Cert.KernelIdeal.main_arg2_scv : Memref Cert.KernelIdeal.sig Kind.scVector Space.hbm Cert.KernelIdeal.S26x1000 EltTy.f32)
local notation "omW" => (Memref.whole Cert.KernelIdeal.main_v0_0_scv : Memref Cert.KernelIdeal.sig Kind.scVector Space.hbm Cert.KernelIdeal.S16384x26 EltTy.f32)
local notation "olW" => (Memref.whole Cert.KernelIdeal.main_v0_1_scv : Memref Cert.KernelIdeal.sig Kind.scVector Space.hbm Cert.KernelIdeal.S16384x26 EltTy.f32)
local notation "labS" => (Memref.whole Cert.KernelIdeal.cc0_scratch0 : Memref Cert.KernelIdeal.sig Kind.scVector Space.vmem Cert.KernelIdeal.S128x26 EltTy.i32)
local notation "meanS" => (Memref.whole Cert.KernelIdeal.cc0_scratch1 : Memref Cert.KernelIdeal.sig Kind.scVector Space.vmem Cert.KernelIdeal.S26x1000 EltTy.f32)
local notation "lvS" => (Memref.whole Cert.KernelIdeal.cc0_scratch2 : Memref Cert.KernelIdeal.sig Kind.scVector Space.vmem Cert.KernelIdeal.S26x1000 EltTy.f32)
local notation "omS" => (Memref.whole Cert.KernelIdeal.cc0_scratch3 : Memref Cert.KernelIdeal.sig Kind.scVector Space.vmem Cert.KernelIdeal.S128x26 EltTy.f32)
local notation "olS" => (Memref.whole Cert.KernelIdeal.cc0_scratch4 : Memref Cert.KernelIdeal.sig Kind.scVector Space.vmem Cert.KernelIdeal.S128x26 EltTy.f32)

abbrev labLoc (d : Dev nD) : Loc nD τ sig := (SparseCore.T d).loc main_arg0
abbrev meanLoc (d : Dev nD) : Loc nD τ sig := (SparseCore.T d).loc main_arg1
abbrev lvLoc (d : Dev nD) : Loc nD τ sig := (SparseCore.T d).loc main_arg2
abbrev omLoc (d : Dev nD) : Loc nD τ sig := (SparseCore.T d).loc main_v0_0
abbrev olLoc (d : Dev nD) : Loc nD τ sig := (SparseCore.T d).loc main_v0_1

variable [FloatOps F]

/-! ## A subcore's task -/

/-- What the proof asks of the launch memory: every label is a word below 1000. -/
def PreOK : Prop := ∀ (d : Dev nD) (j : S16384x26.Idx), (m (labLoc d) j).toNat < 1000

omit [FloatOps F] in
theorem pts_eq {ℓ : Loc nD τ sig} {I : Finset (Idx ℓ)} {q : PosShare TreeShare} {f g : Buf (Elt F) ℓ} (h : f = g) :
    (ℓ ↦[I]{q} f : sProp 𝕄) ⊢ ℓ ↦[I]{q} g := by subst h; exact .rfl

/-- The rows lo ≤ b < hi of a batch-shaped array. -/
def rowsIn (lo hi : ℕ) : Finset S16384x26.Idx := Finset.univ.filter fun j => lo ≤ (j 0).val ∧ (j 0).val < hi

theorem mem_rowsIn {lo hi : ℕ} {j : S16384x26.Idx} : j ∈ rowsIn lo hi ↔ lo ≤ (j 0).val ∧ (j 0).val < hi := by
  unfold rowsIn; rw [Finset.mem_filter]; exact ⟨fun h => h.2, fun h => ⟨Finset.mem_univ _, h⟩⟩

theorem rowsIn_union {a b c : ℕ} (hab : a ≤ b) (hbc : b ≤ c) : rowsIn a c = rowsIn a b ∪ rowsIn b c := by
  ext j; rw [Finset.mem_union, mem_rowsIn, mem_rowsIn, mem_rowsIn]; omega

theorem rowsIn_disjoint (a b c : ℕ) : Disjoint (rowsIn a b) (rowsIn b c) :=
  Finset.disjoint_left.mpr fun j h1 h2 => by rw [mem_rowsIn] at h1 h2; omega

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The first row of the 512 rows subcore (L 0, L 1) works on. -/
def base (L : grid0.Coords) : ℕ := 8192 * (L 0).val + 512 * (L 1).val

abbrev labChunk (L : grid0.Coords) (k : Fin k0_t1_loop.trips) : Memref sig .scVector .hbm S128x26 .i32 :=
  (labW).slice (Rect.unit (s := S16384x26) (k0_off1 L k) S128x26.size (k0_off1_inb L k)) (fun _ => rfl)
abbrev omChunk (L : grid0.Coords) (k : Fin k0_t1_loop.trips) : Memref sig .scVector .hbm S128x26 .f32 :=
  (omW).slice (Rect.unit (s := S16384x26) (k0_off7 L k) S128x26.size (k0_off7_inb L k)) (fun _ => rfl)
abbrev olChunk (L : grid0.Coords) (k : Fin k0_t1_loop.trips) : Memref sig .scVector .hbm S128x26 .f32 :=
  (olW).slice (Rect.unit (s := S16384x26) (k0_off7 L k) S128x26.size (k0_off7_inb L k)) (fun _ => rfl)

/-- What the subcore's copies of the tables hold: the tables. -/
def meanT : Buf (Elt F) ((thr d L).loc cc0_scratch1) := m (meanLoc d)
def lvT : Buf (Elt F) ((thr d L).loc cc0_scratch2) := m (lvLoc d)
/-- What the label scratch holds during chunk k: that chunk's rows of the labels. -/
def labT (k : Fin k0_t1_loop.trips) : Buf (Elt F) ((thr d L).loc cc0_scratch0) := (labChunk L k).view.read (Elt F) (m (labLoc d))
/-- The two results. -/
def Gm (d : Dev nD) : Buf (Elt F) (omLoc d) := Cert.Spec.lookup (m (labLoc d)) (m (meanLoc d))
def Gl (d : Dev nD) : Buf (Elt F) (olLoc d) := Cert.Spec.lookup (m (labLoc d)) (m (lvLoc d))

omit [FloatOps F] in
theorem trips1 : k0_t1_loop.trips = 4 := by decide
omit [FloatOps F] in
theorem trips2 : k0_t2_loop.trips = 128 := by decide

omit [FloatOps F] in
/-- Chunk k of the subcore's rows, as the elements the chunk's slice of a result names. -/
theorem set_omChunk (k : Fin k0_t1_loop.trips) : (omChunk L k).view.set = rowsIn (base L + 128 * k.val) (base L + 128 * k.val + 128) := by
  show ((View.whole main_v0_0_scv).slice (Rect.unit (s := S16384x26) (k0_off7 L k) S128x26.size (k0_off7_inb L k))).set = _
  rw [View.set_slice_whole]
  ext j
  rw [Rect.mem_set_unit, mem_rowsIn]
  have hj1 : (j 1).val < 26 := (j 1).isLt
  have e0 : k0_off7 L k 0 = base L + 128 * k.val := by rw [k0_off7_eq]; rfl
  have e1 : k0_off7 L k 1 = 0 := by rw [k0_off7_eq]; rfl
  constructor
  · intro h
    have h0 : k0_off7 L k 0 ≤ (j 0).val ∧ (j 0).val < k0_off7 L k 0 + 128 := h (0 : Fin 2)
    rwa [e0] at h0
  · intro h a
    match a with
    | ⟨0, _⟩ => show k0_off7 L k 0 ≤ (j 0).val ∧ (j 0).val < k0_off7 L k 0 + 128; rw [e0]; exact h
    | ⟨1, _⟩ => show k0_off7 L k 1 ≤ (j 1).val ∧ (j 1).val < k0_off7 L k 1 + 26; rw [e1]; exact ⟨Nat.zero_le _, by omega⟩
omit [FloatOps F] in
theorem set_olChunk (k : Fin k0_t1_loop.trips) : (olChunk L k).view.set = rowsIn (base L + 128 * k.val) (base L + 128 * k.val + 128) := by
  show ((View.whole main_v0_1_scv).slice (Rect.unit (s := S16384x26) (k0_off7 L k) S128x26.size (k0_off7_inb L k))).set = _
  rw [View.set_slice_whole]
  ext j
  rw [Rect.mem_set_unit, mem_rowsIn]
  have hj1 : (j 1).val < 26 := (j 1).isLt
  have e0 : k0_off7 L k 0 = base L + 128 * k.val := by rw [k0_off7_eq]; rfl
  have e1 : k0_off7 L k 1 = 0 := by rw [k0_off7_eq]; rfl
  constructor
  · intro h
    have h0 : k0_off7 L k 0 ≤ (j 0).val ∧ (j 0).val < k0_off7 L k 0 + 128 := h (0 : Fin 2)
    rwa [e0] at h0
  · intro h a
    match a with
    | ⟨0, _⟩ => show k0_off7 L k 0 ≤ (j 0).val ∧ (j 0).val < k0_off7 L k 0 + 128; rw [e0]; exact h
    | ⟨1, _⟩ => show k0_off7 L k 1 ≤ (j 1).val ∧ (j 1).val < k0_off7 L k 1 + 26; rw [e1]; exact ⟨Nat.zero_le _, by omega⟩

omit [FloatOps F] in
/-- The rows not yet written: chunk k, as its slice names it, and the rows after it. -/
theorem carve_om (k : Fin k0_t1_loop.trips) (f : Buf (Elt F) (omLoc d)) :
    (omLoc d ↦[rowsIn (base L + 128 * k.val) (base L + 512)]{fullShare} f : sProp 𝕄)
      ⊢ iprop(((omChunk L k).view.loc (thr d L) ↦[(omChunk L k).view.set]{fullShare} f) ∗ omLoc d ↦[rowsIn (base L + 128 * (k.val + 1)) (base L + 512)]{fullShare} f) := by
  have hk : k.val < 4 := trips1 ▸ k.isLt
  rw [set_omChunk, rowsIn_union (b := base L + 128 * k.val + 128) (by omega) (by omega), show base L + 128 * (k.val + 1) = base L + 128 * k.val + 128 by omega]
  exact (pointsTo_union (rowsIn_disjoint _ _ _)).1
omit [FloatOps F] in
theorem carve_ol (k : Fin k0_t1_loop.trips) (f : Buf (Elt F) (olLoc d)) :
    (olLoc d ↦[rowsIn (base L + 128 * k.val) (base L + 512)]{fullShare} f : sProp 𝕄)
      ⊢ iprop(((olChunk L k).view.loc (thr d L) ↦[(olChunk L k).view.set]{fullShare} f) ∗ olLoc d ↦[rowsIn (base L + 128 * (k.val + 1)) (base L + 512)]{fullShare} f) := by
  have hk : k.val < 4 := trips1 ▸ k.isLt
  rw [set_olChunk, rowsIn_union (b := base L + 128 * k.val + 128) (by omega) (by omega), show base L + 128 * (k.val + 1) = base L + 128 * k.val + 128 by omega]
  exact (pointsTo_union (rowsIn_disjoint _ _ _)).1
omit [FloatOps F] in
/-- The rows already written, and chunk k written: the rows written after chunk k. -/
theorem uncarve_om (k : Fin k0_t1_loop.trips) (f : Buf (Elt F) (omLoc d)) :
    iprop((omLoc d ↦[rowsIn (base L) (base L + 128 * k.val)]{fullShare} f) ∗ ((omChunk L k).view.loc (thr d L) ↦[(omChunk L k).view.set]{fullShare} f))
      ⊢ (omLoc d ↦[rowsIn (base L) (base L + 128 * (k.val + 1))]{fullShare} f : sProp 𝕄) := by
  rw [set_omChunk, rowsIn_union (a := base L) (b := base L + 128 * k.val) (c := base L + 128 * (k.val + 1)) (by omega) (by omega),
    show base L + 128 * (k.val + 1) = base L + 128 * k.val + 128 by omega]
  exact (pointsTo_union (rowsIn_disjoint _ _ _)).2
omit [FloatOps F] in
theorem uncarve_ol (k : Fin k0_t1_loop.trips) (f : Buf (Elt F) (olLoc d)) :
    iprop((olLoc d ↦[rowsIn (base L) (base L + 128 * k.val)]{fullShare} f) ∗ ((olChunk L k).view.loc (thr d L) ↦[(olChunk L k).view.set]{fullShare} f))
      ⊢ (olLoc d ↦[rowsIn (base L) (base L + 128 * (k.val + 1))]{fullShare} f : sProp 𝕄) := by
  rw [set_olChunk, rowsIn_union (a := base L) (b := base L + 128 * k.val) (c := base L + 128 * (k.val + 1)) (by omega) (by omega),
    show base L + 128 * (k.val + 1) = base L + 128 * k.val + 128 by omega]
  exact (pointsTo_union (rowsIn_disjoint _ _ _)).2

/-- The loop over chunks: tables copied, the label and result scratches at any contents, the three semaphores at zero,
    the subcore's rows of each result written up to chunk k and untouched from chunk k on. -/
def inv (q : PosShare TreeShare) (O : CellTallies nD τ sig (HIx 1)) (W : Waits sig (HIx 1)) (k : Nat) (_ : PUnit) : sProp 𝕄 :=
  iprop(Transfers.MayWaits (thr d L) (none : HIx 1) O
    ∗ ((labW).view.loc (thr d L) ↦{q} m (labLoc d))
    ∗ (∃ fl, (labS).view.loc (thr d L) ↦{fullShare} fl)
    ∗ ((meanS).view.loc (thr d L) ↦{fullShare} meanT m d L) ∗ ((lvS).view.loc (thr d L) ↦{fullShare} lvT m d L)
    ∗ (∃ f3, (omS).view.loc (thr d L) ↦{fullShare} f3) ∗ (∃ f4, (olS).view.loc (thr d L) ↦{fullShare} f4)
    ∗ semVal (thr d L, SemLoc.dma cc0_scoped2.sem) 0 ∗ semVal (thr d L, SemLoc.dma cc0_scoped3.sem) 0 ∗ semVal (thr d L, SemLoc.dma cc0_scoped4.sem) 0
    ∗ (omLoc d ↦[rowsIn (base L) (base L + 128 * k)]{fullShare} Gm m d) ∗ (omLoc d ↦[rowsIn (base L + 128 * k) (base L + 512)]{fullShare} m (omLoc d))
    ∗ (olLoc d ↦[rowsIn (base L) (base L + 128 * k)]{fullShare} Gl m d) ∗ (olLoc d ↦[rowsIn (base L + 128 * k) (base L + 512)]{fullShare} m (olLoc d))
    ∗ ∃ W', ⌜∀ p ∈ W', p ∈ W ∨ p.2 = none⌝ ∗ owes (thr d L) O W')

omit [FloatOps F] in
/-- The five scratch buffers are among the subcore's own: they are them, each at some contents, and the rest. -/
theorem ownBufs_V :
    (ownBufs (thr d L) : sProp 𝕄)
      = iprop(((∃ f, (thr d L).loc cc0_scratch0 ↦{fullShare} f) ∗ (∃ f, (thr d L).loc cc0_scratch1 ↦{fullShare} f) ∗ (∃ f, (thr d L).loc cc0_scratch2 ↦{fullShare} f)
          ∗ (∃ f, (thr d L).loc cc0_scratch3 ↦{fullShare} f) ∗ (∃ f, (thr d L).loc cc0_scratch4 ↦{fullShare} f))
          ∗ bigSep (ownRefs (τ := τ) (.scVector (cV L) (jV L)) \ {((Proc.scVector (cV L) (jV L)).devRef cc0_scratch0), ((Proc.scVector (cV L) (jV L)).devRef cc0_scratch1), ((Proc.scVector (cV L) (jV L)).devRef cc0_scratch2), ((Proc.scVector (cV L) (jV L)).devRef cc0_scratch3), ((Proc.scVector (cV L) (jV L)).devRef cc0_scratch4)})
              fun b => iprop(∃ f, ((d, b) : Loc nD τ sig) ↦{fullShare} f)) := by
  unfold SparseCore.Cfg.ownBufs
  rw [SparseCore.bigSep_sdiff_split' (t := {((Proc.scVector (cV L) (jV L)).devRef cc0_scratch0), ((Proc.scVector (cV L) (jV L)).devRef cc0_scratch1), ((Proc.scVector (cV L) (jV L)).devRef cc0_scratch2), ((Proc.scVector (cV L) (jV L)).devRef cc0_scratch3), ((Proc.scVector (cV L) (jV L)).devRef cc0_scratch4)}) (s := ownRefs (τ := τ) (.scVector (cV L) (jV L))) ?hsub,
    SparseCore.bigSep_insert' (by simp only [Finset.mem_insert, Finset.mem_singleton, not_or]; exact ⟨(fun e => absurd (Proc.devRef_injective _ e) (show (cc0_scratch0 : Ref sig .scVector) ≠ cc0_scratch1 by decide)), (fun e => absurd (Proc.devRef_injective _ e) (show (cc0_scratch0 : Ref sig .scVector) ≠ cc0_scratch2 by decide)), (fun e => absurd (Proc.devRef_injective _ e) (show (cc0_scratch0 : Ref sig .scVector) ≠ cc0_scratch3 by decide)), (fun e => absurd (Proc.devRef_injective _ e) (show (cc0_scratch0 : Ref sig .scVector) ≠ cc0_scratch4 by decide))⟩), SparseCore.bigSep_insert' (by simp only [Finset.mem_insert, Finset.mem_singleton, not_or]; exact ⟨(fun e => absurd (Proc.devRef_injective _ e) (show (cc0_scratch1 : Ref sig .scVector) ≠ cc0_scratch2 by decide)), (fun e => absurd (Proc.devRef_injective _ e) (show (cc0_scratch1 : Ref sig .scVector) ≠ cc0_scratch3 by decide)), (fun e => absurd (Proc.devRef_injective _ e) (show (cc0_scratch1 : Ref sig .scVector) ≠ cc0_scratch4 by decide))⟩), SparseCore.bigSep_insert' (by simp only [Finset.mem_insert, Finset.mem_singleton, not_or]; exact ⟨(fun e => absurd (Proc.devRef_injective _ e) (show (cc0_scratch2 : Ref sig .scVector) ≠ cc0_scratch3 by decide)), (fun e => absurd (Proc.devRef_injective _ e) (show (cc0_scratch2 : Ref sig .scVector) ≠ cc0_scratch4 by decide))⟩),
    SparseCore.bigSep_insert' (by rw [Finset.mem_singleton]; exact (fun e => absurd (Proc.devRef_injective _ e) (show (cc0_scratch3 : Ref sig .scVector) ≠ cc0_scratch4 by decide))), bigSep_singleton]
  case hsub =>
    intro b hb
    simp only [Finset.mem_insert, Finset.mem_singleton] at hb
    rcases hb with rfl | rfl | rfl | rfl | rfl <;> exact SparseCore.Cfg.mem_ownRefs_of_owner (p := Proc.scVector (cV L) (jV L)) rfl

omit [FloatOps F] in
/-- The five transfer semaphores are among the subcore's own: they are them, at zero, and the rest. -/
theorem ownSems0_V :
    (ownSems0 (thr d L) : sProp 𝕄)
      = iprop((semVal ((thr d L, SemLoc.dma cc0_scoped0.sem) : GSem nD τ sig) 0 ∗ semVal ((thr d L, SemLoc.dma cc0_scoped1.sem) : GSem nD τ sig) 0 ∗ semVal ((thr d L, SemLoc.dma cc0_scoped2.sem) : GSem nD τ sig) 0 ∗ semVal ((thr d L, SemLoc.dma cc0_scoped3.sem) : GSem nD τ sig) 0 ∗ semVal ((thr d L, SemLoc.dma cc0_scoped4.sem) : GSem nD τ sig) 0)
          ∗ bigSep (ownCells (thr d L) \ {((thr d L, SemLoc.dma cc0_scoped0.sem) : GSem nD τ sig), ((thr d L, SemLoc.dma cc0_scoped1.sem) : GSem nD τ sig), ((thr d L, SemLoc.dma cc0_scoped2.sem) : GSem nD τ sig), ((thr d L, SemLoc.dma cc0_scoped3.sem) : GSem nD τ sig), ((thr d L, SemLoc.dma cc0_scoped4.sem) : GSem nD τ sig)}) fun g => semVal g 0) := by
  unfold SparseCore.Cfg.ownSems0
  rw [SparseCore.bigSep_sdiff_split' (t := {((thr d L, SemLoc.dma cc0_scoped0.sem) : GSem nD τ sig), ((thr d L, SemLoc.dma cc0_scoped1.sem) : GSem nD τ sig), ((thr d L, SemLoc.dma cc0_scoped2.sem) : GSem nD τ sig), ((thr d L, SemLoc.dma cc0_scoped3.sem) : GSem nD τ sig), ((thr d L, SemLoc.dma cc0_scoped4.sem) : GSem nD τ sig)}) (s := ownCells (thr d L)) ?hsub,
    SparseCore.bigSep_insert' (by simp only [Finset.mem_insert, Finset.mem_singleton, not_or]; exact ⟨(fun e => absurd (congrArg Prod.snd e) (show (SemLoc.dma cc0_scoped0.sem : SemLoc sig) ≠ SemLoc.dma cc0_scoped1.sem by decide)), (fun e => absurd (congrArg Prod.snd e) (show (SemLoc.dma cc0_scoped0.sem : SemLoc sig) ≠ SemLoc.dma cc0_scoped2.sem by decide)), (fun e => absurd (congrArg Prod.snd e) (show (SemLoc.dma cc0_scoped0.sem : SemLoc sig) ≠ SemLoc.dma cc0_scoped3.sem by decide)), (fun e => absurd (congrArg Prod.snd e) (show (SemLoc.dma cc0_scoped0.sem : SemLoc sig) ≠ SemLoc.dma cc0_scoped4.sem by decide))⟩), SparseCore.bigSep_insert' (by simp only [Finset.mem_insert, Finset.mem_singleton, not_or]; exact ⟨(fun e => absurd (congrArg Prod.snd e) (show (SemLoc.dma cc0_scoped1.sem : SemLoc sig) ≠ SemLoc.dma cc0_scoped2.sem by decide)), (fun e => absurd (congrArg Prod.snd e) (show (SemLoc.dma cc0_scoped1.sem : SemLoc sig) ≠ SemLoc.dma cc0_scoped3.sem by decide)), (fun e => absurd (congrArg Prod.snd e) (show (SemLoc.dma cc0_scoped1.sem : SemLoc sig) ≠ SemLoc.dma cc0_scoped4.sem by decide))⟩), SparseCore.bigSep_insert' (by simp only [Finset.mem_insert, Finset.mem_singleton, not_or]; exact ⟨(fun e => absurd (congrArg Prod.snd e) (show (SemLoc.dma cc0_scoped2.sem : SemLoc sig) ≠ SemLoc.dma cc0_scoped3.sem by decide)), (fun e => absurd (congrArg Prod.snd e) (show (SemLoc.dma cc0_scoped2.sem : SemLoc sig) ≠ SemLoc.dma cc0_scoped4.sem by decide))⟩),
    SparseCore.bigSep_insert' (by rw [Finset.mem_singleton]; exact (fun e => absurd (congrArg Prod.snd e) (show (SemLoc.dma cc0_scoped3.sem : SemLoc sig) ≠ SemLoc.dma cc0_scoped4.sem by decide))), bigSep_singleton]
  case hsub =>
    intro g hg
    simp only [Finset.mem_insert, Finset.mem_singleton] at hg
    rcases hg with rfl | rfl | rfl | rfl | rfl
    · exact (mem_ownCells).mpr ⟨rfl, by show (SemLoc.dma cc0_scoped0.sem : SemLoc sig).isScoped .scVector = true; decide⟩
    · exact (mem_ownCells).mpr ⟨rfl, by show (SemLoc.dma cc0_scoped1.sem : SemLoc sig).isScoped .scVector = true; decide⟩
    · exact (mem_ownCells).mpr ⟨rfl, by show (SemLoc.dma cc0_scoped2.sem : SemLoc sig).isScoped .scVector = true; decide⟩
    · exact (mem_ownCells).mpr ⟨rfl, by show (SemLoc.dma cc0_scoped3.sem : SemLoc sig).isScoped .scVector = true; decide⟩
    · exact (mem_ownCells).mpr ⟨rfl, by show (SemLoc.dma cc0_scoped4.sem : SemLoc sig).isScoped .scVector = true; decide⟩

omit [FloatOps F] in
theorem pts_meanS_access (f : Buf (Elt F) ((thr d L).loc cc0_scratch1)) :
    ((((meanS).access (.whole S26x1000)).loc (thr d L) ↦{fullShare} f : sProp 𝕄)) = ((meanS).view.loc (thr d L) ↦{fullShare} f) := rfl
omit [FloatOps F] in
theorem pts_lvS_access (f : Buf (Elt F) ((thr d L).loc cc0_scratch2)) :
    ((((lvS).access (.whole S26x1000)).loc (thr d L) ↦{fullShare} f : sProp 𝕄)) = ((lvS).view.loc (thr d L) ↦{fullShare} f) := rfl

omit [FloatOps F] in
/-- Read through its whole rectangle, a table scratch is its contents. -/
theorem read_access_mean (f : Buf (Elt F) ((thr d L).loc cc0_scratch1)) :
    View.read (Elt F) ((meanS).access (Rect.whole cc0_scratch1.ty.shape)) f = f := by
  funext x
  refine ((View.read_apply _ _).trans (cast_eq _ _)).trans (congrArg f ?_)
  funext a; apply Fin.ext; show 0 + 1 * (x a).val = (x a).val; omega
omit [FloatOps F] in
theorem read_access_lv (f : Buf (Elt F) ((thr d L).loc cc0_scratch2)) :
    View.read (Elt F) ((lvS).access (Rect.whole cc0_scratch2.ty.shape)) f = f := by
  funext x
  refine ((View.read_apply _ _).trans (cast_eq _ _)).trans (congrArg f ?_)
  funext a; apply Fin.ext; show 0 + 1 * (x a).val = (x a).val; omega

omit [FloatOps F] in
/-- The label scratch during chunk k, at an index: the label of the chunk's row. -/
theorem labT_apply (k : Fin k0_t1_loop.trips) (y : S128x26.Idx) : labT m d L k y = m (labLoc d) ((labChunk L k).view.emb y) :=
  (View.read_apply _ _).trans (cast_eq _ _)
omit [FloatOps F] in
theorem labT_lt (hpre : PreOK m) (k : Fin k0_t1_loop.trips) (y : S128x26.Idx) : (labT m d L k y).toNat < 1000 := by
  rw [labT_apply]; exact hpre d _

open Cert.KernelIdealRows in
/-- The side conditions the body assumes of a row's labels hold: lanes name rows of the table, labels its columns. -/
theorem chk1_ok (lab : Buf (Elt F) ((thr d L).loc cc0_scratch0)) (hlab : ∀ y : S128x26.Idx, (lab y).toNat < 1000) (v3 : IVec S16 32)
    (hv3 : ∀ y : S16.Idx, (v3 y).toNat = 0 + (y 0).val) (r : Fin k0_t2_loop.trips) :
    k0_chk1 v3 (shapeCast S16 ((labS).view.readAt (Elt F) (Rect.unit (s := S128x26) (k0_off2 r) S1x16.size (k0_off2_inb r)).toLoadRect lab) shapeCasts_S1x16_S16) := by
  have hr : r.val < 128 := trips2 ▸ r.isLt
  have hl : ∀ y : S16.Idx, (shapeCast S16 ((labS).view.readAt (Elt F) (Rect.unit (s := S128x26) (k0_off2 r) S1x16.size (k0_off2_inb r)).toLoadRect lab) shapeCasts_S1x16_S16 y).toNat < 1000 := by
    intro y
    rw [show shapeCast S16 ((labS).view.readAt (Elt F) (Rect.unit (s := S128x26) (k0_off2 r) S1x16.size (k0_off2_inb r)).toLoadRect lab) shapeCasts_S1x16_S16 y = _ from
      label_lane lab r.val hr 0 (by omega) (k0_off2 r) (k0_off2_inb r) (by rw [k0_off2_eq]; rfl) (by rw [k0_off2_eq]; rfl) shapeCasts_S1x16_S16 y]
    exact hlab _
  exact ⟨idx_inb v3 _ 0 (by omega) hv3 hl, idx_inb v3 _ 0 (by omega) hv3 hl⟩
open Cert.KernelIdealRows in
theorem chk2_ok (lab : Buf (Elt F) ((thr d L).loc cc0_scratch0)) (hlab : ∀ y : S128x26.Idx, (lab y).toNat < 1000) (v5 : IVec S16 32)
    (hv5 : ∀ y : S16.Idx, (v5 y).toNat = 10 + (y 0).val) (r : Fin k0_t2_loop.trips) :
    k0_chk2 v5 (shapeCast S16 ((labS).view.readAt (Elt F) (Rect.unit (s := S128x26) (k0_off3 r) S1x16.size (k0_off3_inb r)).toLoadRect lab) shapeCasts_S1x16_S16) := by
  have hr : r.val < 128 := trips2 ▸ r.isLt
  have hl : ∀ y : S16.Idx, (shapeCast S16 ((labS).view.readAt (Elt F) (Rect.unit (s := S128x26) (k0_off3 r) S1x16.size (k0_off3_inb r)).toLoadRect lab) shapeCasts_S1x16_S16 y).toNat < 1000 := by
    intro y
    rw [show shapeCast S16 ((labS).view.readAt (Elt F) (Rect.unit (s := S128x26) (k0_off3 r) S1x16.size (k0_off3_inb r)).toLoadRect lab) shapeCasts_S1x16_S16 y = _ from
      label_lane lab r.val hr 10 (by omega) (k0_off3 r) (k0_off3_inb r) (by rw [k0_off3_eq]; rfl) (by rw [k0_off3_eq]; rfl) shapeCasts_S1x16_S16 y]
    exact hlab _
  exact ⟨idx_inb v5 _ 10 (by omega) hv5 hl, idx_inb v5 _ 10 (by omega) hv5 hl⟩

open Cert.KernelIdealRows in
/-- The loop over a chunk's rows: labels and tables fixed, the two result scratches finished up to row r. -/
def innerInv (k : Fin k0_t1_loop.trips) (r : Nat) (_ : PUnit) : sProp 𝕄 :=
  iprop(((labS).view.loc (thr d L) ↦{fullShare} labT m d L k) ∗ ((meanS).view.loc (thr d L) ↦{fullShare} meanT m d L) ∗ ((lvS).view.loc (thr d L) ↦{fullShare} lvT m d L)
    ∗ (∃ f3, ⌜RowsDone (F := F) (omS).view (labT m d L k) (meanT m d L) r f3⌝ ∗ (omS).view.loc (thr d L) ↦{fullShare} f3)
    ∗ (∃ f4, ⌜RowsDone (F := F) (olS).view (labT m d L k) (lvT m d L) r f4⌝ ∗ (olS).view.loc (thr d L) ↦{fullShare} f4))

open Cert.KernelIdealRows in
/-- One row: the two label loads, their checks, four indexed loads and four stores. -/
theorem row_trip (hpre : PreOK m) (k : Fin k0_t1_loop.trips) (v3 v5 : IVec S16 32)
    (hv3 : ∀ y : S16.Idx, (v3 y).toNat = 0 + (y 0).val) (hv5 : ∀ y : S16.Idx, (v5 y).toNat = 10 + (y 0).val) (r : Fin k0_t2_loop.trips) :
    innerInv m d L k r.val ⟨⟩
      ⊢ wp frame (wpE (defs₀ (F := F)) 𝒱₀ (thr d L) none) Set.univ
          (k0_t2_body L labW (Memref.isWhole_whole _) meanW (Memref.isWhole_whole _) lvW (Memref.isWhole_whole _) omW (Memref.isWhole_whole _) olW (Memref.isWhole_whole _)
            labS (Memref.isWhole_whole _) meanS (Memref.isWhole_whole _) lvS (Memref.isWhole_whole _) omS (Memref.isWhole_whole _) olS (Memref.isWhole_whole _)
            cc0_scoped0 cc0_scoped1 cc0_scoped2 cc0_scoped3 cc0_scoped4 v3 v5 r ()) (fun _ => innerInv m d L k (r.val + 1) ⟨⟩) := by
  have hr : r.val < 128 := trips2 ▸ r.isLt
  have hlabT := labT_lt m d L hpre k
  unfold k0_t2_body innerInv
  iintro ⟨Hl, Hm, Hv, ⟨%f3, %hf3, H3⟩, ⟨%f4, %hf4, H4⟩⟩
  sl_exec (disch := first | exact chk1_ok d L _ hlabT _ hv3 _ | exact chk2_ok d L _ hlabT _ hv5 _)
  ihave Hm' := (Entails.of_eq (pts_meanS_access (F := F) d L _).symm) $$ Hm
  iapply (SparseCore.wp_vectorLoadIdx 𝒱₀ (thr d L) none Set.univ (base := meanS) (S := Finset.univ) (q := fullShare) (Finset.subset_univ _)) $$ Hm'; iintro Hm'
  ihave Hm := (Entails.of_eq (pts_meanS_access (F := F) d L _)) $$ Hm'
  sl_exec
  ihave Hm' := (Entails.of_eq (pts_meanS_access (F := F) d L _).symm) $$ Hm
  iapply (SparseCore.wp_vectorLoadIdx 𝒱₀ (thr d L) none Set.univ (base := meanS) (S := Finset.univ) (q := fullShare) (Finset.subset_univ _)) $$ Hm'; iintro Hm'
  ihave Hm := (Entails.of_eq (pts_meanS_access (F := F) d L _)) $$ Hm'
  sl_exec
  ihave Hv' := (Entails.of_eq (pts_lvS_access (F := F) d L _).symm) $$ Hv
  iapply (SparseCore.wp_vectorLoadIdx 𝒱₀ (thr d L) none Set.univ (base := lvS) (S := Finset.univ) (q := fullShare) (Finset.subset_univ _)) $$ Hv'; iintro Hv'
  ihave Hv := (Entails.of_eq (pts_lvS_access (F := F) d L _)) $$ Hv'
  sl_exec
  ihave Hv' := (Entails.of_eq (pts_lvS_access (F := F) d L _).symm) $$ Hv
  iapply (SparseCore.wp_vectorLoadIdx 𝒱₀ (thr d L) none Set.univ (base := lvS) (S := Finset.univ) (q := fullShare) (Finset.subset_univ _)) $$ Hv'; iintro Hv'
  ihave Hv := (Entails.of_eq (pts_lvS_access (F := F) d L _)) $$ Hv'
  sl_exec
  sl_step
  isplitl [Hl]; · iexact Hl
  isplitl [Hm]; · iexact Hm
  isplitl [Hv]; · iexact Hv
  isplitl [H3]
  · iexists _; isplitr
    rotate_left
    · iexact H3
    · ipureintro
      rw [read_access_mean]
      refine rowsDone_step (F := F) (omS).view (labT m d L k) (meanT m d L) r.val f3 hf3 ⟨_, _⟩ ⟨_, _⟩ ?_ ?_ ?_ ?_
      · intro x
        exact piece_eq (labT m d L k) (meanT m d L) hlabT r.val hr 0 (by omega) (k0_off4 r) (k0_off4_inb r) (by rw [k0_off4_eq]; rfl) (by rw [k0_off4_eq]; rfl) v3 _ hv3
          (fun y => label_lane (labT m d L k) r.val hr 0 (by omega) (k0_off2 r) (k0_off2_inb r) (by rw [k0_off2_eq]; rfl) (by rw [k0_off2_eq]; rfl) shapeCasts_S1x16_S16 y) _ _ x
      · intro x
        exact piece_eq (labT m d L k) (meanT m d L) hlabT r.val hr 10 (by omega) (k0_off5 r) (k0_off5_inb r) (by rw [k0_off5_eq]; rfl) (by rw [k0_off5_eq]; rfl) v5 _ hv5
          (fun y => label_lane (labT m d L k) r.val hr 10 (by omega) (k0_off3 r) (k0_off3_inb r) (by rw [k0_off3_eq]; rfl) (by rw [k0_off3_eq]; rfl) shapeCasts_S1x16_S16 y) _ _ x
      · exact fun j => mem_rowRect (k0_off4 r) (k0_off4_inb r) r.val 0 (by rw [k0_off4_eq]; rfl) (by rw [k0_off4_eq]; rfl) j
      · exact fun j => mem_rowRect (k0_off5 r) (k0_off5_inb r) r.val 10 (by rw [k0_off5_eq]; rfl) (by rw [k0_off5_eq]; rfl) j
  · iexists _; isplitr
    rotate_left
    · iexact H4
    · ipureintro
      rw [read_access_lv]
      refine rowsDone_step (F := F) (olS).view (labT m d L k) (lvT m d L) r.val f4 hf4 ⟨_, _⟩ ⟨_, _⟩ ?_ ?_ ?_ ?_
      · intro x
        exact piece_eq (labT m d L k) (lvT m d L) hlabT r.val hr 0 (by omega) (k0_off6 r) (k0_off6_inb r) (by rw [k0_off6_eq]; rfl) (by rw [k0_off6_eq]; rfl) v3 _ hv3
          (fun y => label_lane (labT m d L k) r.val hr 0 (by omega) (k0_off2 r) (k0_off2_inb r) (by rw [k0_off2_eq]; rfl) (by rw [k0_off2_eq]; rfl) shapeCasts_S1x16_S16 y) _ _ x
      · intro x
        exact piece_eq (labT m d L k) (lvT m d L) hlabT r.val hr 10 (by omega) (k0_off5 r) (k0_off5_inb r) (by rw [k0_off5_eq]; rfl) (by rw [k0_off5_eq]; rfl) v5 _ hv5
          (fun y => label_lane (labT m d L k) r.val hr 10 (by omega) (k0_off3 r) (k0_off3_inb r) (by rw [k0_off3_eq]; rfl) (by rw [k0_off3_eq]; rfl) shapeCasts_S1x16_S16 y) _ _ x
      · exact fun j => mem_rowRect (k0_off6 r) (k0_off6_inb r) r.val 0 (by rw [k0_off6_eq]; rfl) (by rw [k0_off6_eq]; rfl) j
      · exact fun j => mem_rowRect (k0_off5 r) (k0_off5_inb r) r.val 10 (by rw [k0_off5_eq]; rfl) (by rw [k0_off5_eq]; rfl) j

open Cert.KernelIdealRows in
omit [FloatOps F] in
/-- A finished chunk scratch copied out to chunk k's rows of a result: those rows hold the result. -/
theorem om_chunk_done (k : Fin k0_t1_loop.trips) (g : Buf (Elt F) (omLoc d)) (w : S128x26.Idx → F .f32)
    (hw : ∀ y : S128x26.Idx, w y = rowFn (labT m d L k) (meanT m d L) y) :
    ∀ i ∈ (omChunk L k).view.set, (omChunk L k).view.writes (Elt F) g [⟨Rect.whole S128x26, w⟩] i = Gm m d i := by
  intro i hi
  obtain ⟨y, -, rfl⟩ := Finset.mem_map.mp hi
  have hrd := View.read_writes_cons_emb (omChunk L k).view g (Rect.whole S128x26) w [] y
  rw [Rect.emb_whole_apply, View.read_apply] at hrd
  refine ((cast_eq _ _).symm.trans hrd).trans ?_
  rw [hw y]
  have e1 : ((omChunk L k).view.emb y) 1 = y 1 := by
    apply Fin.ext; show k0_off7 L k 1 + 1 * (y 1).val = (y 1).val; rw [k0_off7_eq]; show 0 + 1 * (y 1).val = (y 1).val; omega
  have e2 : labT m d L k y = m (labLoc d) ((omChunk L k).view.emb y) := by
    refine (labT_apply m d L k y).trans (congrArg (m (labLoc d)) ?_)
    funext a; apply Fin.ext
    show k0_off1 L k a + 1 * (y a).val = k0_off7 L k a + 1 * (y a).val
    rw [k0_off1_eq, k0_off7_eq]
  show m (meanLoc d) (ix2 (y 1) (Cert.Spec.col (labT m d L k y)))
    = m (meanLoc d) (ix2 (((omChunk L k).view.emb y) 1) (Cert.Spec.col (m (labLoc d) ((omChunk L k).view.emb y))))
  rw [e1, e2]

open Cert.KernelIdealRows in
omit [FloatOps F] in
/-- A finished chunk scratch copied out to chunk k's rows of a result: those rows hold the result. -/
theorem ol_chunk_done (k : Fin k0_t1_loop.trips) (g : Buf (Elt F) (olLoc d)) (w : S128x26.Idx → F .f32)
    (hw : ∀ y : S128x26.Idx, w y = rowFn (labT m d L k) (lvT m d L) y) :
    ∀ i ∈ (olChunk L k).view.set, (olChunk L k).view.writes (Elt F) g [⟨Rect.whole S128x26, w⟩] i = Gl m d i := by
  intro i hi
  obtain ⟨y, -, rfl⟩ := Finset.mem_map.mp hi
  have hrd := View.read_writes_cons_emb (olChunk L k).view g (Rect.whole S128x26) w [] y
  rw [Rect.emb_whole_apply, View.read_apply] at hrd
  refine ((cast_eq _ _).symm.trans hrd).trans ?_
  rw [hw y]
  have e1 : ((olChunk L k).view.emb y) 1 = y 1 := by
    apply Fin.ext; show k0_off7 L k 1 + 1 * (y 1).val = (y 1).val; rw [k0_off7_eq]; show 0 + 1 * (y 1).val = (y 1).val; omega
  have e2 : labT m d L k y = m (labLoc d) ((olChunk L k).view.emb y) := by
    refine (labT_apply m d L k y).trans (congrArg (m (labLoc d)) ?_)
    funext a; apply Fin.ext
    show k0_off1 L k a + 1 * (y a).val = k0_off7 L k a + 1 * (y a).val
    rw [k0_off1_eq, k0_off7_eq]
  show m (lvLoc d) (ix2 (y 1) (Cert.Spec.col (labT m d L k y)))
    = m (lvLoc d) (ix2 (((olChunk L k).view.emb y) 1) (Cert.Spec.col (m (labLoc d) ((olChunk L k).view.emb y))))
  rw [e1, e2]

open Cert.KernelIdealRows in
/-- One chunk: its labels copied in, its rows filled, the two result scratches copied out to the chunk's rows. -/
theorem chunk_trip (hpre : PreOK m) (q : PosShare TreeShare) (O : CellTallies nD τ sig (HIx 1)) (W : Waits sig (HIx 1)) (v3 v5 : IVec S16 32)
    (hv3 : ∀ y : S16.Idx, (v3 y).toNat = 0 + (y 0).val) (hv5 : ∀ y : S16.Idx, (v5 y).toNat = 10 + (y 0).val) (k : Fin k0_t1_loop.trips) :
    inv m d L q O W k.val ⟨⟩
      ⊢ wp frame (wpE (defs₀ (F := F)) 𝒱₀ (thr d L) none) Set.univ
          (k0_t1_body L labW (Memref.isWhole_whole _) meanW (Memref.isWhole_whole _) lvW (Memref.isWhole_whole _) omW (Memref.isWhole_whole _) olW (Memref.isWhole_whole _)
            labS (Memref.isWhole_whole _) meanS (Memref.isWhole_whole _) lvS (Memref.isWhole_whole _) omS (Memref.isWhole_whole _) olS (Memref.isWhole_whole _)
            cc0_scoped0 cc0_scoped1 cc0_scoped2 cc0_scoped3 cc0_scoped4 v3 v5 k ()) (fun _ => inv m d L q O W (k.val + 1) ⟨⟩) := by
  have hk : k.val < 4 := trips1 ▸ k.isLt
  unfold k0_t1_body inv
  iintro ⟨Hmw, Hlab, ⟨%fl, Hl⟩, Hm, Hv, ⟨%f3, H3⟩, ⟨%f4, H4⟩, Hs2, Hs3, Hs4, Hdm, Hrm, Hdl, Hrl, %W', %hW', HO⟩
  ihave Hc := (carve_om (F := F) d L k _) $$ Hrm
  icases Hc with ⟨Hg3, Hrm⟩
  ihave Hc := (carve_ol (F := F) d L k _) $$ Hrl
  icases Hc with ⟨Hg4, Hrl⟩
  sl_exec
  ihave Hl := (pts_eq (F := F) (g := labT m d L k) (View.write_whole_univ _ _ _)) $$ Hl
  sl_for (innerInv m d L k) $$ [Hl Hm Hv H3 H4]
  case region =>
    intro r _
    exact row_trip m d L hpre k v3 v5 hv3 hv5 r
  · unfold innerInv
    isplitl [Hl]; · iexact Hl
    isplitl [Hm]; · iexact Hm
    isplitl [Hv]; · iexact Hv
    isplitl [H3]
    · iexists f3; isplitr
      · ipureintro; intro j hj; exact absurd hj (Nat.not_lt_zero _)
      · iexact H3
    · iexists f4; isplitr
      · ipureintro; intro j hj; exact absurd hj (Nat.not_lt_zero _)
      · iexact H4
  iintro %_ HI
  unfold innerInv
  icases HI with ⟨Hl, Hm, Hv, ⟨%f3', %hf3, H3⟩, ⟨%f4', %hf4, H4⟩⟩
  sl_exec
  sl_step
  have h128 : ∀ y : S128x26.Idx, (y 0).val < Scf.trips k0_t2_loop.lb k0_t2_loop.ub k0_t2_loop.st := fun y => by
    show (y 0).val < k0_t2_loop.trips; rw [trips2]; exact (y 0).isLt
  ihave Hg3 := (Entails.of_eq (pointsTo_congr (om_chunk_done m d L k _ _ (fun y => hf3 y (h128 y))))) $$ Hg3
  ihave Hg4 := (Entails.of_eq (pointsTo_congr (ol_chunk_done m d L k _ _ (fun y => hf4 y (h128 y))))) $$ Hg4
  ihave Hdm := (uncarve_om (F := F) d L k _) $$ [Hdm Hg3]
  · isplitl [Hdm] <;> iassumption
  ihave Hdl := (uncarve_ol (F := F) d L k _) $$ [Hdl Hg4]
  · isplitl [Hdl] <;> iassumption
  isplitl [Hmw]; · iexact Hmw
  isplitl [Hlab]; · iexact Hlab
  isplitl [Hl]; · iexists _; iexact Hl
  isplitl [Hm]; · iexact Hm
  isplitl [Hv]; · iexact Hv
  isplitl [H3]; · iexists _; iexact H3
  isplitl [H4]; · iexists _; iexact H4
  isplitl [Hs2]; · iexact Hs2
  isplitl [Hs3]; · iexact Hs3
  isplitl [Hs4]; · iexact Hs4
  isplitl [Hdm]; · iexact Hdm
  isplitl [Hrm]; · iexact Hrm
  isplitl [Hdl]; · iexact Hdl
  isplitl [Hrl]; · iexact Hrl
  iexists _; isplitr
  rotate_left
  · iexact HO
  · ipureintro; intro p hp
    simp only [Finset.mem_insert] at hp
    rcases hp with rfl | rfl | rfl | hp
    · exact .inr rfl
    · exact .inr rfl
    · exact .inr rfl
    · exact hW' p hp

omit [FloatOps F] in
theorem pts_labW (q : PosShare TreeShare) (f : Buf (Elt F) (labLoc d)) : (((labW).view.loc (thr d L) ↦{q} f : sProp 𝕄)) = (labLoc d ↦{q} f) := rfl
omit [FloatOps F] in
theorem pts_meanW (q : PosShare TreeShare) (f : Buf (Elt F) (meanLoc d)) : (((meanW).view.loc (thr d L) ↦{q} f : sProp 𝕄)) = (meanLoc d ↦{q} f) := rfl
omit [FloatOps F] in
theorem pts_lvW (q : PosShare TreeShare) (f : Buf (Elt F) (lvLoc d)) : (((lvW).view.loc (thr d L) ↦{q} f : sProp 𝕄)) = (lvLoc d ↦{q} f) := rfl

omit [FloatOps F] in
theorem pts_labS (f : Buf (Elt F) ((thr d L).loc cc0_scratch0)) : ((((labS).view.loc (thr d L) ↦{fullShare} f : sProp 𝕄))) = ((thr d L).loc cc0_scratch0 ↦{fullShare} f) := rfl
omit [FloatOps F] in
theorem pts_meanS (f : Buf (Elt F) ((thr d L).loc cc0_scratch1)) : ((((meanS).view.loc (thr d L) ↦{fullShare} f : sProp 𝕄))) = ((thr d L).loc cc0_scratch1 ↦{fullShare} f) := rfl
omit [FloatOps F] in
theorem pts_lvS (f : Buf (Elt F) ((thr d L).loc cc0_scratch2)) : ((((lvS).view.loc (thr d L) ↦{fullShare} f : sProp 𝕄))) = ((thr d L).loc cc0_scratch2 ↦{fullShare} f) := rfl
omit [FloatOps F] in
theorem pts_omS (f : Buf (Elt F) ((thr d L).loc cc0_scratch3)) : ((((omS).view.loc (thr d L) ↦{fullShare} f : sProp 𝕄))) = ((thr d L).loc cc0_scratch3 ↦{fullShare} f) := rfl
omit [FloatOps F] in
theorem pts_olS (f : Buf (Elt F) ((thr d L).loc cc0_scratch4)) : ((((olS).view.loc (thr d L) ↦{fullShare} f : sProp 𝕄))) = ((thr d L).loc cc0_scratch4 ↦{fullShare} f) := rfl
omit [FloatOps F] in
theorem rowsIn_self (a : ℕ) : rowsIn a a = ∅ := by
  ext j; rw [mem_rowsIn]; simp only [Finset.notMem_empty, iff_false]; omega
omit [FloatOps F] in
/-- Before the first chunk no row is written. -/
theorem none_done {ℓ : Loc nD τ sig} (I : Finset (Idx ℓ)) (hI : I = ∅) (f : Buf (Elt F) ℓ) :
    (iprop(emp) : sProp 𝕄) ⊢ ℓ ↦[I]{fullShare} f := by
  subst hI; rw [pointsTo_empty]
omit [FloatOps F] in
theorem all_done_om (f : Buf (Elt F) (omLoc d)) :
    (omLoc d ↦[rowsIn (base L) (base L + 128 * Scf.trips k0_t1_loop.lb k0_t1_loop.ub k0_t1_loop.st)]{fullShare} f : sProp 𝕄)
      = (omLoc d ↦[rowsIn (base L) (base L + 512)]{fullShare} f) := by
  rw [show Scf.trips k0_t1_loop.lb k0_t1_loop.ub k0_t1_loop.st = 4 from trips1]
omit [FloatOps F] in
theorem all_done_ol (f : Buf (Elt F) (olLoc d)) :
    (olLoc d ↦[rowsIn (base L) (base L + 128 * Scf.trips k0_t1_loop.lb k0_t1_loop.ub k0_t1_loop.st)]{fullShare} f : sProp 𝕄)
      = (olLoc d ↦[rowsIn (base L) (base L + 512)]{fullShare} f) := by
  rw [show Scf.trips k0_t1_loop.lb k0_t1_loop.ub k0_t1_loop.st = 4 from trips1]

open Cert.KernelIdealRows in
/-- A subcore's whole task: both tables copied in, then the four chunks. -/
theorem tile_body (hF : (K (F := F)).Facts) (hpre : PreOK m) (q : PosShare TreeShare) (O : CellTallies nD τ sig (HIx 1)) (W : Waits sig (HIx 1)) (hO : ∀ g, O g none = 0) :
    (iprop(levAts (K (F := F)).L (K (F := F)).lev ∗ emp
        ∗ (((labLoc d ↦{q} m (labLoc d)) ∗ (meanLoc d ↦{q} m (meanLoc d)) ∗ (lvLoc d ↦{q} m (lvLoc d))
          ∗ (omLoc d ↦[rowsIn (base L) (base L + 512)]{fullShare} m (omLoc d)) ∗ (olLoc d ↦[rowsIn (base L) (base L + 512)]{fullShare} m (olLoc d))))
        ∗ scopedBufs (thr d L) ∗ scopedSems0 (thr d L) ∗ owes (thr d L) O W) : sProp 𝕄)
      ⊢ wp frame (wpE (defs₀ (F := F)) 𝒱₀ (thr d L) none) Set.univ
          (cc0_gather_kernel L labW (Memref.isWhole_whole _) meanW (Memref.isWhole_whole _) lvW (Memref.isWhole_whole _) omW (Memref.isWhole_whole _) olW (Memref.isWhole_whole _)
            labS (Memref.isWhole_whole _) meanS (Memref.isWhole_whole _) lvS (Memref.isWhole_whole _) omS (Memref.isWhole_whole _) olS (Memref.isWhole_whole _)
            cc0_scoped0 cc0_scoped1 cc0_scoped2 cc0_scoped3 cc0_scoped4)
          fun _ => iprop((((labLoc d ↦{q} m (labLoc d)) ∗ (meanLoc d ↦{q} m (meanLoc d)) ∗ (lvLoc d ↦{q} m (lvLoc d))
              ∗ (omLoc d ↦[rowsIn (base L) (base L + 512)]{fullShare} Gm m d) ∗ (olLoc d ↦[rowsIn (base L) (base L + 512)]{fullShare} Gl m d)))
            ∗ scopedBufs (thr d L) ∗ scopedSems0 (thr d L) ∗ ∃ W', ⌜∀ p ∈ W', p ∈ W ∨ p.2 = none⌝ ∗ owes (thr d L) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hlab, Hmean, Hlv', Hom, Hol⟩, ⟨⟨⟨%f0, Hl⟩, ⟨%f1, Hm⟩, ⟨%f2, Hv⟩, ⟨%f3, H3⟩, ⟨%f4, H4⟩⟩, Hbufs⟩, ⟨⟨Hs0, Hs1, Hs2, Hs3, Hs4⟩, Hsems⟩, HO⟩
  ihave Hmw := ((K (F := F)).mayWaits_none (thr := thr d L) hO) $$ Hlv
  ihave Hlab := (Entails.of_eq (pts_labW (F := F) d L q _).symm) $$ Hlab
  ihave Hmean := (Entails.of_eq (pts_meanW (F := F) d L q _).symm) $$ Hmean
  ihave Hlv' := (Entails.of_eq (pts_lvW (F := F) d L q _).symm) $$ Hlv'
  ihave Hl := (Entails.of_eq (pts_labS (F := F) d L _).symm) $$ Hl
  ihave Hm := (Entails.of_eq (pts_meanS (F := F) d L _).symm) $$ Hm
  ihave Hv := (Entails.of_eq (pts_lvS (F := F) d L _).symm) $$ Hv
  ihave H3 := (Entails.of_eq (pts_omS (F := F) d L _).symm) $$ H3
  ihave H4 := (Entails.of_eq (pts_olS (F := F) d L _).symm) $$ H4
  sl_exec
  ihave Hm := (pts_eq (F := F) (g := meanT m d L) (View.write_whole_univ _ _ _)) $$ Hm
  ihave Hv := (pts_eq (F := F) (g := lvT m d L) (View.write_whole_univ _ _ _)) $$ Hv
  sl_for (inv m d L q O W) $$ [Hmw Hlab Hl Hm Hv H3 H4 Hs2 Hs3 Hs4 Hom Hol HO]
  case region =>
    intro k _
    exact chunk_trip m d L hpre q O W _ _ (iota_lane _) pay1_lane k
  · unfold inv
    isplitl [Hmw]; · iexact Hmw
    isplitl [Hlab]; · iexact Hlab
    isplitl [Hl]; · iexists _; iexact Hl
    isplitl [Hm]; · iexact Hm
    isplitl [Hv]; · iexact Hv
    isplitl [H3]; · iexists _; iexact H3
    isplitl [H4]; · iexists _; iexact H4
    isplitl [Hs2]; · iexact Hs2
    isplitl [Hs3]; · iexact Hs3
    isplitl [Hs4]; · iexact Hs4
    isplitr; · iapply (none_done (F := F) _ (rowsIn_self _) _); iempintro
    isplitl [Hom]; · iexact Hom
    isplitr; · iapply (none_done (F := F) _ (rowsIn_self _) _); iempintro
    isplitl [Hol]; · iexact Hol
    iexists _; isplitr
    rotate_left
    · iexact HO
    · ipureintro; intro p hp
      simp only [Finset.mem_insert] at hp
      rcases hp with rfl | rfl | hp
      · exact .inr rfl
      · exact .inr rfl
      · exact .inl hp
  iintro %_ HI
  unfold inv
  icases HI with ⟨-, Hlab, ⟨%fl', Hl⟩, Hm, Hv, ⟨%f3', H3⟩, ⟨%f4', H4⟩, Hs2, Hs3, Hs4, Hdm, -, Hdl, -, %W', %hW', HO⟩
  sl_step
  isplitl [Hlab Hmean Hlv' Hdm Hdl]
  · isplitl [Hlab]; · iapply (Entails.of_eq (pts_labW (F := F) d L q _)); iexact Hlab
    isplitl [Hmean]; · iapply (Entails.of_eq (pts_meanW (F := F) d L q _)); iexact Hmean
    isplitl [Hlv']; · iapply (Entails.of_eq (pts_lvW (F := F) d L q _)); iexact Hlv'
    isplitl [Hdm]; · iapply (Entails.of_eq (all_done_om (F := F) d L _)); iexact Hdm
    iapply (Entails.of_eq (all_done_ol (F := F) d L _)); iexact Hdl
  isplitl [Hl Hm Hv H3 H4 Hbufs]
  · isplitl [Hl Hm Hv H3 H4]
    · isplitl [Hl]; · iexists _; iapply (Entails.of_eq (pts_labS (F := F) d L _)); iexact Hl
      isplitl [Hm]; · iexists _; iapply (Entails.of_eq (pts_meanS (F := F) d L _)); iexact Hm
      isplitl [Hv]; · iexists _; iapply (Entails.of_eq (pts_lvS (F := F) d L _)); iexact Hv
      isplitl [H3]; · iexists _; iapply (Entails.of_eq (pts_omS (F := F) d L _)); iexact H3
      iexists _; iapply (Entails.of_eq (pts_olS (F := F) d L _)); iexact H4
    · iexact Hbufs
  isplitl [Hs0 Hs1 Hs2 Hs3 Hs4 Hsems]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    · iexact Hsems
  iexists W'; isplitr
  · ipureintro; exact hW'
  · iexact HO

end Tile

/-! ## What the handshakes carry -/

/-- The read share of subcore i of core c: the i-th token of the c-th token of the whole. -/
abbrev tileShare (c i : ℕ) : PosShare TreeShare := Transfers.shareTokN (Transfers.shareTokN fullShare c) i

/-- The 512 rows of subcore i of core c. -/
abbrev tileRows (c i : ℕ) : Finset S16384x26.Idx := rowsIn (8192 * c + 512 * i) (8192 * c + 512 * i + 512)

/-- What subcore i of core c holds: a read share of the labels and of both tables, and its rows of the two results at
    contents gm, gl. -/
def tileGen (d : Dev nD) (gm : Buf (Elt F) (omLoc d)) (gl : Buf (Elt F) (olLoc d)) (c i : ℕ) : sProp 𝕄 :=
  iprop((labLoc d ↦{tileShare c i} m (labLoc d)) ∗ (meanLoc d ↦{tileShare c i} m (meanLoc d)) ∗ (lvLoc d ↦{tileShare c i} m (lvLoc d))
    ∗ (omLoc d ↦[tileRows c i]{fullShare} gm) ∗ (olLoc d ↦[tileRows c i]{fullShare} gl))

instance tileGen_storable (d : Dev nD) (gm : Buf (Elt F) (omLoc d)) (gl : Buf (Elt F) (olLoc d)) (c i : ℕ) :
    BI.Storable (upEmb : UEmb _ 𝕄) (tileGen m d gm gl c i) := by unfold tileGen; infer_instance

/-- The one call hands each core its sixteen subcores' holdings, each subcore its own, and takes them back with the
    results' rows written. -/
def P : (K (F := F)).Pay (nD := nD) (Val := Elt F) (Name := ℕ) (U := UU) where
  st := fun _ d c => bigSep (Finset.univ : Finset (Fin 16)) fun i => tileGen m d (m (omLoc d)) (m (olLoc d)) c.val i.val
  dn := fun _ d c => bigSep (Finset.univ : Finset (Fin 16)) fun i => tileGen m d (Gm m d) (Gl m d) c.val i.val
  go := fun _ d c i => tileGen m d (m (omLoc d)) (m (olLoc d)) c.val i.val
  td := fun _ d c i => tileGen m d (Gm m d) (Gl m d) c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          labW (Memref.isWhole_whole _) meanW (Memref.isWhole_whole _) lvW (Memref.isWhole_whole _) omW (Memref.isWhole_whole _) olW (Memref.isWhole_whole _)
          labS (Memref.isWhole_whole _) meanS (Memref.isWhole_whole _) lvS (Memref.isWhole_whole _) omS (Memref.isWhole_whole _) olS (Memref.isWhole_whole _)
          cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre (tileShare c.val i.val) O W hO).trans (wp_mono frame _ _ fun _ => obl_post)

theorem vecSplit : (K (F := F)).VecSplit' (P m) 0 := by
  intro d c
  show (bigSep (Finset.univ : Finset (Fin 16)) fun i => tileGen m d (m (omLoc d)) (m (olLoc d)) c.val i.val)
    ⊢ |={Set.univ}=> iprop((bigSep (Finset.univ : Finset (Fin 16)) fun i => tileGen m d (m (omLoc d)) (m (olLoc d)) c.val i.val)
      ∗ ((bigSep (Finset.univ : Finset (Fin 16)) fun i => tileGen m d (Gm m d) (Gl m d) c.val i.val)
          -∗ bigSep (Finset.univ : Finset (Fin 16)) fun i => tileGen m d (Gm m d) (Gl m d) c.val i.val))
  iintro H; imodintro
  isplitl [H]; · iexact H
  iintro H; iexact H

/-! ## The launch element: the handshakes' rounds; the transfers' counters are dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Dealing the arrays to the thirty-two subcores and gathering them back -/

/-- What is kept of a read array while the subcores hold their shares. -/
def readRem (ℓ : Loc nD τ sig) (f : Buf (Elt F) ℓ) : sProp 𝕄 :=
  iprop((ℓ ↦{Transfers.shareDrop fullShare 2} f) ∗ bigSep Finset.univ fun c : Fin 2 => ℓ ↦{Transfers.shareDrop (Transfers.shareTok fullShare 2 c) 16} f)

omit [FloatOps F] in
theorem read_split (ℓ : Loc nD τ sig) (f : Buf (Elt F) ℓ) :
    (ℓ ↦{fullShare} f : sProp 𝕄) ⊢ iprop(readRem ℓ f ∗ bigSep Finset.univ fun c : Fin 2 => bigSep Finset.univ fun i : Fin 16 => ℓ ↦{tileShare c.val i.val} f) := by
  unfold readRem
  iintro H
  ihave H := (Transfers.pointsTo_toks_split fullShare 2) $$ H
  icases H with ⟨Hr, Ht⟩
  have hmono : (bigSep Finset.univ fun c : Fin 2 => (ℓ ↦{Transfers.shareTok fullShare 2 c} f : sProp 𝕄))
      ⊢ bigSep Finset.univ fun c : Fin 2 => iprop((ℓ ↦{Transfers.shareDrop (Transfers.shareTok fullShare 2 c) 16} f)
          ∗ bigSep Finset.univ fun i : Fin 16 => (ℓ ↦{tileShare c.val i.val} f : sProp 𝕄)) :=
    bigSep_mono fun c _ => Transfers.pointsTo_toks_split (Transfers.shareTok fullShare 2 c) 16
  ihave Ht := hmono $$ Ht
  ihave Ht := (Entails.of_eq (bigSep_sep' _ _ _)) $$ Ht
  icases Ht with ⟨Hr2, Ht⟩
  isplitl [Hr Hr2]
  · isplitl [Hr]; · iexact Hr
    iexact Hr2
  iexact Ht
omit [FloatOps F] in
theorem read_join (ℓ : Loc nD τ sig) (f : Buf (Elt F) ℓ) :
    iprop(readRem ℓ f ∗ bigSep Finset.univ fun c : Fin 2 => bigSep Finset.univ fun i : Fin 16 => ℓ ↦{tileShare c.val i.val} f) ⊢ (ℓ ↦{fullShare} f : sProp 𝕄) := by
  unfold readRem
  iintro ⟨⟨Hr, Hr2⟩, Ht⟩
  ihave Ht := (Entails.of_eq (bigSep_sep' _ _ _).symm) $$ [Hr2 Ht]
  · isplitl [Hr2] <;> iassumption
  have hmono : (bigSep Finset.univ fun c : Fin 2 => iprop((ℓ ↦{Transfers.shareDrop (Transfers.shareTok fullShare 2 c) 16} f)
          ∗ bigSep Finset.univ fun i : Fin 16 => (ℓ ↦{tileShare c.val i.val} f : sProp 𝕄)))
      ⊢ bigSep Finset.univ fun c : Fin 2 => (ℓ ↦{Transfers.shareTok fullShare 2 c} f : sProp 𝕄) :=
    bigSep_mono fun c _ => Transfers.pointsTo_toks_join (Transfers.shareTok fullShare 2 c) 16
  ihave Ht := hmono $$ Ht
  iapply (Transfers.pointsTo_toks_join fullShare 2)
  isplitl [Hr]; · iexact Hr
  iexact Ht

omit [FloatOps F] in
theorem tileRows_disjoint : ∀ t ∈ (Finset.univ : Finset (Fin 2 × Fin 16)), ∀ t' ∈ (Finset.univ : Finset (Fin 2 × Fin 16)), t ≠ t' →
    Disjoint (tileRows t.1.val t.2.val) (tileRows t'.1.val t'.2.val) := by
  intro t _ t' _ hne
  refine Finset.disjoint_left.mpr fun j h1 h2 => hne ?_
  rw [mem_rowsIn] at h1 h2
  have a1 := t.1.isLt; have a2 := t.2.isLt; have b1 := t'.1.isLt; have b2 := t'.2.isLt
  exact Prod.ext (Fin.ext (by omega)) (Fin.ext (by omega))
omit [FloatOps F] in
theorem tileRows_cover : (Finset.univ : Finset (Fin 2 × Fin 16)).biUnion (fun t => tileRows t.1.val t.2.val) = Finset.univ := by
  ext j
  have hj : (j 0).val < 16384 := (j 0).isLt
  simp only [Finset.mem_biUnion, Finset.mem_univ, true_and, iff_true]
  exact ⟨(⟨(j 0).val / 8192, by omega⟩, ⟨(j 0).val % 8192 / 512, by omega⟩), mem_rowsIn.mpr (by show 8192 * ((j 0).val / 8192) + 512 * ((j 0).val % 8192 / 512) ≤ _ ∧ _ < 8192 * ((j 0).val / 8192) + 512 * ((j 0).val % 8192 / 512) + 512; omega)⟩
omit [FloatOps F] in
/-- A result held whole is its thirty-two blocks of rows. -/
theorem om_rows (d : Dev nD) (f : Buf (Elt F) (omLoc d)) :
    (omLoc d ↦{fullShare} f : sProp 𝕄) = bigSep Finset.univ fun c : Fin 2 => bigSep Finset.univ fun i : Fin 16 => omLoc d ↦[tileRows c.val i.val]{fullShare} f := by
  rw [← bigSep_univ_prod (fun t : Fin 2 × Fin 16 => (omLoc d ↦[tileRows t.1.val t.2.val]{fullShare} f : sProp 𝕄)),
    ← pointsTo_biUnion Finset.univ (ℓ := omLoc d) (fun t : Fin 2 × Fin 16 => tileRows t.1.val t.2.val) tileRows_disjoint, tileRows_cover]
omit [FloatOps F] in
theorem ol_rows (d : Dev nD) (f : Buf (Elt F) (olLoc d)) :
    (olLoc d ↦{fullShare} f : sProp 𝕄) = bigSep Finset.univ fun c : Fin 2 => bigSep Finset.univ fun i : Fin 16 => olLoc d ↦[tileRows c.val i.val]{fullShare} f := by
  rw [← bigSep_univ_prod (fun t : Fin 2 × Fin 16 => (olLoc d ↦[tileRows t.1.val t.2.val]{fullShare} f : sProp 𝕄)),
    ← pointsTo_biUnion Finset.univ (ℓ := olLoc d) (fun t : Fin 2 × Fin 16 => tileRows t.1.val t.2.val) tileRows_disjoint, tileRows_cover]

omit [FloatOps F] in
/-- All subcores' holdings, array by array. -/
theorem deal_eq (d : Dev nD) (gm : Buf (Elt F) (omLoc d)) (gl : Buf (Elt F) (olLoc d)) :
    (bigSep Finset.univ fun c : Fin 2 => bigSep Finset.univ fun i : Fin 16 => tileGen m d gm gl c.val i.val)
      = iprop((bigSep Finset.univ fun c : Fin 2 => bigSep Finset.univ fun i : Fin 16 => labLoc d ↦{tileShare c.val i.val} m (labLoc d))
        ∗ (bigSep Finset.univ fun c : Fin 2 => bigSep Finset.univ fun i : Fin 16 => meanLoc d ↦{tileShare c.val i.val} m (meanLoc d))
        ∗ (bigSep Finset.univ fun c : Fin 2 => bigSep Finset.univ fun i : Fin 16 => lvLoc d ↦{tileShare c.val i.val} m (lvLoc d))
        ∗ (bigSep Finset.univ fun c : Fin 2 => bigSep Finset.univ fun i : Fin 16 => omLoc d ↦[tileRows c.val i.val]{fullShare} gm)
        ∗ (bigSep Finset.univ fun c : Fin 2 => bigSep Finset.univ fun i : Fin 16 => olLoc d ↦[tileRows c.val i.val]{fullShare} gl)) := by
  unfold tileGen
  simp only [bigSep_sep']

/-! ## @main on the TensorCore -/

omit [FloatOps F] in
theorem unscopedBufs_eq (d : Dev nD) (Wb : (b : Ref sig .tc) → Buf (Elt F) ((d.tc : Thread nD τ).loc b)) :
    (unscopedBufs d Wb : sProp 𝕄) = iprop((labLoc d ↦{fullShare} Wb main_arg0) ∗ (meanLoc d ↦{fullShare} Wb main_arg1) ∗ (lvLoc d ↦{fullShare} Wb main_arg2)
      ∗ (omLoc d ↦{fullShare} Wb main_v0_0) ∗ (olLoc d ↦{fullShare} Wb main_v0_1)) := by
  unfold unscopedBufs
  rw [show (Finset.univ.filter fun b : Ref sig .tc => ¬ b.isScoped) = {main_arg0, main_arg1, main_arg2, main_v0_0, main_v0_1} by decide,
    SparseCore.bigSep_insert' (by decide), SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c)
    = bigSep Finset.univ fun c : Fin 2 => bigSep Finset.univ fun i : Fin 16 => tileGen m d (m (omLoc d)) (m (olLoc d)) c.val i.val := rfl
theorem dn0_eq (d : Dev nD) : (bigSep Finset.univ fun c : Fin ((K (F := F)).nCore 0) => (P m).dn 0 d c)
    = bigSep Finset.univ fun c : Fin 2 => bigSep Finset.univ fun i : Fin 16 => tileGen m d (Gm m d) (Gl m d) c.val i.val := rfl

/-- What @main leaves the claim: the arguments at their launch contents, the results at the lookups. -/
abbrev FIN (d : Dev nD) : sProp 𝕄 :=
  iprop((labLoc d ↦{fullShare} m (labLoc d)) ∗ (meanLoc d ↦{fullShare} m (meanLoc d)) ∗ (lvLoc d ↦{fullShare} m (lvLoc d))
    ∗ (omLoc d ↦{fullShare} Gm m d) ∗ (olLoc d ↦{fullShare} Gl m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hlab, Hmean, Hlv, Hom, Hol⟩, -, -⟩, -⟩
  ihave Hlab := (read_split (F := F) (labLoc d) _) $$ Hlab
  icases Hlab with ⟨Rlab, Tlab⟩
  ihave Hmean := (read_split (F := F) (meanLoc d) _) $$ Hmean
  icases Hmean with ⟨Rmean, Tmean⟩
  ihave Hlv := (read_split (F := F) (lvLoc d) _) $$ Hlv
  icases Hlv with ⟨Rlv, Tlv⟩
  ihave Hom := (Entails.of_eq (om_rows (F := F) d _)) $$ Hom
  ihave Hol := (Entails.of_eq (ol_rows (F := F) d _)) $$ Hol
  iapply ((K (F := F)).wp_run (D (F := F)) 𝒱 (EH := EH) (P := P m) κ d 0) $$ [Hst Tlab Tmean Tlv Hom Hol Rlab Rmean Rlv]
  isplitr; · iexact Hctx
  isplitl [Hst]; · iexact Hst
  isplitl [Tlab Tmean Tlv Hom Hol]
  · rw [st0_eq, deal_eq]
    isplitl [Tlab]; · iexact Tlab
    isplitl [Tmean]; · iexact Tmean
    isplitl [Tlv]; · iexact Tlv
    isplitl [Hom]; · iexact Hom
    iexact Hol
  iintro ⟨Hst, Hdn⟩
  ihave Hdn' := (Entails.of_eq ((dn0_eq m d).trans (deal_eq m d _ _))) $$ Hdn
  icases Hdn' with ⟨Tlab, Tmean, Tlv, Hom, Hol⟩
  ihave Hlab := (read_join (F := F) (labLoc d) _) $$ [Rlab Tlab]
  · isplitl [Rlab] <;> iassumption
  ihave Hmean := (read_join (F := F) (meanLoc d) _) $$ [Rmean Tmean]
  · isplitl [Rmean] <;> iassumption
  ihave Hlv := (read_join (F := F) (lvLoc d) _) $$ [Rlv Tlv]
  · isplitl [Rlv] <;> iassumption
  ihave Hom := (Entails.of_eq (om_rows (F := F) d _).symm) $$ Hom
  ihave Hol := (Entails.of_eq (ol_rows (F := F) d _).symm) $$ Hol
  imodintro
  isplitl [Hst]; · iexact Hst
  isplitl [Hlab]; · iexact Hlab
  isplitl [Hmean]; · iexact Hmean
  isplitl [Hlv]; · iexact Hlv
  isplitl [Hom]; · iexact Hom
  iexact Hol

def fq (d : Dev nD) (s' : Phys nD τ sig (Elt F)) : Prop :=
  s'.mem.mem (omLoc d) = Gm m d ∧ s'.mem.mem (olLoc d) = Gl m d
    ∧ s'.mem.mem (labLoc d) = m (labLoc d) ∧ s'.mem.mem (meanLoc d) = m (meanLoc d) ∧ s'.mem.mem (lvLoc d) = m (lvLoc d)

theorem hfin (d : Dev nD) (s' : Phys nD τ sig (Elt F)) : iprop(FIN m d ∗ SI s') ⊢ (⌜fq m d s'⌝ : sProp 𝕄) := by
  iintro ⟨⟨Hlab, Hmean, Hlv, Hom, Hol⟩, HSI⟩
  ihave H := (persistent_entails_right (SI_pointsTo_agree (st := s') (ℓ := labLoc d) (I := Finset.univ) (q := fullShare) (f := m (labLoc d)))) $$ [HSI Hlab]
  · isplitl [HSI] <;> iassumption
  icases H with ⟨%h1, HSI, -⟩
  ihave H := (persistent_entails_right (SI_pointsTo_agree (st := s') (ℓ := meanLoc d) (I := Finset.univ) (q := fullShare) (f := m (meanLoc d)))) $$ [HSI Hmean]
  · isplitl [HSI] <;> iassumption
  icases H with ⟨%h2, HSI, -⟩
  ihave H := (persistent_entails_right (SI_pointsTo_agree (st := s') (ℓ := lvLoc d) (I := Finset.univ) (q := fullShare) (f := m (lvLoc d)))) $$ [HSI Hlv]
  · isplitl [HSI] <;> iassumption
  icases H with ⟨%h3, HSI, -⟩
  ihave H := (persistent_entails_right (SI_pointsTo_agree (st := s') (ℓ := omLoc d) (I := Finset.univ) (q := fullShare) (f := Gm m d))) $$ [HSI Hom]
  · isplitl [HSI] <;> iassumption
  icases H with ⟨%h4, HSI, -⟩
  ihave H := (SI_pointsTo_agree (st := s') (ℓ := olLoc d) (I := Finset.univ) (q := fullShare) (f := Gl m d)) $$ [HSI Hol]
  · isplitl [HSI] <;> iassumption
  icases H with %h5
  ipureintro
  exact ⟨funext fun i => h4 i (Finset.mem_univ i), funext fun i => h5 i (Finset.mem_univ i), funext fun i => h1 i (Finset.mem_univ i),
    funext fun i => h2 i (Finset.mem_univ i), funext fun i => h3 i (Finset.mem_univ i)⟩

/-! ## The program's run -/

/-- Every device ends with the two results at the lookups and the three arguments unchanged. -/
def QC : PUnit × MemSt nD τ sig (Elt F) → Prop := fun r => ∀ c : Dev nD,
  r.2.mem (omLoc c) = Gm m c ∧ r.2.mem (olLoc c) = Gl m c
    ∧ r.2.mem (labLoc c) = m (labLoc c) ∧ r.2.mem (meanLoc c) = m (meanLoc c) ∧ r.2.mem (lvLoc c) = m (lvLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KernelIdealRun

end
-- ==== Proof.lean ====
/-
  The five conjuncts, assembled.

  Under the precondition every label is a word below 1000 (the precondition's last conjunct, read back at an index).
  Then both printed kernels run to the end on every interleaving of the device's thirty-five threads, leaving the two
  results at out[b, d] = table[d, label[b, d]] and the three arguments unchanged: that run, with the results dropped,
  is each kernel's frame, and at the ideal instance it is the kernel's half of the equivalence. The reference's run ends
  with the same two functions of the arguments: its index arrays are the row number and the label themselves once
  "if negative add the extent" is seen to change nothing, and its gather's clamp is the identity in range. The ideal
  pass rewrote no operation, so there is nothing to preserve.
-/
import proofs.«200214_g45973329936461_cont_8to1_c_83_7_alg».proof.Defs
import proofs.«200214_g45973329936461_cont_8to1_c_83_7_alg».proof.Proof.Gen.Kernel
import proofs.«200214_g45973329936461_cont_8to1_c_83_7_alg».proof.Proof.Gen.Kernel.Skeleton
import proofs.«200214_g45973329936461_cont_8to1_c_83_7_alg».proof.Proof.Gen.KernelIdeal
import proofs.«200214_g45973329936461_cont_8to1_c_83_7_alg».proof.Proof.Gen.KernelIdeal.Skeleton
import proofs.«200214_g45973329936461_cont_8to1_c_83_7_alg».proof.Proof.Gen.ReferenceIdeal
import proofs.«200214_g45973329936461_cont_8to1_c_83_7_alg».proof.Proof.Gen.Pre_input_domain
import proofs.«200214_g45973329936461_cont_8to1_c_83_7_alg».proof.Proof.Gen.ReferenceIdeal.Read
import proofs.«200214_g45973329936461_cont_8to1_c_83_7_alg».proof.Proof.PreLabels
import proofs.«200214_g45973329936461_cont_8to1_c_83_7_alg».proof.Proof.RefLookup
import proofs.«200214_g45973329936461_cont_8to1_c_83_7_alg».proof.Proof.KernelRun
import proofs.«200214_g45973329936461_cont_8to1_c_83_7_alg».proof.Proof.KernelIdealRun
import Idealize.ShloMosaic.Adequacy
import Idealize.ShloMosaic.Init

noncomputable section

namespace Cert.Proof

open Idealize.ShloMosaic Idealize.SL.Sem

/-- The precondition of the word-level kernel gives what its run asks of the launch memory. -/
theorem preOK_Kernel (m : (ℓ : Loc Cert.Kernel.nD Cert.Kernel.τ Cert.Kernel.sig) → Buf (Elt Bits) ℓ)
    (h : Cert.Pre_Kernel (hPre_input_domain := Cert.Pre_input_domain.Gen.facts) m) : Cert.KernelRun.PreOK (F := Bits) m :=
  fun d j => Cert.PreLabels.labels_lt (F := Bits) _ _ _ (h d) j

/-- The same for the idealized kernel. -/
theorem preOK_KernelIdeal (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.KernelIdealRun.PreOK (F := Ideal) m :=
  fun d j => Cert.PreLabels.labels_lt (F := Ideal) _ _ _ (h d) j

theorem frame_K : Cert.frame_Kernel (hKernel := Cert.Kernel.Gen.facts) (hPre_input_domain := Cert.Pre_input_domain.Gen.facts) := fun m ρ hpre =>
  (θ_run Cert.Kernel.defs _ _).mono (fun _ h c => ⟨(h c).2.2.1, (h c).2.2.2.1, (h c).2.2.2.2⟩)
    (Cert.KernelRun.run_main (F := Bits) m ρ (preOK_Kernel m hpre))

theorem frame_KI : Cert.frame_KernelIdeal (hKernelIdeal := Cert.KernelIdeal.Gen.facts) (hPre_input_domain := Cert.Pre_input_domain.Gen.facts) := fun m ρ hpre =>
  (θ_run Cert.KernelIdeal.defs _ _).mono (fun _ h c => ⟨(h c).2.2.1, (h c).2.2.2.1, (h c).2.2.2.2⟩)
    (Cert.KernelIdealRun.run_main (F := Ideal) m ρ (preOK_KernelIdeal m hpre))

theorem frame_RI : Cert.frame_ReferenceIdeal (hReferenceIdeal := Cert.ReferenceIdeal.Gen.facts) (hPre_input_domain := Cert.Pre_input_domain.Gen.facts) := fun m ρ _ =>
  (θ_run Cert.ReferenceIdeal.defs _ _).mono (fun _ h c => (h c).2.2) (Cert.ReferenceIdeal.Value.run (F := Ideal) m ρ)

/-- Both idealized programs end with each result the table looked up at the labels. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  have hok := preOK_KernelIdeal m hpre
  refine ⟨fun c => Cert.KernelIdealRun.Gm m c, fun c => Cert.KernelIdealRun.Gl m c, ?_, ?_⟩
  · exact (θ_run Cert.KernelIdeal.defs _ _).mono (fun _ h c => h c) (Cert.KernelIdealRun.run_main (F := Ideal) m ρ hok)
  · refine (θ_run Cert.ReferenceIdeal.defs _ _).mono (fun _ h c => ⟨?_, ?_, (h c).2.2⟩) (Cert.ReferenceIdeal.Value.run (F := Ideal) m' ρ')
    · have hlab : ∀ j, (m' ((c.tc : Thread Cert.ReferenceIdeal.nD Cert.ReferenceIdeal.τ).loc Cert.ReferenceIdeal.main_arg0) j).toNat < 1000 := by
        rw [(hagree c).1]; exact hok c
      refine (h c).1.trans (((Cert.ReferenceIdeal.Read.val_main_v16_eq _ _).trans (Cert.RefLookup.ref_v16 _ _ hlab)).trans ?_)
      rw [(hagree c).1, (hagree c).2.1]; rfl
    · have hlab : ∀ j, (m' ((c.tc : Thread Cert.ReferenceIdeal.nD Cert.ReferenceIdeal.τ).loc Cert.ReferenceIdeal.main_arg0) j).toNat < 1000 := by
        rw [(hagree c).1]; exact hok c
      refine (h c).2.1.trans (((Cert.ReferenceIdeal.Read.val_main_v31_eq _ _).trans (Cert.RefLookup.ref_v31 _ _ hlab)).trans ?_)
      rw [(hagree c).1, (hagree c).2.2]; rfl

theorem claim : Cert.Claim := ⟨Cert.Kernel.Gen.facts, Cert.KernelIdeal.Gen.facts, Cert.ReferenceIdeal.Gen.facts, Cert.Pre_input_domain.Gen.facts,
  frame_K, frame_KI, frame_RI, trivial, algebraic⟩

end Cert.Proof

end
